-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S64x64 : Shape := ⟨2, ![64, 64]⟩
abbrev S128x64 : Shape := ⟨2, ![128, 64]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S8x64x256x256 .f32) (main_arg1 : FVec F S8x64x256x256 .f32) (main_arg2 : FVec F S64x64 .f32) (main_arg3 : FVec F S128x64 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S8x64x256x256 .f32 := Host.absf main_arg1
  let main_cst_0 : FVec F S_ .f32 := constant S_ .f32 0x7F800000#32
  let main_v5 : FVec F S8x64x256x256 .f32 := broadcastInDim S8x64x256x256 ![] bcast_S_S8x64x256x256 main_cst_0
  let main_v6 : IVec S8x64x256x256 1 := cmpf .olt main_v4 main_v5
  let main_c_1 : IVec S_ 1 := constantI S_ 1 1#1
  let main_v7 : IVec S_ 1 := (fun x v => Host.reduce IntOp.andi x v reducesTo_S8x64x256x256_S_d0_1_2_3 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S8x64x256x256 : Shape := ⟨4, ![8, 64, 256, 256]⟩
abbrev S64x64 : Shape := ⟨2, ![64, 64]⟩
abbrev S128x64 : Shape := ⟨2, ![128, 64]⟩
abbrev S_ : Shape := ⟨0, ![]⟩
abbrev S8x64x65536 : Shape := ⟨3, ![8, 64, 65536]⟩
abbrev S1x64x4096 : Shape := ⟨3, ![1, 64, 4096]⟩
abbrev S1x64x256x256 : Shape := ⟨4, ![1, 64, 256, 256]⟩
abbrev S64x65536 : Shape := ⟨2, ![64, 65536]⟩
abbrev S64x4096 : Shape := ⟨2, ![64, 4096]⟩
abbrev S128x4096 : Shape := ⟨2, ![128, 4096]⟩
abbrev S8x65536 : Shape := ⟨2, ![8, 65536]⟩
abbrev S8x256x256 : Shape := ⟨3, ![8, 256, 256]⟩
abbrev S8x256 : Shape := ⟨2, ![8, 256]⟩
abbrev S8x256x1 : Shape := ⟨3, ![8, 256, 1]⟩
abbrev S1x8x256x256 : Shape := ⟨4, ![1, 8, 256, 256]⟩

abbrev nBuf : Space → Nat
  | .hbm => 10
  | .vmem => 10
  | .smem => 0
  | _ => 0

abbrev bufTy : (tb : Table) → Fin (tcTables nBuf tb) → BufTy
  | .hbm, ⟨0, _⟩ => ⟨S8x64x256x256, .f32⟩
  | .hbm, ⟨1, _⟩ => ⟨S8x64x256x256, .f32⟩
  | .hbm, ⟨2, _⟩ => ⟨S64x64, .f32⟩
  | .hbm, ⟨3, _⟩ => ⟨S128x64, .f32⟩
  | .hbm, ⟨4, _⟩ => ⟨S_, .f32⟩
  | .hbm, ⟨5, _⟩ => ⟨S64x64, .f32⟩
  | .hbm, ⟨6, _⟩ => ⟨S64x64, .f32⟩
  | .hbm, ⟨7, _⟩ => ⟨S8x64x65536, .f32⟩
  | .hbm, ⟨8, _⟩ => ⟨S8x64x65536, .f32⟩
  | .hbm, ⟨9, _⟩ => ⟨S8x64x256x256, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S64x64, .f32⟩
  | .local _ .vmem, ⟨5, _⟩ => ⟨S128x64, .f32⟩
  | .local _ .vmem, ⟨6, _⟩ => ⟨S1x64x256x256, .f32⟩
  | .local _ .vmem, ⟨7, _⟩ => ⟨S64x65536, .bf16⟩
  | .local _ .vmem, ⟨8, _⟩ => ⟨S64x65536, .bf16⟩
  | .local _ .vmem, ⟨9, _⟩ => ⟨S64x65536, .bf16⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c4096_i32 : BitVec 32 := 4096#32
  let v13 : BitVec 32 := Scalar.muli arg1 c4096_i32
  v13
def k0_off1 (i : grid0.Coords) : Fin 2 → Nat :=
  let c0_10 : Index := 0#32
  let arg1 : BitVec 32 := BitVec.ofNat 32 (i 1).val
  let c4096_i32 : BitVec 32 := 4096#32
  let v13 : BitVec 32 := Scalar.muli arg1 c4096_i32
  let v14 : BitVec 32 := v13
  let v16 : Index := Scalar.indexCast v14
  ![0, v16.toNat]
def k0_cond1 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32 : BitVec 32 := 0#32
  let v34 : BitVec 1 := Scalar.cmpi .ne v33 c0_i32
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  bcast_S_S64x64 : S_.BroadcastsInDim S64x64 (![] : Fin 0 → Fin S64x64.rank)
  shapeCasts_S8x64x256x256_S8x64x65536 : S8x64x256x256.ShapeCasts S8x64x65536
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64_S128x64_0_0 : ∀ a, (![0, 0] : Fin 2 → Nat) a + S128x64.size a ≤ S128x64.size a
  h_S128x64 : 0 < S128x64.numel
  h_S64x4096 : 0 < S64x4096.numel
  shapeCasts_S64x4096_S64x4096 : S64x4096.ShapeCasts S64x4096
  slices_S128x4096_o0_0_S64x4096 : S128x4096.Slices ![0, 0] S64x4096
  slices_S128x4096_o64_0_S64x4096 : S128x4096.Slices ![64, 0] S64x4096
  inb_S64x65536_S8x65536_0_0 : ∀ a, (![0, 0] : Fin 2 → Nat) a + S8x65536.size a ≤ S64x65536.size a
  h_S8x65536 : 0 < S8x65536.numel
  shapeCasts_S8x65536_S8x256x256 : S8x65536.ShapeCasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  inb_S1x64x256x256_S1x8x256x256_0_0_0_0 : ∀ a, (![0, 0, 0, 0] : Fin 4 → Nat) a + S1x8x256x256.size a ≤ S1x64x256x256.size a
  h_S1x8x256x256 : 0 < S1x8x256x256.numel
  shapeCasts_S1x8x256x256_S8x256x256 : S1x8x256x256.ShapeCasts S8x256x256
  shapeCasts_S8x256x256_S1x8x256x256 : S8x256x256.ShapeCasts S1x8x256x256
  inb_S64x65536_S8x65536_8_0 : ∀ a, (![8, 0] : Fin 2 → Nat) a + S8x65536.size a ≤ S64x65536.size a
  inb_S1x64x256x256_S1x8x256x256_0_8_0_0 : ∀ a, (![0, 8, 0, 0] : Fin 4 → Nat) a + S1x8x256x256.size a ≤ S1x64x256x256.size a
  inb_S64x65536_S8x65536_16_0 : ∀ a, (![16, 0] : Fin 2 → Nat) a + S8x65536.size a ≤ S64x65536.size a
  inb_S1x64x256x256_S1x8x256x256_0_16_0_0 : ∀ a, (![0, 16, 0, 0] : Fin 4 → Nat) a + S1x8x256x256.size a ≤ S1x64x256x256.size a
  inb_S64x65536_S8x65536_24_0 : ∀ a, (![24, 0] : Fin 2 → Nat) a + S8x65536.size a ≤ S64x65536.size a
  inb_S1x64x256x256_S1x8x256x256_0_24_0_0 : ∀ a, (![0, 24, 0, 0] : Fin 4 → Nat) a + S1x8x256x256.size a ≤ S1x64x256x256.size a
  inb_S64x65536_S8x65536_32_0 : ∀ a, (![32, 0] : Fin 2 → Nat) a + S8x65536.size a ≤ S64x65536.size a
  inb_S1x64x256x256_S1x8x256x256_0_32_0_0 : ∀ a, (![0, 32, 0, 0] : Fin 4 → Nat) a + S1x8x256x256.size a ≤ S1x64x256x256.size a
  inb_S64x65536_S8x65536_40_0 : ∀ a, (![40, 0] : Fin 2 → Nat) a + S8x65536.size a ≤ S64x65536.size a
  inb_S1x64x256x256_S1x8x256x256_0_40_0_0 : ∀ a, (![0, 40, 0, 0] : Fin 4 → Nat) a + S1x8x256x256.size a ≤ S1x64x256x256.size a
  inb_S64x65536_S8x65536_48_0 : ∀ a, (![48, 0] : Fin 2 → Nat) a + S8x65536.size a ≤ S64x65536.size a
  inb_S1x64x256x256_S1x8x256x256_0_48_0_0 : ∀ a, (![0, 48, 0, 0] : Fin 4 → Nat) a + S1x8x256x256.size a ≤ S1x64x256x256.size a
  inb_S64x65536_S8x65536_56_0 : ∀ a, (![56, 0] : Fin 2 → Nat) a + S8x65536.size a ≤ S64x65536.size a
  inb_S1x64x256x256_S1x8x256x256_0_56_0_0 : ∀ a, (![0, 56, 0, 0] : Fin 4 → Nat) a + S1x8x256x256.size a ≤ S1x64x256x256.size a
  dot_S64x64_S64x4096_S64x4096_1_0_0_1_n_n_wf : DotDims.WF S64x64 S64x4096 S64x4096 [1] [0] [0] [1] [] []
  dot_S128x64_S64x4096_S128x4096_1_0_0_1_n_n_wf : DotDims.WF S128x64 S64x4096 S128x4096 [1] [0] [0] [1] [] []
  dot_S8x256x256_S8x256x256_S8x256x256_2_2_1_1_0_0_wf : DotDims.WF S8x256x256 S8x256x256 S8x256x256 [2] [2] [1] [1] [0] [0]
  dot_S8x256x256_S8x256x256_S8x256x256_2_1_1_2_0_0_wf : DotDims.WF S8x256x256 S8x256x256 S8x256x256 [2] [1] [1] [2] [0] [0]
  hrank0 : 0 < grid0.rank
  k0_mult1_dvd : ∀ i : grid0.Coords, 4096 ∣ (k0_mult1 i).toNat
  k0_off1_inb : ∀ i : grid0.Coords, ∀ a, (k0_off1 i) a + S64x4096.size a ≤ S64x65536.size a
  k0_off1_packedbf16 : ∀ i : grid0.Coords, (Rect.unit (s := S64x65536) (k0_off1 i) S64x4096.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S8x64x65536.size a
  hwx0_0 : ∀ i : grid0.Coords, EltTy.bits .f32 = 32 ∨ (Rect.block (s := S8x64x65536) S1x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S8x64x65536.size a
  hwx0_1 : ∀ i : grid0.Coords, EltTy.bits .f32 = 32 ∨ (Rect.block (s := S8x64x65536) S1x64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64x256x256.size a ≤ S8x64x256x256.size a
  hwx0_4 : ∀ i : grid0.Coords, EltTy.bits .f32 = 32 ∨ (Rect.block (s := S8x64x256x256) S1x64x256x256.size (cc0_transform_4 i) (hinb0_4 i)).WholeWords (EltTy.packing .f32)

variable [Facts₀]

def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S8x256x256_S8x256x256_S8x256x256_2_2_1_1_0_0 : DotDims S8x256x256 S8x256x256 S8x256x256 where
  lhsContracting := [2]
  rhsContracting := [2]
  lhsNonContracting := [1]
  rhsNonContracting := [1]
  lhsBatch := [0]
  rhsBatch := [0]
  wf := dot_S8x256x256_S8x256x256_S8x256x256_2_2_1_1_0_0_wf
def dot_S8x256x256_S8x256x256_S8x256x256_2_1_1_2_0_0 : DotDims S8x256x256 S8x256x256 S8x256x256 where
  lhsContracting := [2]
  rhsContracting := [1]
  lhsNonContracting := [1]
  rhsNonContracting := [2]
  lhsBatch := [0]
  rhsBatch := [0]
  wf := dot_S8x256x256_S8x256x256_S8x256x256_2_1_1_2_0_0_wf

abbrev win0_0 : Pipeline.Window sig grid0 :=
  Pipeline.Window.ofSpec (Memref.whole main_v2) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64x256x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) | ⟨_ + 5, h⟩ => absurd h (Nat.not_lt.2 (Nat.le_add_left _ _))

class Facts : Prop extends Facts₀ where

variable [Facts]
-- ==== ReferenceIdeal.lean ====
abbrev S8x64x256x256 : Shape := ⟨4, ![8, 64, 256, 256]⟩
abbrev S64x64 : Shape := ⟨2, ![64, 64]⟩
abbrev S128x64 : Shape := ⟨2, ![128, 64]⟩
abbrev S_ : Shape := ⟨0, ![]⟩
abbrev S8x256x256x64 : Shape := ⟨4, ![8, 256, 256, 64]⟩
abbrev S64x8x256x256 : Shape := ⟨4, ![64, 8, 256, 256]⟩
abbrev S8x256x256x128 : Shape := ⟨4, ![8, 256, 256, 128]⟩
abbrev S8x256x256x2x64 : Shape := ⟨5, ![8, 256, 256, 2, 64]⟩
abbrev S8x256x256x1x64 : Shape := ⟨5, ![8, 256, 256, 1, 64]⟩
abbrev S8x64x256 : Shape := ⟨3, ![8, 64, 256]⟩
abbrev S8x64x256x1 : Shape := ⟨4, ![8, 64, 256, 1]⟩

abbrev nBuf : Space → Nat
  | .hbm => 37
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x64x256x256, .f32⟩
  | .hbm, ⟨2, _⟩ => ⟨S64x64, .f32⟩
  | .hbm, ⟨3, _⟩ => ⟨S128x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x256x256x64, .f32⟩
  | .hbm, ⟨8, _⟩ => ⟨S64x8x256x256, .f32⟩
  | .hbm, ⟨9, _⟩ => ⟨S8x64x256x256, .f32⟩
  | .hbm, ⟨10, _⟩ => ⟨S8x256x256x64, .f32⟩
  | .hbm, ⟨11, _⟩ => ⟨S8x256x256x128, .f32⟩
  | .hbm, ⟨12, _⟩ => ⟨S8x256x256x2x64, .f32⟩
  | .hbm, ⟨13, _⟩ => ⟨S8x256x256x1x64, .f32⟩
  | .hbm, ⟨14, _⟩ => ⟨S8x256x256x64, .f32⟩
  | .hbm, ⟨15, _⟩ => ⟨S8x64x256x256, .f32⟩
  | .hbm, ⟨16, _⟩ => ⟨S8x256x256x1x64, .f32⟩
  | .hbm, ⟨17, _⟩ => ⟨S8x256x256x64, .f32⟩
  | .hbm, ⟨18, _⟩ => ⟨S8x64x256x256, .f32⟩
  | .hbm, ⟨19, _⟩ => ⟨S8x64x256x256, .f32⟩
  | .hbm, ⟨20, _⟩ => ⟨S8x64x256x256, .f32⟩
  | .hbm, ⟨21, _⟩ => ⟨S8x64x256x256, .f32⟩
  | .hbm, ⟨22, _⟩ => ⟨S_, .f32⟩
  | .hbm, ⟨23, _⟩ => ⟨S8x64x256, .f32⟩
  | .hbm, ⟨24, _⟩ => ⟨S_, .f32⟩
  | .hbm, ⟨25, _⟩ => ⟨S8x64x256, .f32⟩
  | .hbm, ⟨26, _⟩ => ⟨S8x64x256, .f32⟩
  | .hbm, ⟨27, _⟩ => ⟨S8x64x256x1, .f32⟩
  | .hbm, ⟨28, _⟩ => ⟨S8x64x256x256, .f32⟩
  | .hbm, ⟨29, _⟩ => ⟨S8x64x256x256, .f32⟩
  | .hbm, ⟨30, _⟩ => ⟨S8x64x256x256, .f32⟩
  | .hbm, ⟨31, _⟩ => ⟨S_, .f32⟩
  | .hbm, ⟨32, _⟩ => ⟨S8x64x256, .f32⟩
  | .hbm, ⟨33, _⟩ => ⟨S8x64x256x1, .f32⟩
  | .hbm, ⟨34, _⟩ => ⟨S8x64x256x256, .f32⟩
  | .hbm, ⟨35, _⟩ => ⟨S8x64x256x256, .f32⟩
  | .hbm, ⟨36, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  transposes_S8x64x256x256_S8x256x256x64_0_2_3_1 : S8x64x256x256.Transposes [0, 2, 3, 1] S8x256x256x64
  transposes_S64x8x256x256_S8x64x256x256_1_0_2_3 : S64x8x256x256.Transposes [1, 0, 2, 3] S8x64x256x256
  shapeCasts_S8x256x256x128_S8x256x256x2x64 : S8x256x256x128.ShapeCasts S8x256x256x2x64
  slices_S8x256x256x2x64_S8x256x256x1x64_0_0_0_0_0 : S8x256x256x2x64.Slices ![0, 0, 0, 0, 0] S8x256x256x1x64
  shapeCasts_S8x256x256x1x64_S8x256x256x64 : S8x256x256x1x64.ShapeCasts S8x256x256x64
  transposes_S8x256x256x64_S8x64x256x256_0_3_1_2 : S8x256x256x64.Transposes [0, 3, 1, 2] S8x64x256x256
  slices_S8x256x256x2x64_S8x256x256x1x64_0_0_0_1_0 : S8x256x256x2x64.Slices ![0, 0, 0, 1, 0] S8x256x256x1x64
  bcast_S_S8x64x256x256 : S_.BroadcastsInDim S8x64x256x256 (![] : Fin 0 → Fin S8x64x256x256.rank)
  reducesTo_S8x64x256x256_S8x64x256_d3 : S8x64x256x256.ReducesTo [3] S8x64x256
  h_S_ : 0 < S_.numel
  bcast_S_S8x64x256 : S_.BroadcastsInDim S8x64x256 (![] : Fin 0 → Fin S8x64x256.rank)
  bcast_S8x64x256_S8x64x256x1_0_1_2 : S8x64x256.BroadcastsInDim S8x64x256x1 (![0, 1, 2] : Fin 3 → Fin S8x64x256x1.rank)
  bcast_S8x64x256x1_S8x64x256x256_0_1_2_3 : S8x64x256x1.BroadcastsInDim S8x64x256x256 (![0, 1, 2, 3] : Fin 4 → Fin S8x64x256x256.rank)
  dot_S64x64_S8x256x256x64_S64x8x256x256_1_3_0_012_n_n_wf : DotDims.WF S64x64 S8x256x256x64 S64x8x256x256 [1] [3] [0] [0, 1, 2] [] []
  dot_S8x256x256x64_S128x64_S8x256x256x128_3_1_012_0_n_n_wf : DotDims.WF S8x256x256x64 S128x64 S8x256x256x128 [3] [1] [0, 1, 2] [0] [] []
  dot_S8x64x256x256_S8x64x256x256_S8x64x256x256_3_3_2_2_01_01_wf : DotDims.WF S8x64x256x256 S8x64x256x256 S8x64x256x256 [3] [3] [2] [2] [0, 1] [0, 1]
  dot_S8x64x256x256_S8x64x256x256_S8x64x256x256_3_2_2_3_01_01_wf : DotDims.WF S8x64x256x256 S8x64x256x256 S8x64x256x256 [3] [2] [2] [3] [0, 1] [0, 1]

variable [Facts₀]

def dot_S64x64_S8x256x256x64_S64x8x256x256_1_3_0_012_n_n : DotDims S64x64 S8x256x256x64 S64x8x256x256 where
  lhsContracting := [1]
  rhsContracting := [3]
  lhsNonContracting := [0]
  rhsNonContracting := [0, 1, 2]
  lhsBatch := []
  rhsBatch := []
  wf := dot_S64x64_S8x256x256x64_S64x8x256x256_1_3_0_012_n_n_wf
def dot_S8x256x256x64_S128x64_S8x256x256x128_3_1_012_0_n_n : DotDims S8x256x256x64 S128x64 S8x256x256x128 where
  lhsContracting := [3]
  rhsContracting := [1]
  lhsNonContracting := [0, 1, 2]
  rhsNonContracting := [0]
  lhsBatch := []
  rhsBatch := []
  wf := dot_S8x256x256x64_S128x64_S8x256x256x128_3_1_012_0_n_n_wf
def dot_S8x64x256x256_S8x64x256x256_S8x64x256x256_3_3_2_2_01_01 : DotDims S8x64x256x256 S8x64x256x256 S8x64x256x256 where
  lhsContracting := [3]
  rhsContracting := [3]
  lhsNonContracting := [2]
  rhsNonContracting := [2]
  lhsBatch := [0, 1]
  rhsBatch := [0, 1]
  wf := dot_S8x64x256x256_S8x64x256x256_S8x64x256x256_3_3_2_2_01_01_wf
def dot_S8x64x256x256_S8x64x256x256_S8x64x256x256_3_2_2_3_01_01 : DotDims S8x64x256x256 S8x64x256x256 S8x64x256x256 where
  lhsContracting := [3]
  rhsContracting := [2]
  lhsNonContracting := [2]
  rhsNonContracting := [3]
  lhsBatch := [0, 1]
  rhsBatch := [0, 1]
  wf := dot_S8x64x256x256_S8x64x256x256_S8x64x256x256_3_2_2_3_01_01_wf

class Facts : Prop extends Facts₀ where

variable [Facts]
-- ==== Proof.KBody.lean ====
/-
  The kernel body run once in each of its two control cases, on any whole staging memrefs.

  Every grid point projects its tile of positions: it stores 4096 columns of the query, key and value planes into the three
  scratch buffers, at the column offset the point's second coordinate gives. The last point of a batch (second coordinate
  15) then reads the three buffers back eight channels at a time and stores the attention result of each group of eight
  into the output block. The two runs below say what each buffer holds afterwards, as the list of the stores made into
  it (newest first) over what it held before.
-/
import proofs.«122084_j62491774157251_2_alg».proof.Proof.Gen.Kernel.Frame
import proofs.«122084_j62491774157251_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: taken at the last point of a batch. -/
abbrev lastOfBatch (i : grid0.Coords) : Prop := k0_cond1 i = 1#1

/-- Over the grid, in row-major order, these are the points whose position is 15 modulo 16. -/
theorem lastOfBatch_iff : ∀ t : Fin cfg0.N, lastOfBatch (grid0.coords t) ↔ t.val % 16 = 15 :=
  (by decide +kernel : ∀ t : Fin grid0.N, lastOfBatch (grid0.coords t) ↔ t.val % 16 = 15)

set_option maxHeartbeats 1000000 in
/-- A point that is not the last of its batch: one store into each scratch buffer, the output block untouched. -/
noncomputable def runFill (c : Dev nD) (i : grid0.Coords) (arg2 : Memref sig .tc .vmem S1x64x4096 .f32) (harg2 : arg2.IsWhole) (arg3 : Memref sig .tc .vmem S1x64x4096 .f32) (harg3 : arg3.IsWhole) (arg4 : Memref sig .tc .vmem S64x64 .f32) (harg4 : arg4.IsWhole) (arg5 : Memref sig .tc .vmem S128x64 .f32) (harg5 : arg5.IsWhole) (arg6 : Memref sig .tc .vmem S1x64x256x256 .f32) (harg6 : arg6.IsWhole) (arg7 : Memref sig .tc .vmem S64x65536 .bf16) (harg7 : arg7.IsWhole) (arg8 : Memref sig .tc .vmem S64x65536 .bf16) (harg8 : arg8.IsWhole) (arg9 : Memref sig .tc .vmem S64x65536 .bf16) (harg9 : arg9.IsWhole) (hc0 : ¬lastOfBatch i)
    (x0 : Vec F S1x64x4096 .f32) (x1 : Vec F S1x64x4096 .f32) (x2 : Vec F S64x64 .f32) (x3 : Vec F S128x64 .f32)
    (d4 : Vec F S1x64x256x256 .f32) (q0 k0 v0 : Vec F S64x65536 .bf16) :
    Σ' (L7 : List (View.Piece (Elt F) S64x65536 .bf16)) (L8 : List (View.Piece (Elt F) S64x65536 .bf16)), { L9 : List (View.Piece (Elt F) S64x65536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare q0 ∗ owns (c : Thread nD τ) arg8 fullShare k0 ∗ owns (c : Thread nD τ) arg9 fullShare v0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4
              ∗ (arg7.view.loc (c : Thread nD τ) ↦[arg7.view.set]{fullShare} arg7.view.writes (Elt F) (harg7.unread q0) L7)
              ∗ (arg8.view.loc (c : Thread nD τ) ↦[arg8.view.set]{fullShare} arg8.view.writes (Elt F) (harg8.unread k0) L8)
              ∗ (arg9.view.loc (c : Thread nD τ) ↦[arg9.view.set]{fullShare} arg9.view.writes (Elt F) (harg9.unread v0) L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexact HS0
    isplitl [HS1]; · iexact HS1
    iexact HS2

set_option maxHeartbeats 2000000 in
/-- The last point of a batch: the three stores, then the eight stores that tile the output block. -/
noncomputable def runLast (c : Dev nD) (i : grid0.Coords) (arg2 : Memref sig .tc .vmem S1x64x4096 .f32) (harg2 : arg2.IsWhole) (arg3 : Memref sig .tc .vmem S1x64x4096 .f32) (harg3 : arg3.IsWhole) (arg4 : Memref sig .tc .vmem S64x64 .f32) (harg4 : arg4.IsWhole) (arg5 : Memref sig .tc .vmem S128x64 .f32) (harg5 : arg5.IsWhole) (arg6 : Memref sig .tc .vmem S1x64x256x256 .f32) (harg6 : arg6.IsWhole) (arg7 : Memref sig .tc .vmem S64x65536 .bf16) (harg7 : arg7.IsWhole) (arg8 : Memref sig .tc .vmem S64x65536 .bf16) (harg8 : arg8.IsWhole) (arg9 : Memref sig .tc .vmem S64x65536 .bf16) (harg9 : arg9.IsWhole) (hc0 : lastOfBatch i)
    (x0 : Vec F S1x64x4096 .f32) (x1 : Vec F S1x64x4096 .f32) (x2 : Vec F S64x64 .f32) (x3 : Vec F S128x64 .f32)
    (d4 : Vec F S1x64x256x256 .f32) (q0 k0 v0 : Vec F S64x65536 .bf16) :
    Σ' (L6 : List (View.Piece (Elt F) S1x64x256x256 .f32)) (L7 : List (View.Piece (Elt F) S64x65536 .bf16)) (L8 : List (View.Piece (Elt F) S64x65536 .bf16)), { L9 : List (View.Piece (Elt F) S64x65536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare q0 ∗ owns (c : Thread nD τ) arg8 fullShare k0 ∗ owns (c : Thread nD τ) arg9 fullShare v0
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (arg6.view.loc (c : Thread nD τ) ↦[arg6.view.set]{fullShare} arg6.view.writes (Elt F) (harg6.unread d4) L6)
              ∗ (arg7.view.loc (c : Thread nD τ) ↦[arg7.view.set]{fullShare} arg7.view.writes (Elt F) (harg7.unread q0) L7)
              ∗ (arg8.view.loc (c : Thread nD τ) ↦[arg8.view.set]{fullShare} arg8.view.writes (Elt F) (harg8.unread k0) L8)
              ∗ (arg9.view.loc (c : Thread nD τ) ↦[arg9.view.set]{fullShare} arg9.view.writes (Elt F) (harg9.unread v0) L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [HS0]; · iexact HS0
    isplitl [HS1]; · iexact HS1
    iexact HS2

end Cert.Kernel.Hand

end
-- ==== Proof.LibPieceRead.lean ====
/-
  Reading a buffer after a list of stores, newest first, one store at a time.

  A store through the whole shape hides everything before it: the buffer then reads the store's payload. A store
  through a unit-stride rectangle patches the buffer: inside the rectangle it reads the payload at the index minus
  the offsets, outside it reads what the earlier stores left. Program-free.
-/
import Idealize.ShloMosaic.Lib.WritesUnit
import Idealize.ShloMosaic.Lib.Pipeline.Value
import Idealize.ShloMosaic.Lib.Pipeline.FrameBody

namespace Idealize.ShloMosaic

namespace View

variable {sig : RefSig} {κ : Kind} {sp : Space} {S : Shape} {e : EltTy} {Val : EltTy → Type}

/-- After a newest store through the whole shape (offsets zero, however spelt) the buffer reads its payload. -/
theorem read_writes_cons_whole (v : View sig κ sp S e) (f : v.ty.Contents Val) {off : Fin S.rank → ℕ}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  subst h; funext y
  have e := read_writes_cons_emb v f (Rect.whole S) w L y
  rw [Rect.emb_whole_apply] at e
  exact e

/-- Contents `X` patched by a payload `w` on the unit-stride rectangle of sizes `size` at offsets `off`. -/
def patch (off size : Fin S.rank → ℕ) (w : ((a : Fin S.rank) → Fin (size a)) → Val e) (X : S.Idx → Val e) : S.Idx → Val e :=
  fun y => if h : ∀ a, off a ≤ (y a).val ∧ (y a).val < off a + size a then w (Rect.unitLocal y h) else X y

/-- After a newest store through a unit-stride rectangle the buffer reads the earlier contents patched by it. -/
theorem read_writes_cons_patch (v : View sig κ sp S e) (f : v.ty.Contents Val) {off size : Fin S.rank → ℕ}
    (inb : ∀ a, off a + size a ≤ S.size a) (w : (Rect.unit off size inb).shape.Idx → Val e) (L : List (Piece Val S e)) :
    v.read Val (v.writes Val f ((⟨Rect.unit off size inb, w⟩ : Piece Val S e) :: L))
      = patch off size w (v.read Val (v.writes Val f L)) :=
  funext fun y => read_writes_cons_unit v f inb w L y rfl

/-- Inside the rectangle the patch reads the payload. -/
theorem patch_of_mem {off size : Fin S.rank → ℕ} (w : ((a : Fin S.rank) → Fin (size a)) → Val e) (X : S.Idx → Val e) (y : S.Idx)
    (h : ∀ a, off a ≤ (y a).val ∧ (y a).val < off a + size a) : patch off size w X y = w (Rect.unitLocal y h) := dif_pos h

/-- Outside it the earlier contents. -/
theorem patch_of_not_mem {off size : Fin S.rank → ℕ} (w : ((a : Fin S.rank) → Fin (size a)) → Val e) (X : S.Idx → Val e) (y : S.Idx)
    (h : ¬∀ a, off a ≤ (y a).val ∧ (y a).val < off a + size a) : patch off size w X y = X y := dif_neg h

end View

end Idealize.ShloMosaic
-- ==== Proof.KPaySame.lean ====
/-
  The eight groups of eight channels run the same attention.  The program's text cuts the computation of a group at
  different places (three groups hand intermediate values from one part of the text to the next), but once the pieces are
  put back together every group is the one function of its three loaded rows: the query, key and value rows, in that order.
-/
import proofs.«122084_j62491774157251_2_alg».proof.Proof.Gen.Kernel.Skeleton

noncomputable section

namespace Cert.Kernel.Pay

open Cert.Kernel Cert.Kernel.Gen Idealize.ShloMosaic

variable {F : FTy → Type} [FloatOps F]

/-- The groups the text writes out in full. -/
theorem pay6_eq (a b c : Vec F S8x65536 .bf16) : k0_pay6 a b c = k0_pay7 a b c := rfl

theorem pay12_eq (a b c : Vec F S8x65536 .bf16) : k0_pay12 a b c = k0_pay7 a b c := rfl

theorem pay17_eq (a b c : Vec F S8x65536 .bf16) : k0_pay17 a b c = k0_pay7 a b c := rfl

theorem pay18_eq (a b c : Vec F S8x65536 .bf16) : k0_pay18 a b c = k0_pay7 a b c := rfl

/-- The group cut after the exponentials and their row sums: the value rows widened, the exponentials, the sums. -/
theorem pay11_eq (a b c : Vec F S8x65536 .bf16) :
    k0_pay11 (k0_pay8 c) (k0_pay9 a b) (k0_pay10 a b) = k0_pay7 a b c := rfl

/-- The group cut right after the three rows are laid out as planes. -/
theorem pay16_eq (a b c : Vec F S8x65536 .bf16) :
    k0_pay16 (k0_pay13 a) (k0_pay14 b) (k0_pay15 c) = k0_pay7 a b c := rfl

/-- The last group cut after the exponentials and their row sums. -/
theorem pay5_eq (a b c : Vec F S8x65536 .bf16) :
    k0_pay5 (k0_pay19 c) (k0_pay20 a b) (k0_pay21 a b) = k0_pay7 a b c := rfl

end Cert.Kernel.Pay

end
-- ==== Proof.KBodyRead.lean ====
/-
  What the body's stores leave, read as values.

  A point's three projection stores patch the scratch planes on the point's 4096 columns. At the last point of a batch
  the eight stores into the output block tile it by groups of eight channels, and every group's payload is one and the
  same function — the attention of eight consecutive rows of the three planes — so the block is that function of the
  planes as they stand after the point's own stores.
-/
import proofs.«122084_j62491774157251_2_alg».proof.Proof.KBody
import proofs.«122084_j62491774157251_2_alg».proof.Proof.LibPieceRead
import proofs.«122084_j62491774157251_2_alg».proof.Proof.KPaySame
import Idealize.ShloMosaic.Lib.ValueIdx
import Idealize.ShloMosaic.Lib.Pipeline.Value
import Idealize.ShloMosaic.Lib.Ring

set_option maxRecDepth 16384

noncomputable section

namespace Cert.Kernel.Hand

open Cert.Kernel Cert.Kernel.Gen Cert.Kernel.Pay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl

/-- Eight consecutive rows of a 64-row plane: the rows of channel group `cb`. -/
def grp (X : Vec F S64x65536 .bf16) (cb : ℕ) : Vec F S8x65536 .bf16 :=
  fun z => X (ValueIdx.ix2 ⟨(8 * cb + (z 0).val) % 64, Nat.mod_lt _ (by decide)⟩ (z 1))

/-- The output block from the three planes: channel `ch` is row `ch % 8` of the attention of group `ch / 8`. -/
def outOf (Q K V : Vec F S64x65536 .bf16) : Vec F S1x64x256x256 .f32 :=
  fun y => k0_pay7 (grp Q ((y 1).val / 8)) (grp K ((y 1).val / 8)) (grp V ((y 1).val / 8))
    (ValueIdx.ix4 (0 : Fin 1) ⟨(y 1).val % 8, Nat.mod_lt _ (by decide)⟩ (y 2) (y 3))

/-- A load of the eight rows from row `o = 8·cb` on is the group's rows. -/
theorem ld_grp (X : Vec F S64x65536 .bf16) (cb o : ℕ) (hcb : cb < 8) (ho : o = 8 * cb)
    (inb : ∀ a, (![o, 0] : Fin 2 → ℕ) a + S8x65536.size a ≤ S64x65536.size a) :
    View.ld X (Rect.unit (s := S64x65536) ![o, 0] S8x65536.size inb) = grp X cb := by
  subst ho
  funext z
  show X ((Rect.unit (s := S64x65536) ![8 * cb, 0] S8x65536.size inb).emb z) = _
  unfold grp
  refine congrArg X (funext fun a => Fin.ext ?_)
  match a with
  | ⟨0, _⟩ =>
    show 8 * cb + 1 * (z 0).val = (8 * cb + (z 0).val) % 64
    have := (z 0).isLt
    have h8 : (z 0).val < 8 := this
    omega
  | ⟨1, _⟩ =>
    show 0 + 1 * (z 1).val = (z 1).val
    omega

/-- The payload of the group stored at channel offset `o = 8·cb` is the block function at the positions it covers. -/
theorem piece_ok (Q K V : Vec F S64x65536 .bf16) (cb o : ℕ) (hcb : cb < 8) (ho : o = 8 * cb)
    (inb4 : ∀ a, (![0, o, 0, 0] : Fin 4 → ℕ) a + S1x8x256x256.size a ≤ S1x64x256x256.size a)
    (inb2 : ∀ a, (![o, 0] : Fin 2 → ℕ) a + S8x65536.size a ≤ S64x65536.size a)
    (x : (Rect.unit (s := S1x64x256x256) ![0, o, 0, 0] S1x8x256x256.size inb4).shape.Idx) :
    k0_pay7 (View.ld Q (Rect.unit (s := S64x65536) ![o, 0] S8x65536.size inb2)) (View.ld K (Rect.unit (s := S64x65536) ![o, 0] S8x65536.size inb2))
        (View.ld V (Rect.unit (s := S64x65536) ![o, 0] S8x65536.size inb2)) x
      = outOf Q K V ((Rect.unit (s := S1x64x256x256) ![0, o, 0, 0] S1x8x256x256.size inb4).emb x) := by
  rw [ld_grp Q cb o hcb ho, ld_grp K cb o hcb ho, ld_grp V cb o hcb ho]
  subst ho
  unfold outOf
  have hx1 : (x 1).val < 8 := (x 1).isLt
  have e1 : (((Rect.unit (s := S1x64x256x256) ![0, 8 * cb, 0, 0] S1x8x256x256.size inb4).emb x) 1).val = 8 * cb + (x 1).val := by
    show 8 * cb + 1 * (x 1).val = _
    omega
  have ediv : (((Rect.unit (s := S1x64x256x256) ![0, 8 * cb, 0, 0] S1x8x256x256.size inb4).emb x) 1).val / 8 = cb := by rw [e1]; omega
  rw [ediv]
  refine congrArg _ (funext fun a => Fin.ext ?_)
  match a with
  | ⟨0, _⟩ =>
    have := (x 0).isLt
    have h1 : (x 0).val < 1 := this
    show (x 0).val = 0
    omega
  | ⟨1, _⟩ =>
    show (x 1).val = (((Rect.unit (s := S1x64x256x256) ![0, 8 * cb, 0, 0] S1x8x256x256.size inb4).emb x) 1).val % 8
    rw [e1]; omega
  | ⟨2, _⟩ =>
    show (x 2).val = 0 + 1 * (x 2).val
    omega
  | ⟨3, _⟩ =>
    show (x 3).val = 0 + 1 * (x 3).val
    omega

section Runs

local notation "𝕄" => MT nD τ sig Unit (Elt F) ℕ (UR sig nD τ) ℕ

variable (c : Dev nD) (i : grid0.Coords) (arg2 : Memref sig .tc .vmem S1x64x4096 .f32) (harg2 : arg2.IsWhole) (arg3 : Memref sig .tc .vmem S1x64x4096 .f32) (harg3 : arg3.IsWhole) (arg4 : Memref sig .tc .vmem S64x64 .f32) (harg4 : arg4.IsWhole) (arg5 : Memref sig .tc .vmem S128x64 .f32) (harg5 : arg5.IsWhole) (arg6 : Memref sig .tc .vmem S1x64x256x256 .f32) (harg6 : arg6.IsWhole) (arg7 : Memref sig .tc .vmem S64x65536 .bf16) (harg7 : arg7.IsWhole) (arg8 : Memref sig .tc .vmem S64x65536 .bf16) (harg8 : arg8.IsWhole) (arg9 : Memref sig .tc .vmem S64x65536 .bf16) (harg9 : arg9.IsWhole)
    (x0 : Vec F S1x64x4096 .f32) (x1 : Vec F S1x64x4096 .f32) (x2 : Vec F S64x64 .f32) (x3 : Vec F S128x64 .f32)
    (d4 : Vec F S1x64x256x256 .f32) (q0 k0 v0 : Vec F S64x65536 .bf16)

/-- After a point that is not the last of its batch the query plane is what it was, patched on the point's 4096
    columns by the projected tile; likewise the key and value planes. -/
theorem runFill_q (hc0 : ¬lastOfBatch i) :
    arg7.view.read (Elt F) (arg7.view.writes (Elt F) (harg7.unread q0) (runFill c i arg2 harg2 arg3 harg3 arg4 harg4 arg5 harg5 arg6 harg6 arg7 harg7 arg8 harg8 arg9 harg9 hc0 x0 x1 x2 x3 d4 q0 k0 v0).1)
      = View.patch (S := S64x65536) (k0_off1 i) S64x4096.size (k0_pay2 x0 x2) q0 := by
  unfold runFill; dsimp only
  sl_unfold_run_names
  rw [View.read_writes_cons_patch]
  simp only [View.writes_nil, harg7.read_unread, View.readAt_eq_ld, harg2.read_unread, harg4.read_unread,
    View.ld_unit_zero (S := S1x64x4096) hz3, View.ld_unit_zero (S := S64x64) hz2]

theorem runFill_k (hc0 : ¬lastOfBatch i) :
    arg8.view.read (Elt F) (arg8.view.writes (Elt F) (harg8.unread k0) (runFill c i arg2 harg2 arg3 harg3 arg4 harg4 arg5 harg5 arg6 harg6 arg7 harg7 arg8 harg8 arg9 harg9 hc0 x0 x1 x2 x3 d4 q0 k0 v0).2.1)
      = View.patch (S := S64x65536) (k0_off1 i) S64x4096.size (k0_pay3 x1 x3) k0 := by
  unfold runFill; dsimp only
  sl_unfold_run_names
  rw [View.read_writes_cons_patch]
  simp only [View.writes_nil, harg8.read_unread, View.readAt_eq_ld, harg3.read_unread, harg5.read_unread,
    View.ld_unit_zero (S := S1x64x4096) hz3, View.ld_unit_zero (S := S128x64) hz2]

theorem runFill_v (hc0 : ¬lastOfBatch i) :
    arg9.view.read (Elt F) (arg9.view.writes (Elt F) (harg9.unread v0) (runFill c i arg2 harg2 arg3 harg3 arg4 harg4 arg5 harg5 arg6 harg6 arg7 harg7 arg8 harg8 arg9 harg9 hc0 x0 x1 x2 x3 d4 q0 k0 v0).2.2.1)
      = View.patch (S := S64x65536) (k0_off1 i) S64x4096.size (k0_pay4 x1 x3) v0 := by
  unfold runFill; dsimp only
  sl_unfold_run_names
  rw [View.read_writes_cons_patch]
  simp only [View.writes_nil, harg9.read_unread, View.readAt_eq_ld, harg3.read_unread, harg5.read_unread,
    View.ld_unit_zero (S := S1x64x4096) hz3, View.ld_unit_zero (S := S128x64) hz2]

/-- The same at the last point of a batch. -/
theorem runLast_q (hc0 : lastOfBatch i) :
    arg7.view.read (Elt F) (arg7.view.writes (Elt F) (harg7.unread q0) (runLast c i arg2 harg2 arg3 harg3 arg4 harg4 arg5 harg5 arg6 harg6 arg7 harg7 arg8 harg8 arg9 harg9 hc0 x0 x1 x2 x3 d4 q0 k0 v0).2.1)
      = View.patch (S := S64x65536) (k0_off1 i) S64x4096.size (k0_pay2 x0 x2) q0 := by
  unfold runLast; dsimp only
  sl_unfold_run_names
  rw [View.read_writes_cons_patch]
  simp only [View.writes_nil, harg7.read_unread, View.readAt_eq_ld, harg2.read_unread, harg4.read_unread,
    View.ld_unit_zero (S := S1x64x4096) hz3, View.ld_unit_zero (S := S64x64) hz2]

theorem runLast_k (hc0 : lastOfBatch i) :
    arg8.view.read (Elt F) (arg8.view.writes (Elt F) (harg8.unread k0) (runLast c i arg2 harg2 arg3 harg3 arg4 harg4 arg5 harg5 arg6 harg6 arg7 harg7 arg8 harg8 arg9 harg9 hc0 x0 x1 x2 x3 d4 q0 k0 v0).2.2.1)
      = View.patch (S := S64x65536) (k0_off1 i) S64x4096.size (k0_pay3 x1 x3) k0 := by
  unfold runLast; dsimp only
  sl_unfold_run_names
  rw [View.read_writes_cons_patch]
  simp only [View.writes_nil, harg8.read_unread, View.readAt_eq_ld, harg3.read_unread, harg5.read_unread,
    View.ld_unit_zero (S := S1x64x4096) hz3, View.ld_unit_zero (S := S128x64) hz2]

theorem runLast_v (hc0 : lastOfBatch i) :
    arg9.view.read (Elt F) (arg9.view.writes (Elt F) (harg9.unread v0) (runLast c i arg2 harg2 arg3 harg3 arg4 harg4 arg5 harg5 arg6 harg6 arg7 harg7 arg8 harg8 arg9 harg9 hc0 x0 x1 x2 x3 d4 q0 k0 v0).2.2.2.1)
      = View.patch (S := S64x65536) (k0_off1 i) S64x4096.size (k0_pay4 x1 x3) v0 := by
  unfold runLast; dsimp only
  sl_unfold_run_names
  rw [View.read_writes_cons_patch]
  simp only [View.writes_nil, harg9.read_unread, View.readAt_eq_ld, harg3.read_unread, harg5.read_unread,
    View.ld_unit_zero (S := S1x64x4096) hz3, View.ld_unit_zero (S := S128x64) hz2]

set_option maxHeartbeats 2000000 in
/-- The output block after the last point of a batch is the block function of the three planes as the point leaves them. -/
theorem runLast_out [∀ e, Nonempty (Elt F e)] (hc0 : lastOfBatch i) :
    arg6.view.read (Elt F) (arg6.view.writes (Elt F) (harg6.unread d4) (runLast c i arg2 harg2 arg3 harg3 arg4 harg4 arg5 harg5 arg6 harg6 arg7 harg7 arg8 harg8 arg9 harg9 hc0 x0 x1 x2 x3 d4 q0 k0 v0).1)
      = outOf (arg7.view.read (Elt F) (arg7.view.writes (Elt F) (harg7.unread q0) (runLast c i arg2 harg2 arg3 harg3 arg4 harg4 arg5 harg5 arg6 harg6 arg7 harg7 arg8 harg8 arg9 harg9 hc0 x0 x1 x2 x3 d4 q0 k0 v0).2.1))
          (arg8.view.read (Elt F) (arg8.view.writes (Elt F) (harg8.unread k0) (runLast c i arg2 harg2 arg3 harg3 arg4 harg4 arg5 harg5 arg6 harg6 arg7 harg7 arg8 harg8 arg9 harg9 hc0 x0 x1 x2 x3 d4 q0 k0 v0).2.2.1))
          (arg9.view.read (Elt F) (arg9.view.writes (Elt F) (harg9.unread v0) (runLast c i arg2 harg2 arg3 harg3 arg4 harg4 arg5 harg5 arg6 harg6 arg7 harg7 arg8 harg8 arg9 harg9 hc0 x0 x1 x2 x3 d4 q0 k0 v0).2.2.2.1)) := by
  unfold runLast; dsimp only
  sl_unfold_run_names
  simp only [View.readAt_eq_ld]
  funext y
  refine (congrFun (View.read_writes_eq_canon (Val := Elt F) _ _ _ ?cov) y).trans ?_
  case cov => exact View.cover_of_tiledL (s := S1x64x256x256) _ S1x8x256x256.size (by sl_kernel_rfl)
  refine View.canon_apply_of_pieces _ _ ?_ y (View.cover_of_tiledL (s := S1x64x256x256) _ S1x8x256x256.size (by sl_kernel_rfl) y)
  intro p hp x
  simp only [List.mem_cons, List.mem_nil_iff, or_false] at hp
  rcases hp with rfl | rfl | rfl | rfl | rfl | rfl | rfl | rfl
  · dsimp only; rw [pay6_eq]; exact piece_ok _ _ _ 7 56 (by decide) rfl _ _ x
  · dsimp only; rw [pay5_eq]; exact piece_ok _ _ _ 6 48 (by decide) rfl _ _ x
  · dsimp only; rw [pay18_eq]; exact piece_ok _ _ _ 5 40 (by decide) rfl _ _ x
  · dsimp only; rw [pay17_eq]; exact piece_ok _ _ _ 4 32 (by decide) rfl _ _ x
  · dsimp only; rw [pay16_eq]; exact piece_ok _ _ _ 3 24 (by decide) rfl _ _ x
  · dsimp only; rw [pay12_eq]; exact piece_ok _ _ _ 2 16 (by decide) rfl _ _ x
  · dsimp only; rw [pay11_eq]; exact piece_ok _ _ _ 1 8 (by decide) rfl _ _ x
  · dsimp only; exact piece_ok _ _ _ 0 0 (by decide) rfl _ _ x

end Runs

end Cert.Kernel.Hand

end
-- ==== Proof.KData.lean ====
/-
  The pipeline's proof data and the body obligation.

  The grid is 8 batches by 16 tiles, walked in row-major order, so point `n` is tile `n % 16` of batch `n / 16`. Before
  point `n` the three scratch planes hold, on the columns of the tiles already walked in this batch (the first
  `n % 16` tiles), the projections of those tiles; nothing is said of the other columns. A point that is not the last of
  its batch extends this by its own tile and leaves the output block alone; the last point of a batch completes the
  planes and stores the attention of the whole batch into the output block, which the pipeline then writes back.
-/
import proofs.«122084_j62491774157251_2_alg».proof.Proof.KBodyRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Planes built tile by tile (no program in this part) -/

/-- Point `p` of the grid, taken modulo the 128 points so that it is total. -/
def pt (p : ℕ) : Fin cfg0.N := ⟨p % 128, lt_of_lt_of_eq (Nat.mod_lt _ (by decide)) N_0.symm⟩

theorem pt_val (t : Fin cfg0.N) : pt t.val = t :=
  Fin.ext (Nat.mod_eq_of_lt (lt_of_lt_of_eq t.isLt N_0))

/-- The 64 × 65536 plane of batch `b` whose columns `4096·s … 4096·s + 4095` are the tile of point `16·b + s`. -/
def plane (tile : Fin cfg0.N → Vec F S64x4096 .bf16) (b : ℕ) : Vec F S64x65536 .bf16 :=
  fun y => tile (pt (16 * b + (y 1).val / 4096)) (ValueIdx.ix2 (y 0) ⟨(y 1).val % 4096, Nat.mod_lt _ (by decide)⟩)

/-- `X` agrees with the plane of batch `b` on the columns of its first `S` tiles. -/
def Upto (tile : Fin cfg0.N → Vec F S64x4096 .bf16) (b S : ℕ) (X : Vec F S64x65536 .bf16) : Prop :=
  ∀ y : S64x65536.Idx, (y 1).val / 4096 < S → X y = plane tile b y

theorem upto_zero (tile : Fin cfg0.N → Vec F S64x4096 .bf16) (b : ℕ) (X : Vec F S64x65536 .bf16) : Upto tile b 0 X :=
  fun y h => absurd h (Nat.not_lt_zero _)

/-- Storing tile `S` on its columns extends the agreement by one tile. -/
theorem upto_patch (tile : Fin cfg0.N → Vec F S64x4096 .bf16) (b S : ℕ) (X : Vec F S64x65536 .bf16) (h : Upto tile b S X)
    (off : Fin 2 → ℕ) (hoff : off = ![0, 4096 * S]) (w : Vec F S64x4096 .bf16) (hw : w = tile (pt (16 * b + S))) :
    Upto tile b (S + 1) (View.patch (S := S64x65536) off S64x4096.size w X) := by
  subst hoff hw
  intro y hy
  by_cases hlt : (y 1).val / 4096 < S
  · rw [View.patch_of_not_mem _ _ _ (fun hall => by
      have := (hall 1).1
      have h1 : 4096 * S ≤ (y 1).val := this
      omega)]
    exact h y hlt
  · have hS : (y 1).val / 4096 = S := by omega
    have hmem : ∀ a : Fin 2, (![0, 4096 * S] : Fin 2 → ℕ) a ≤ (y a).val ∧ (y a).val < (![0, 4096 * S] : Fin 2 → ℕ) a + S64x4096.size a := by
      intro a
      match a with
      | ⟨0, _⟩ =>
        refine ⟨Nat.zero_le _, ?_⟩
        have := (y 0).isLt
        have h64 : (y 0).val < 64 := this
        show (y 0).val < 0 + 64
        omega
      | ⟨1, _⟩ =>
        show 4096 * S ≤ (y 1).val ∧ (y 1).val < 4096 * S + 4096
        omega
    rw [View.patch_of_mem _ _ _ hmem]
    unfold plane
    rw [hS]
    refine congrArg _ (funext fun a => Fin.ext ?_)
    match a with
    | ⟨0, _⟩ =>
      show (y 0).val - 0 = (y 0).val
      omega
    | ⟨1, _⟩ =>
      show (y 1).val - 4096 * S = (y 1).val % 4096
      omega

/-- Agreement on all sixteen tiles is equality. -/
theorem upto_full (tile : Fin cfg0.N → Vec F S64x4096 .bf16) (b : ℕ) (X : Vec F S64x65536 .bf16) (h : Upto tile b 16 X) :
    X = plane tile b :=
  funext fun y => h y (by
    have := (y 1).isLt
    have h1 : (y 1).val < 65536 := this
    omega)

/-- The column offset of the body's three stores: the point's tile. -/
theorem off_eq : ∀ t : Fin cfg0.N, k0_off1 (grid0.coords t) = ![0, 4096 * (t.val % 16)] :=
  (by decide +kernel : ∀ t : Fin grid0.N, k0_off1 (grid0.coords t) = ![0, 4096 * (t.val % 16)])

/-! ## Where the output window is idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem idleAt4 : ∀ t : Fin cfg0.N, ¬lastOfBatch (grid0.coords t) → cfg0.idle 4 (grid0.coords t) = true := by decide +kernel
theorem noFlush4 : ∀ t : Fin cfg0.N, ¬lastOfBatch (grid0.coords t) → (cfg0.win 4).flush t = false := by decide +kernel
theorem liveAt4 : ∀ t : Fin cfg0.N, lastOfBatch (grid0.coords t) → cfg0.idle 4 (grid0.coords t) = false := by decide +kernel

/-! ## The memrefs the body is called with -/

abbrev ms0 (t : Fin cfg0.N) : Memref sig .tc .vmem S1x64x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x256x256 .f32 := win0_4.stage (cfg0.slots t 4)
abbrev hs4 (t : Fin cfg0.N) : (ms4 t).IsWhole := hstage0_4 ((cfg0.slots t 4).cast nbuf0_4)
abbrev scQ : Memref sig .tc .vmem S64x65536 .bf16 := Memref.whole cc0_scratch0
abbrev scK : Memref sig .tc .vmem S64x65536 .bf16 := Memref.whole cc0_scratch1
abbrev scV : Memref sig .tc .vmem S64x65536 .bf16 := Memref.whole cc0_scratch2

/-- The class invariant with the three scratch planes as memrefs owned at some contents. -/
theorem PhiA_eq (c : Dev nD) :
    (Pipeline.ΦA spec0 c : sProp 𝕄)
      = iprop(iprop((∃ d, owns (c : Thread nD τ) scQ fullShare d) ∗ (∃ d, owns (c : Thread nD τ) scK fullShare d) ∗ (∃ d, owns (c : Thread nD τ) scV fullShare d)) ∗ (∃ r, prngReg c r)) := by
  unfold Pipeline.ΦA; rw [scopedRest0_eq]; simp only [scQ, scK, scV, owns_whole]; try rfl

variable (m : (ℓ : Loc nD τ sig) → Buf (Elt F) ℓ) (ρ : Dev nD → PrngReg)

/-! ## The tiles, the planes and the output block of a batch -/

def qTile (c : Dev nD) (t : Fin cfg0.N) : Vec F S64x4096 .bf16 := k0_pay2 (iblk m c 0 t) (iblk m c 2 t)
def kTile (c : Dev nD) (t : Fin cfg0.N) : Vec F S64x4096 .bf16 := k0_pay3 (iblk m c 1 t) (iblk m c 3 t)
def vTile (c : Dev nD) (t : Fin cfg0.N) : Vec F S64x4096 .bf16 := k0_pay4 (iblk m c 1 t) (iblk m c 3 t)

/-- What the last point of batch `b` leaves in the output block. -/
def outBlock (c : Dev nD) (b : ℕ) : Vec F S1x64x256x256 .f32 :=
  outOf (plane (qTile m c) b) (plane (kTile m c) b) (plane (vTile m c) b)

/-- The three planes agree with batch `n / 16` on its first `n % 16` tiles. -/
def Filled (c : Dev nD) (n : ℕ) (q k v : Vec F S64x65536 .bf16) : Prop :=
  Upto (qTile m c) (n / 16) (n % 16) q ∧ Upto (kTile m c) (n / 16) (n % 16) k ∧ Upto (vTile m c) (n / 16) (n % 16) v

/-- The region invariant before point `n`. -/
def Phi (c : Dev nD) (n : ℕ) : sProp 𝕄 :=
  iprop(∃ q k v, ⌜Filled m c n q k v⌝ ∗ owns (c : Thread nD τ) scQ fullShare q ∗ owns (c : Thread nD τ) scK fullShare k ∗ owns (c : Thread nD τ) scV fullShare v ∗ (∃ r, prngReg c r))

/-- The proof data: the arrays as the region finds them; each input's buffer at its block; the output's at the batch's
    block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c (t.val / 16)
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outBlock m c (t.val / 16) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- One more tile walked: the planes as a point that is not the last of its batch leaves them. -/
theorem filled_step (c : Dev nD) (t : Fin cfg0.N) (h15 : ¬t.val % 16 = 15) (q k v : Vec F S64x65536 .bf16)
    (h : Filled m c t.val q k v) :
    Filled m c (t.val + 1)
      (View.patch (S := S64x65536) (k0_off1 (grid0.coords t)) S64x4096.size (k0_pay2 (iblk m c 0 t) (iblk m c 2 t)) q)
      (View.patch (S := S64x65536) (k0_off1 (grid0.coords t)) S64x4096.size (k0_pay3 (iblk m c 1 t) (iblk m c 3 t)) k)
      (View.patch (S := S64x65536) (k0_off1 (grid0.coords t)) S64x4096.size (k0_pay4 (iblk m c 1 t) (iblk m c 3 t)) v) := by
  have hd : (t.val + 1) / 16 = t.val / 16 := by omega
  have hm : (t.val + 1) % 16 = t.val % 16 + 1 := by omega
  have hp : pt (16 * (t.val / 16) + t.val % 16) = t := by
    rw [show 16 * (t.val / 16) + t.val % 16 = t.val from Nat.div_add_mod _ _]; exact pt_val t
  unfold Filled
  rw [hd, hm]
  exact ⟨upto_patch _ _ _ _ h.1 _ (off_eq t) _ (by rw [hp]; rfl),
    upto_patch _ _ _ _ h.2.1 _ (off_eq t) _ (by rw [hp]; rfl),
    upto_patch _ _ _ _ h.2.2 _ (off_eq t) _ (by rw [hp]; rfl)⟩

/-- The last tile walked: the planes are the batch's. -/
theorem filled_last (c : Dev nD) (t : Fin cfg0.N) (h15 : t.val % 16 = 15) (q k v : Vec F S64x65536 .bf16)
    (h : Filled m c t.val q k v) :
    View.patch (S := S64x65536) (k0_off1 (grid0.coords t)) S64x4096.size (k0_pay2 (iblk m c 0 t) (iblk m c 2 t)) q = plane (qTile m c) (t.val / 16)
    ∧ View.patch (S := S64x65536) (k0_off1 (grid0.coords t)) S64x4096.size (k0_pay3 (iblk m c 1 t) (iblk m c 3 t)) k = plane (kTile m c) (t.val / 16)
    ∧ View.patch (S := S64x65536) (k0_off1 (grid0.coords t)) S64x4096.size (k0_pay4 (iblk m c 1 t) (iblk m c 3 t)) v = plane (vTile m c) (t.val / 16) := by
  have hp : pt (16 * (t.val / 16) + t.val % 16) = t := by
    rw [show 16 * (t.val / 16) + t.val % 16 = t.val from Nat.div_add_mod _ _]; exact pt_val t
  have h16 : t.val % 16 + 1 = 16 := by omega
  unfold Filled at h
  have hq := upto_patch _ _ _ _ h.1 _ (off_eq t) (k0_pay2 (iblk m c 0 t) (iblk m c 2 t)) (by rw [hp]; rfl)
  have hk := upto_patch _ _ _ _ h.2.1 _ (off_eq t) (k0_pay3 (iblk m c 1 t) (iblk m c 3 t)) (by rw [hp]; rfl)
  have hv := upto_patch _ _ _ _ h.2.2 _ (off_eq t) (k0_pay4 (iblk m c 1 t) (iblk m c 3 t)) (by rw [hp]; rfl)
  rw [h16] at hq hk hv
  exact ⟨upto_full _ _ _ hq, upto_full _ _ _ hk, upto_full _ _ _ hv⟩

set_option maxHeartbeats 4000000 in
/-- The body at any point. The invariant hands it the three planes; the point's case is read off its position; the
    run applies; afterwards the planes are patched by the point's tile, which extends the invariant by one tile (or, at
    the last point of a batch, completes the planes, so that the block stored is the batch's). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0 t) fullShare ((dats m 0 c).after 0 t) from by
      unfold Dat.leavesExact; rw [liveAt0 t], after0]
  rw [show (dats m 0 c).leavesExact 1 t = owns (c : Thread nD τ) (ms1 t) fullShare ((dats m 0 c).after 1 t) from by
      unfold Dat.leavesExact; rw [liveAt1 t], after1]
  rw [show (dats m 0 c).leavesExact 2 t = owns (c : Thread nD τ) (ms2 t) fullShare ((dats m 0 c).after 2 t) from by
      unfold Dat.leavesExact; rw [liveAt2 t], after2]
  rw [show (dats m 0 c).leavesExact 3 t = owns (c : Thread nD τ) (ms3 t) fullShare ((dats m 0 c).after 3 t) from by
      unfold Dat.leavesExact; rw [liveAt3 t], after3]
  unfold Phi
  by_cases h15 : t.val % 16 = 15
  · have hc : lastOfBatch (grid0.coords t) := (lastOfBatch_iff t).mpr h15
    rw [show (dats m 0 c).leavesExact 4 t = owns (c : Thread nD τ) (ms4 t) fullShare ((dats m 0 c).after 4 t) from by
      unfold Dat.leavesExact; rw [liveAt4 t hc], after4]
    iintro ⟨⟨%q, %k, %v, %hF, HS0, HS1, HS2, Hg⟩, Ho, ⟨%d0, H0⟩, ⟨%d1, H1⟩, ⟨%d2, H2⟩, ⟨%d3, H3⟩, ⟨%d4, H4⟩⟩
    iapply ((runLast c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) hc (iblk m c 0 t) (iblk m c 1 t) (iblk m c 2 t) (iblk m c 3 t) ((dats m 0 c).before 4 t d4) q k v).2.2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · iexists _, _, _
      isplitr
      swap
      · isplitl [HS0]
        · unfold owns; iexists _; isplitr
          swap; · iexact HS0
          ipureintro; rfl
        isplitl [HS1]
        · unfold owns; iexists _; isplitr
          swap; · iexact HS1
          ipureintro; rfl
        isplitl [HS2]
        · unfold owns; iexists _; isplitr
          swap; · iexact HS2
          ipureintro; rfl
        iexact Hg
      ipureintro
      have h0 : (t.val + 1) % 16 = 0 := by omega
      unfold Filled
      rw [h0]
      exact ⟨upto_zero _ _ _, upto_zero _ _ _, upto_zero _ _ _⟩
    isplitl [Ho]; · iexact Ho
    isplitl [H0]; · iexact H0
    isplitl [H1]; · iexact H1
    isplitl [H2]; · iexact H2
    isplitl [H3]; · iexact H3
    unfold owns; iexists _; isplitr
    swap; · iexact H4
    ipureintro
    refine (runLast_out c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc).trans ?_
    rw [runLast_q c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc, runLast_k c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc, runLast_v c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc]
    obtain ⟨e1, e2, e3⟩ := filled_last m c t h15 q k v hF
    rw [e1, e2, e3]
    rfl
  · have hc : ¬lastOfBatch (grid0.coords t) := fun h => h15 ((lastOfBatch_iff t).mp h)
    rw [Dat.leavesExact_idle (dats m 0 c) 4 t (idleAt4 t hc) (noFlush4 t hc)]
    iintro ⟨⟨%q, %k, %v, %hF, HS0, HS1, HS2, Hg⟩, Ho, ⟨%d0, H0⟩, ⟨%d1, H1⟩, ⟨%d2, H2⟩, ⟨%d3, H3⟩, ⟨%d4, H4⟩⟩
    iapply ((runFill c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) hc (iblk m c 0 t) (iblk m c 1 t) (iblk m c 2 t) (iblk m c 3 t) ((dats m 0 c).before 4 t d4) q k v).2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · iexists _, _, _
      isplitr
      swap
      · isplitl [HS0]
        · unfold owns; iexists _; isplitr
          swap; · iexact HS0
          ipureintro; rfl
        isplitl [HS1]
        · unfold owns; iexists _; isplitr
          swap; · iexact HS1
          ipureintro; rfl
        isplitl [HS2]
        · unfold owns; iexists _; isplitr
          swap; · iexact HS2
          ipureintro; rfl
        iexact Hg
      ipureintro
      rw [runFill_q c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc, runFill_k c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc, runFill_v c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc]
      exact filled_step m c t h15 q k v hF
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is asked of the planes. -/
theorem hin (c : Dev nD) : Pipeline.ΦA spec0 c ⊢ (dats m 0 c).Φ 0 := by
  rw [show (dats m 0 c).Φ 0 = Phi m c 0 from rfl, PhiA_eq]; unfold Phi
  iintro ⟨⟨⟨%q, HS0⟩, ⟨%k, HS1⟩, ⟨%v, HS2⟩⟩, Hg⟩
  iexists q, k, v
  isplitr; · ipureintro; exact ⟨upto_zero _ _ _, upto_zero _ _ _, upto_zero _ _ _⟩
  isplitl [HS0]; · iexact HS0
  isplitl [HS1]; · iexact HS1
  isplitl [HS2]; · iexact HS2
  iexact Hg

/-- After the last point the planes are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]; unfold Phi
  iintro ⟨%q, %k, %v, -, HS0, HS1, HS2, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of the program terminates, and every final state has each array of the pipeline at what
    the proof data give and every other unscoped buffer at its contents when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.Body.lean ====
/-
  The kernel body run once in each of its two control cases, on any whole staging memrefs.

  Every grid point projects its tile of positions: it stores 4096 columns of the query, key and value planes into the three
  scratch buffers, at the column offset the point's second coordinate gives. The last point of a batch (second coordinate
  15) then reads the three buffers back eight channels at a time and stores the attention result of each group of eight
  into the output block. The two runs below say what each buffer holds afterwards, as the list of the stores made into
  it (newest first) over what it held before.
-/
import proofs.«122084_j62491774157251_2_alg».proof.Proof.Gen.KernelIdeal.Frame
import proofs.«122084_j62491774157251_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: taken at the last point of a batch. -/
abbrev lastOfBatch (i : grid0.Coords) : Prop := k0_cond1 i = 1#1

/-- Over the grid, in row-major order, these are the points whose position is 15 modulo 16. -/
theorem lastOfBatch_iff : ∀ t : Fin cfg0.N, lastOfBatch (grid0.coords t) ↔ t.val % 16 = 15 :=
  (by decide +kernel : ∀ t : Fin grid0.N, lastOfBatch (grid0.coords t) ↔ t.val % 16 = 15)

set_option maxHeartbeats 1000000 in
/-- A point that is not the last of its batch: one store into each scratch buffer, the output block untouched. -/
noncomputable def runFill (c : Dev nD) (i : grid0.Coords) (arg2 : Memref sig .tc .vmem S1x64x4096 .f32) (harg2 : arg2.IsWhole) (arg3 : Memref sig .tc .vmem S1x64x4096 .f32) (harg3 : arg3.IsWhole) (arg4 : Memref sig .tc .vmem S64x64 .f32) (harg4 : arg4.IsWhole) (arg5 : Memref sig .tc .vmem S128x64 .f32) (harg5 : arg5.IsWhole) (arg6 : Memref sig .tc .vmem S1x64x256x256 .f32) (harg6 : arg6.IsWhole) (arg7 : Memref sig .tc .vmem S64x65536 .bf16) (harg7 : arg7.IsWhole) (arg8 : Memref sig .tc .vmem S64x65536 .bf16) (harg8 : arg8.IsWhole) (arg9 : Memref sig .tc .vmem S64x65536 .bf16) (harg9 : arg9.IsWhole) (hc0 : ¬lastOfBatch i)
    (x0 : Vec F S1x64x4096 .f32) (x1 : Vec F S1x64x4096 .f32) (x2 : Vec F S64x64 .f32) (x3 : Vec F S128x64 .f32)
    (d4 : Vec F S1x64x256x256 .f32) (q0 k0 v0 : Vec F S64x65536 .bf16) :
    Σ' (L7 : List (View.Piece (Elt F) S64x65536 .bf16)) (L8 : List (View.Piece (Elt F) S64x65536 .bf16)), { L9 : List (View.Piece (Elt F) S64x65536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare q0 ∗ owns (c : Thread nD τ) arg8 fullShare k0 ∗ owns (c : Thread nD τ) arg9 fullShare v0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4
              ∗ (arg7.view.loc (c : Thread nD τ) ↦[arg7.view.set]{fullShare} arg7.view.writes (Elt F) (harg7.unread q0) L7)
              ∗ (arg8.view.loc (c : Thread nD τ) ↦[arg8.view.set]{fullShare} arg8.view.writes (Elt F) (harg8.unread k0) L8)
              ∗ (arg9.view.loc (c : Thread nD τ) ↦[arg9.view.set]{fullShare} arg9.view.writes (Elt F) (harg9.unread v0) L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexact HS0
    isplitl [HS1]; · iexact HS1
    iexact HS2

set_option maxHeartbeats 2000000 in
/-- The last point of a batch: the three stores, then the eight stores that tile the output block. -/
noncomputable def runLast (c : Dev nD) (i : grid0.Coords) (arg2 : Memref sig .tc .vmem S1x64x4096 .f32) (harg2 : arg2.IsWhole) (arg3 : Memref sig .tc .vmem S1x64x4096 .f32) (harg3 : arg3.IsWhole) (arg4 : Memref sig .tc .vmem S64x64 .f32) (harg4 : arg4.IsWhole) (arg5 : Memref sig .tc .vmem S128x64 .f32) (harg5 : arg5.IsWhole) (arg6 : Memref sig .tc .vmem S1x64x256x256 .f32) (harg6 : arg6.IsWhole) (arg7 : Memref sig .tc .vmem S64x65536 .bf16) (harg7 : arg7.IsWhole) (arg8 : Memref sig .tc .vmem S64x65536 .bf16) (harg8 : arg8.IsWhole) (arg9 : Memref sig .tc .vmem S64x65536 .bf16) (harg9 : arg9.IsWhole) (hc0 : lastOfBatch i)
    (x0 : Vec F S1x64x4096 .f32) (x1 : Vec F S1x64x4096 .f32) (x2 : Vec F S64x64 .f32) (x3 : Vec F S128x64 .f32)
    (d4 : Vec F S1x64x256x256 .f32) (q0 k0 v0 : Vec F S64x65536 .bf16) :
    Σ' (L6 : List (View.Piece (Elt F) S1x64x256x256 .f32)) (L7 : List (View.Piece (Elt F) S64x65536 .bf16)) (L8 : List (View.Piece (Elt F) S64x65536 .bf16)), { L9 : List (View.Piece (Elt F) S64x65536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare q0 ∗ owns (c : Thread nD τ) arg8 fullShare k0 ∗ owns (c : Thread nD τ) arg9 fullShare v0
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (arg6.view.loc (c : Thread nD τ) ↦[arg6.view.set]{fullShare} arg6.view.writes (Elt F) (harg6.unread d4) L6)
              ∗ (arg7.view.loc (c : Thread nD τ) ↦[arg7.view.set]{fullShare} arg7.view.writes (Elt F) (harg7.unread q0) L7)
              ∗ (arg8.view.loc (c : Thread nD τ) ↦[arg8.view.set]{fullShare} arg8.view.writes (Elt F) (harg8.unread k0) L8)
              ∗ (arg9.view.loc (c : Thread nD τ) ↦[arg9.view.set]{fullShare} arg9.view.writes (Elt F) (harg9.unread v0) L9)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [HS0]; · iexact HS0
    isplitl [HS1]; · iexact HS1
    iexact HS2

end Cert.KernelIdeal.Hand

end
-- ==== Proof.PaySame.lean ====
/-
  The eight groups of eight channels run the same attention.  The program's text cuts the computation of a group at
  different places (three groups hand intermediate values from one part of the text to the next), but once the pieces are
  put back together every group is the one function of its three loaded rows: the query, key and value rows, in that order.
-/
import proofs.«122084_j62491774157251_2_alg».proof.Proof.Gen.KernelIdeal.Skeleton

noncomputable section

namespace Cert.KernelIdeal.Pay

open Cert.KernelIdeal Cert.KernelIdeal.Gen Idealize.ShloMosaic

variable {F : FTy → Type} [FloatOps F]

/-- The groups the text writes out in full. -/
theorem pay6_eq (a b c : Vec F S8x65536 .bf16) : k0_pay6 a b c = k0_pay7 a b c := rfl

theorem pay12_eq (a b c : Vec F S8x65536 .bf16) : k0_pay12 a b c = k0_pay7 a b c := rfl

theorem pay17_eq (a b c : Vec F S8x65536 .bf16) : k0_pay17 a b c = k0_pay7 a b c := rfl

theorem pay18_eq (a b c : Vec F S8x65536 .bf16) : k0_pay18 a b c = k0_pay7 a b c := rfl

/-- The group cut after the exponentials and their row sums: the value rows widened, the exponentials, the sums. -/
theorem pay11_eq (a b c : Vec F S8x65536 .bf16) :
    k0_pay11 (k0_pay8 c) (k0_pay9 a b) (k0_pay10 a b) = k0_pay7 a b c := rfl

/-- The group cut right after the three rows are laid out as planes. -/
theorem pay16_eq (a b c : Vec F S8x65536 .bf16) :
    k0_pay16 (k0_pay13 a) (k0_pay14 b) (k0_pay15 c) = k0_pay7 a b c := rfl

/-- The last group cut after the exponentials and their row sums. -/
theorem pay5_eq (a b c : Vec F S8x65536 .bf16) :
    k0_pay5 (k0_pay19 c) (k0_pay20 a b) (k0_pay21 a b) = k0_pay7 a b c := rfl

end Cert.KernelIdeal.Pay

end
-- ==== Proof.BodyRead.lean ====
/-
  What the body's stores leave, read as values.

  A point's three projection stores patch the scratch planes on the point's 4096 columns. At the last point of a batch
  the eight stores into the output block tile it by groups of eight channels, and every group's payload is one and the
  same function — the attention of eight consecutive rows of the three planes — so the block is that function of the
  planes as they stand after the point's own stores.
-/
import proofs.«122084_j62491774157251_2_alg».proof.Proof.Body
import proofs.«122084_j62491774157251_2_alg».proof.Proof.LibPieceRead
import proofs.«122084_j62491774157251_2_alg».proof.Proof.PaySame
import Idealize.ShloMosaic.Lib.ValueIdx
import Idealize.ShloMosaic.Lib.Pipeline.Value
import Idealize.ShloMosaic.Lib.Ring

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl

/-- Eight consecutive rows of a 64-row plane: the rows of channel group `cb`. -/
def grp (X : Vec F S64x65536 .bf16) (cb : ℕ) : Vec F S8x65536 .bf16 :=
  fun z => X (ValueIdx.ix2 ⟨(8 * cb + (z 0).val) % 64, Nat.mod_lt _ (by decide)⟩ (z 1))

/-- The output block from the three planes: channel `ch` is row `ch % 8` of the attention of group `ch / 8`. -/
def outOf (Q K V : Vec F S64x65536 .bf16) : Vec F S1x64x256x256 .f32 :=
  fun y => k0_pay7 (grp Q ((y 1).val / 8)) (grp K ((y 1).val / 8)) (grp V ((y 1).val / 8))
    (ValueIdx.ix4 (0 : Fin 1) ⟨(y 1).val % 8, Nat.mod_lt _ (by decide)⟩ (y 2) (y 3))

/-- A load of the eight rows from row `o = 8·cb` on is the group's rows. -/
theorem ld_grp (X : Vec F S64x65536 .bf16) (cb o : ℕ) (hcb : cb < 8) (ho : o = 8 * cb)
    (inb : ∀ a, (![o, 0] : Fin 2 → ℕ) a + S8x65536.size a ≤ S64x65536.size a) :
    View.ld X (Rect.unit (s := S64x65536) ![o, 0] S8x65536.size inb) = grp X cb := by
  subst ho
  funext z
  show X ((Rect.unit (s := S64x65536) ![8 * cb, 0] S8x65536.size inb).emb z) = _
  unfold grp
  refine congrArg X (funext fun a => Fin.ext ?_)
  match a with
  | ⟨0, _⟩ =>
    show 8 * cb + 1 * (z 0).val = (8 * cb + (z 0).val) % 64
    have := (z 0).isLt
    have h8 : (z 0).val < 8 := this
    omega
  | ⟨1, _⟩ =>
    show 0 + 1 * (z 1).val = (z 1).val
    omega

/-- The payload of the group stored at channel offset `o = 8·cb` is the block function at the positions it covers. -/
theorem piece_ok (Q K V : Vec F S64x65536 .bf16) (cb o : ℕ) (hcb : cb < 8) (ho : o = 8 * cb)
    (inb4 : ∀ a, (![0, o, 0, 0] : Fin 4 → ℕ) a + S1x8x256x256.size a ≤ S1x64x256x256.size a)
    (inb2 : ∀ a, (![o, 0] : Fin 2 → ℕ) a + S8x65536.size a ≤ S64x65536.size a)
    (x : (Rect.unit (s := S1x64x256x256) ![0, o, 0, 0] S1x8x256x256.size inb4).shape.Idx) :
    k0_pay7 (View.ld Q (Rect.unit (s := S64x65536) ![o, 0] S8x65536.size inb2)) (View.ld K (Rect.unit (s := S64x65536) ![o, 0] S8x65536.size inb2))
        (View.ld V (Rect.unit (s := S64x65536) ![o, 0] S8x65536.size inb2)) x
      = outOf Q K V ((Rect.unit (s := S1x64x256x256) ![0, o, 0, 0] S1x8x256x256.size inb4).emb x) := by
  rw [ld_grp Q cb o hcb ho, ld_grp K cb o hcb ho, ld_grp V cb o hcb ho]
  subst ho
  unfold outOf
  have hx1 : (x 1).val < 8 := (x 1).isLt
  have e1 : (((Rect.unit (s := S1x64x256x256) ![0, 8 * cb, 0, 0] S1x8x256x256.size inb4).emb x) 1).val = 8 * cb + (x 1).val := by
    show 8 * cb + 1 * (x 1).val = _
    omega
  have ediv : (((Rect.unit (s := S1x64x256x256) ![0, 8 * cb, 0, 0] S1x8x256x256.size inb4).emb x) 1).val / 8 = cb := by rw [e1]; omega
  rw [ediv]
  refine congrArg _ (funext fun a => Fin.ext ?_)
  match a with
  | ⟨0, _⟩ =>
    have := (x 0).isLt
    have h1 : (x 0).val < 1 := this
    show (x 0).val = 0
    omega
  | ⟨1, _⟩ =>
    show (x 1).val = (((Rect.unit (s := S1x64x256x256) ![0, 8 * cb, 0, 0] S1x8x256x256.size inb4).emb x) 1).val % 8
    rw [e1]; omega
  | ⟨2, _⟩ =>
    show (x 2).val = 0 + 1 * (x 2).val
    omega
  | ⟨3, _⟩ =>
    show (x 3).val = 0 + 1 * (x 3).val
    omega

section Runs

local notation "𝕄" => MT nD τ sig Unit (Elt F) ℕ (UR sig nD τ) ℕ

variable (c : Dev nD) (i : grid0.Coords) (arg2 : Memref sig .tc .vmem S1x64x4096 .f32) (harg2 : arg2.IsWhole) (arg3 : Memref sig .tc .vmem S1x64x4096 .f32) (harg3 : arg3.IsWhole) (arg4 : Memref sig .tc .vmem S64x64 .f32) (harg4 : arg4.IsWhole) (arg5 : Memref sig .tc .vmem S128x64 .f32) (harg5 : arg5.IsWhole) (arg6 : Memref sig .tc .vmem S1x64x256x256 .f32) (harg6 : arg6.IsWhole) (arg7 : Memref sig .tc .vmem S64x65536 .bf16) (harg7 : arg7.IsWhole) (arg8 : Memref sig .tc .vmem S64x65536 .bf16) (harg8 : arg8.IsWhole) (arg9 : Memref sig .tc .vmem S64x65536 .bf16) (harg9 : arg9.IsWhole)
    (x0 : Vec F S1x64x4096 .f32) (x1 : Vec F S1x64x4096 .f32) (x2 : Vec F S64x64 .f32) (x3 : Vec F S128x64 .f32)
    (d4 : Vec F S1x64x256x256 .f32) (q0 k0 v0 : Vec F S64x65536 .bf16)

/-- After a point that is not the last of its batch the query plane is what it was, patched on the point's 4096
    columns by the projected tile; likewise the key and value planes. -/
theorem runFill_q (hc0 : ¬lastOfBatch i) :
    arg7.view.read (Elt F) (arg7.view.writes (Elt F) (harg7.unread q0) (runFill c i arg2 harg2 arg3 harg3 arg4 harg4 arg5 harg5 arg6 harg6 arg7 harg7 arg8 harg8 arg9 harg9 hc0 x0 x1 x2 x3 d4 q0 k0 v0).1)
      = View.patch (S := S64x65536) (k0_off1 i) S64x4096.size (k0_pay2 x0 x2) q0 := by
  unfold runFill; dsimp only
  sl_unfold_run_names
  rw [View.read_writes_cons_patch]
  simp only [View.writes_nil, harg7.read_unread, View.readAt_eq_ld, harg2.read_unread, harg4.read_unread,
    View.ld_unit_zero (S := S1x64x4096) hz3, View.ld_unit_zero (S := S64x64) hz2]

theorem runFill_k (hc0 : ¬lastOfBatch i) :
    arg8.view.read (Elt F) (arg8.view.writes (Elt F) (harg8.unread k0) (runFill c i arg2 harg2 arg3 harg3 arg4 harg4 arg5 harg5 arg6 harg6 arg7 harg7 arg8 harg8 arg9 harg9 hc0 x0 x1 x2 x3 d4 q0 k0 v0).2.1)
      = View.patch (S := S64x65536) (k0_off1 i) S64x4096.size (k0_pay3 x1 x3) k0 := by
  unfold runFill; dsimp only
  sl_unfold_run_names
  rw [View.read_writes_cons_patch]
  simp only [View.writes_nil, harg8.read_unread, View.readAt_eq_ld, harg3.read_unread, harg5.read_unread,
    View.ld_unit_zero (S := S1x64x4096) hz3, View.ld_unit_zero (S := S128x64) hz2]

theorem runFill_v (hc0 : ¬lastOfBatch i) :
    arg9.view.read (Elt F) (arg9.view.writes (Elt F) (harg9.unread v0) (runFill c i arg2 harg2 arg3 harg3 arg4 harg4 arg5 harg5 arg6 harg6 arg7 harg7 arg8 harg8 arg9 harg9 hc0 x0 x1 x2 x3 d4 q0 k0 v0).2.2.1)
      = View.patch (S := S64x65536) (k0_off1 i) S64x4096.size (k0_pay4 x1 x3) v0 := by
  unfold runFill; dsimp only
  sl_unfold_run_names
  rw [View.read_writes_cons_patch]
  simp only [View.writes_nil, harg9.read_unread, View.readAt_eq_ld, harg3.read_unread, harg5.read_unread,
    View.ld_unit_zero (S := S1x64x4096) hz3, View.ld_unit_zero (S := S128x64) hz2]

/-- The same at the last point of a batch. -/
theorem runLast_q (hc0 : lastOfBatch i) :
    arg7.view.read (Elt F) (arg7.view.writes (Elt F) (harg7.unread q0) (runLast c i arg2 harg2 arg3 harg3 arg4 harg4 arg5 harg5 arg6 harg6 arg7 harg7 arg8 harg8 arg9 harg9 hc0 x0 x1 x2 x3 d4 q0 k0 v0).2.1)
      = View.patch (S := S64x65536) (k0_off1 i) S64x4096.size (k0_pay2 x0 x2) q0 := by
  unfold runLast; dsimp only
  sl_unfold_run_names
  rw [View.read_writes_cons_patch]
  simp only [View.writes_nil, harg7.read_unread, View.readAt_eq_ld, harg2.read_unread, harg4.read_unread,
    View.ld_unit_zero (S := S1x64x4096) hz3, View.ld_unit_zero (S := S64x64) hz2]

theorem runLast_k (hc0 : lastOfBatch i) :
    arg8.view.read (Elt F) (arg8.view.writes (Elt F) (harg8.unread k0) (runLast c i arg2 harg2 arg3 harg3 arg4 harg4 arg5 harg5 arg6 harg6 arg7 harg7 arg8 harg8 arg9 harg9 hc0 x0 x1 x2 x3 d4 q0 k0 v0).2.2.1)
      = View.patch (S := S64x65536) (k0_off1 i) S64x4096.size (k0_pay3 x1 x3) k0 := by
  unfold runLast; dsimp only
  sl_unfold_run_names
  rw [View.read_writes_cons_patch]
  simp only [View.writes_nil, harg8.read_unread, View.readAt_eq_ld, harg3.read_unread, harg5.read_unread,
    View.ld_unit_zero (S := S1x64x4096) hz3, View.ld_unit_zero (S := S128x64) hz2]

theorem runLast_v (hc0 : lastOfBatch i) :
    arg9.view.read (Elt F) (arg9.view.writes (Elt F) (harg9.unread v0) (runLast c i arg2 harg2 arg3 harg3 arg4 harg4 arg5 harg5 arg6 harg6 arg7 harg7 arg8 harg8 arg9 harg9 hc0 x0 x1 x2 x3 d4 q0 k0 v0).2.2.2.1)
      = View.patch (S := S64x65536) (k0_off1 i) S64x4096.size (k0_pay4 x1 x3) v0 := by
  unfold runLast; dsimp only
  sl_unfold_run_names
  rw [View.read_writes_cons_patch]
  simp only [View.writes_nil, harg9.read_unread, View.readAt_eq_ld, harg3.read_unread, harg5.read_unread,
    View.ld_unit_zero (S := S1x64x4096) hz3, View.ld_unit_zero (S := S128x64) hz2]

set_option maxHeartbeats 2000000 in
/-- The output block after the last point of a batch is the block function of the three planes as the point leaves them. -/
theorem runLast_out [∀ e, Nonempty (Elt F e)] (hc0 : lastOfBatch i) :
    arg6.view.read (Elt F) (arg6.view.writes (Elt F) (harg6.unread d4) (runLast c i arg2 harg2 arg3 harg3 arg4 harg4 arg5 harg5 arg6 harg6 arg7 harg7 arg8 harg8 arg9 harg9 hc0 x0 x1 x2 x3 d4 q0 k0 v0).1)
      = outOf (arg7.view.read (Elt F) (arg7.view.writes (Elt F) (harg7.unread q0) (runLast c i arg2 harg2 arg3 harg3 arg4 harg4 arg5 harg5 arg6 harg6 arg7 harg7 arg8 harg8 arg9 harg9 hc0 x0 x1 x2 x3 d4 q0 k0 v0).2.1))
          (arg8.view.read (Elt F) (arg8.view.writes (Elt F) (harg8.unread k0) (runLast c i arg2 harg2 arg3 harg3 arg4 harg4 arg5 harg5 arg6 harg6 arg7 harg7 arg8 harg8 arg9 harg9 hc0 x0 x1 x2 x3 d4 q0 k0 v0).2.2.1))
          (arg9.view.read (Elt F) (arg9.view.writes (Elt F) (harg9.unread v0) (runLast c i arg2 harg2 arg3 harg3 arg4 harg4 arg5 harg5 arg6 harg6 arg7 harg7 arg8 harg8 arg9 harg9 hc0 x0 x1 x2 x3 d4 q0 k0 v0).2.2.2.1)) := by
  unfold runLast; dsimp only
  sl_unfold_run_names
  simp only [View.readAt_eq_ld]
  funext y
  refine (congrFun (View.read_writes_eq_canon (Val := Elt F) _ _ _ ?cov) y).trans ?_
  case cov => exact View.cover_of_tiledL (s := S1x64x256x256) _ S1x8x256x256.size (by sl_kernel_rfl)
  refine View.canon_apply_of_pieces _ _ ?_ y (View.cover_of_tiledL (s := S1x64x256x256) _ S1x8x256x256.size (by sl_kernel_rfl) y)
  intro p hp x
  simp only [List.mem_cons, List.mem_nil_iff, or_false] at hp
  rcases hp with rfl | rfl | rfl | rfl | rfl | rfl | rfl | rfl
  · dsimp only; rw [pay6_eq]; exact piece_ok _ _ _ 7 56 (by decide) rfl _ _ x
  · dsimp only; rw [pay5_eq]; exact piece_ok _ _ _ 6 48 (by decide) rfl _ _ x
  · dsimp only; rw [pay18_eq]; exact piece_ok _ _ _ 5 40 (by decide) rfl _ _ x
  · dsimp only; rw [pay17_eq]; exact piece_ok _ _ _ 4 32 (by decide) rfl _ _ x
  · dsimp only; rw [pay16_eq]; exact piece_ok _ _ _ 3 24 (by decide) rfl _ _ x
  · dsimp only; rw [pay12_eq]; exact piece_ok _ _ _ 2 16 (by decide) rfl _ _ x
  · dsimp only; rw [pay11_eq]; exact piece_ok _ _ _ 1 8 (by decide) rfl _ _ x
  · dsimp only; exact piece_ok _ _ _ 0 0 (by decide) rfl _ _ x

end Runs

end Cert.KernelIdeal.Hand

end
-- ==== Proof.Data.lean ====
/-
  The pipeline's proof data and the body obligation.

  The grid is 8 batches by 16 tiles, walked in row-major order, so point `n` is tile `n % 16` of batch `n / 16`. Before
  point `n` the three scratch planes hold, on the columns of the tiles already walked in this batch (the first
  `n % 16` tiles), the projections of those tiles; nothing is said of the other columns. A point that is not the last of
  its batch extends this by its own tile and leaves the output block alone; the last point of a batch completes the
  planes and stores the attention of the whole batch into the output block, which the pipeline then writes back.
-/
import proofs.«122084_j62491774157251_2_alg».proof.Proof.BodyRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Planes built tile by tile (no program in this part) -/

/-- Point `p` of the grid, taken modulo the 128 points so that it is total. -/
def pt (p : ℕ) : Fin cfg0.N := ⟨p % 128, lt_of_lt_of_eq (Nat.mod_lt _ (by decide)) N_0.symm⟩

theorem pt_val (t : Fin cfg0.N) : pt t.val = t :=
  Fin.ext (Nat.mod_eq_of_lt (lt_of_lt_of_eq t.isLt N_0))

/-- The 64 × 65536 plane of batch `b` whose columns `4096·s … 4096·s + 4095` are the tile of point `16·b + s`. -/
def plane (tile : Fin cfg0.N → Vec F S64x4096 .bf16) (b : ℕ) : Vec F S64x65536 .bf16 :=
  fun y => tile (pt (16 * b + (y 1).val / 4096)) (ValueIdx.ix2 (y 0) ⟨(y 1).val % 4096, Nat.mod_lt _ (by decide)⟩)

/-- `X` agrees with the plane of batch `b` on the columns of its first `S` tiles. -/
def Upto (tile : Fin cfg0.N → Vec F S64x4096 .bf16) (b S : ℕ) (X : Vec F S64x65536 .bf16) : Prop :=
  ∀ y : S64x65536.Idx, (y 1).val / 4096 < S → X y = plane tile b y

theorem upto_zero (tile : Fin cfg0.N → Vec F S64x4096 .bf16) (b : ℕ) (X : Vec F S64x65536 .bf16) : Upto tile b 0 X :=
  fun y h => absurd h (Nat.not_lt_zero _)

/-- Storing tile `S` on its columns extends the agreement by one tile. -/
theorem upto_patch (tile : Fin cfg0.N → Vec F S64x4096 .bf16) (b S : ℕ) (X : Vec F S64x65536 .bf16) (h : Upto tile b S X)
    (off : Fin 2 → ℕ) (hoff : off = ![0, 4096 * S]) (w : Vec F S64x4096 .bf16) (hw : w = tile (pt (16 * b + S))) :
    Upto tile b (S + 1) (View.patch (S := S64x65536) off S64x4096.size w X) := by
  subst hoff hw
  intro y hy
  by_cases hlt : (y 1).val / 4096 < S
  · rw [View.patch_of_not_mem _ _ _ (fun hall => by
      have := (hall 1).1
      have h1 : 4096 * S ≤ (y 1).val := this
      omega)]
    exact h y hlt
  · have hS : (y 1).val / 4096 = S := by omega
    have hmem : ∀ a : Fin 2, (![0, 4096 * S] : Fin 2 → ℕ) a ≤ (y a).val ∧ (y a).val < (![0, 4096 * S] : Fin 2 → ℕ) a + S64x4096.size a := by
      intro a
      match a with
      | ⟨0, _⟩ =>
        refine ⟨Nat.zero_le _, ?_⟩
        have := (y 0).isLt
        have h64 : (y 0).val < 64 := this
        show (y 0).val < 0 + 64
        omega
      | ⟨1, _⟩ =>
        show 4096 * S ≤ (y 1).val ∧ (y 1).val < 4096 * S + 4096
        omega
    rw [View.patch_of_mem _ _ _ hmem]
    unfold plane
    rw [hS]
    refine congrArg _ (funext fun a => Fin.ext ?_)
    match a with
    | ⟨0, _⟩ =>
      show (y 0).val - 0 = (y 0).val
      omega
    | ⟨1, _⟩ =>
      show (y 1).val - 4096 * S = (y 1).val % 4096
      omega

/-- Agreement on all sixteen tiles is equality. -/
theorem upto_full (tile : Fin cfg0.N → Vec F S64x4096 .bf16) (b : ℕ) (X : Vec F S64x65536 .bf16) (h : Upto tile b 16 X) :
    X = plane tile b :=
  funext fun y => h y (by
    have := (y 1).isLt
    have h1 : (y 1).val < 65536 := this
    omega)

/-- The column offset of the body's three stores: the point's tile. -/
theorem off_eq : ∀ t : Fin cfg0.N, k0_off1 (grid0.coords t) = ![0, 4096 * (t.val % 16)] :=
  (by decide +kernel : ∀ t : Fin grid0.N, k0_off1 (grid0.coords t) = ![0, 4096 * (t.val % 16)])

/-! ## Where the output window is idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem idleAt4 : ∀ t : Fin cfg0.N, ¬lastOfBatch (grid0.coords t) → cfg0.idle 4 (grid0.coords t) = true := by decide +kernel
theorem noFlush4 : ∀ t : Fin cfg0.N, ¬lastOfBatch (grid0.coords t) → (cfg0.win 4).flush t = false := by decide +kernel
theorem liveAt4 : ∀ t : Fin cfg0.N, lastOfBatch (grid0.coords t) → cfg0.idle 4 (grid0.coords t) = false := by decide +kernel

/-! ## The memrefs the body is called with -/

abbrev ms0 (t : Fin cfg0.N) : Memref sig .tc .vmem S1x64x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x256x256 .f32 := win0_4.stage (cfg0.slots t 4)
abbrev hs4 (t : Fin cfg0.N) : (ms4 t).IsWhole := hstage0_4 ((cfg0.slots t 4).cast nbuf0_4)
abbrev scQ : Memref sig .tc .vmem S64x65536 .bf16 := Memref.whole cc0_scratch0
abbrev scK : Memref sig .tc .vmem S64x65536 .bf16 := Memref.whole cc0_scratch1
abbrev scV : Memref sig .tc .vmem S64x65536 .bf16 := Memref.whole cc0_scratch2

/-- The class invariant with the three scratch planes as memrefs owned at some contents. -/
theorem PhiA_eq (c : Dev nD) :
    (Pipeline.ΦA spec0 c : sProp 𝕄)
      = iprop(iprop((∃ d, owns (c : Thread nD τ) scQ fullShare d) ∗ (∃ d, owns (c : Thread nD τ) scK fullShare d) ∗ (∃ d, owns (c : Thread nD τ) scV fullShare d)) ∗ (∃ r, prngReg c r)) := by
  unfold Pipeline.ΦA; rw [scopedRest0_eq]; simp only [scQ, scK, scV, owns_whole]; try rfl

variable (m : (ℓ : Loc nD τ sig) → Buf (Elt F) ℓ) (ρ : Dev nD → PrngReg)

/-! ## The tiles, the planes and the output block of a batch -/

def qTile (c : Dev nD) (t : Fin cfg0.N) : Vec F S64x4096 .bf16 := k0_pay2 (iblk m c 0 t) (iblk m c 2 t)
def kTile (c : Dev nD) (t : Fin cfg0.N) : Vec F S64x4096 .bf16 := k0_pay3 (iblk m c 1 t) (iblk m c 3 t)
def vTile (c : Dev nD) (t : Fin cfg0.N) : Vec F S64x4096 .bf16 := k0_pay4 (iblk m c 1 t) (iblk m c 3 t)

/-- What the last point of batch `b` leaves in the output block. -/
def outBlock (c : Dev nD) (b : ℕ) : Vec F S1x64x256x256 .f32 :=
  outOf (plane (qTile m c) b) (plane (kTile m c) b) (plane (vTile m c) b)

/-- The three planes agree with batch `n / 16` on its first `n % 16` tiles. -/
def Filled (c : Dev nD) (n : ℕ) (q k v : Vec F S64x65536 .bf16) : Prop :=
  Upto (qTile m c) (n / 16) (n % 16) q ∧ Upto (kTile m c) (n / 16) (n % 16) k ∧ Upto (vTile m c) (n / 16) (n % 16) v

/-- The region invariant before point `n`. -/
def Phi (c : Dev nD) (n : ℕ) : sProp 𝕄 :=
  iprop(∃ q k v, ⌜Filled m c n q k v⌝ ∗ owns (c : Thread nD τ) scQ fullShare q ∗ owns (c : Thread nD τ) scK fullShare k ∗ owns (c : Thread nD τ) scV fullShare v ∗ (∃ r, prngReg c r))

/-- The proof data: the arrays as the region finds them; each input's buffer at its block; the output's at the batch's
    block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c (t.val / 16)
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outBlock m c (t.val / 16) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- One more tile walked: the planes as a point that is not the last of its batch leaves them. -/
theorem filled_step (c : Dev nD) (t : Fin cfg0.N) (h15 : ¬t.val % 16 = 15) (q k v : Vec F S64x65536 .bf16)
    (h : Filled m c t.val q k v) :
    Filled m c (t.val + 1)
      (View.patch (S := S64x65536) (k0_off1 (grid0.coords t)) S64x4096.size (k0_pay2 (iblk m c 0 t) (iblk m c 2 t)) q)
      (View.patch (S := S64x65536) (k0_off1 (grid0.coords t)) S64x4096.size (k0_pay3 (iblk m c 1 t) (iblk m c 3 t)) k)
      (View.patch (S := S64x65536) (k0_off1 (grid0.coords t)) S64x4096.size (k0_pay4 (iblk m c 1 t) (iblk m c 3 t)) v) := by
  have hd : (t.val + 1) / 16 = t.val / 16 := by omega
  have hm : (t.val + 1) % 16 = t.val % 16 + 1 := by omega
  have hp : pt (16 * (t.val / 16) + t.val % 16) = t := by
    rw [show 16 * (t.val / 16) + t.val % 16 = t.val from Nat.div_add_mod _ _]; exact pt_val t
  unfold Filled
  rw [hd, hm]
  exact ⟨upto_patch _ _ _ _ h.1 _ (off_eq t) _ (by rw [hp]; rfl),
    upto_patch _ _ _ _ h.2.1 _ (off_eq t) _ (by rw [hp]; rfl),
    upto_patch _ _ _ _ h.2.2 _ (off_eq t) _ (by rw [hp]; rfl)⟩

/-- The last tile walked: the planes are the batch's. -/
theorem filled_last (c : Dev nD) (t : Fin cfg0.N) (h15 : t.val % 16 = 15) (q k v : Vec F S64x65536 .bf16)
    (h : Filled m c t.val q k v) :
    View.patch (S := S64x65536) (k0_off1 (grid0.coords t)) S64x4096.size (k0_pay2 (iblk m c 0 t) (iblk m c 2 t)) q = plane (qTile m c) (t.val / 16)
    ∧ View.patch (S := S64x65536) (k0_off1 (grid0.coords t)) S64x4096.size (k0_pay3 (iblk m c 1 t) (iblk m c 3 t)) k = plane (kTile m c) (t.val / 16)
    ∧ View.patch (S := S64x65536) (k0_off1 (grid0.coords t)) S64x4096.size (k0_pay4 (iblk m c 1 t) (iblk m c 3 t)) v = plane (vTile m c) (t.val / 16) := by
  have hp : pt (16 * (t.val / 16) + t.val % 16) = t := by
    rw [show 16 * (t.val / 16) + t.val % 16 = t.val from Nat.div_add_mod _ _]; exact pt_val t
  have h16 : t.val % 16 + 1 = 16 := by omega
  unfold Filled at h
  have hq := upto_patch _ _ _ _ h.1 _ (off_eq t) (k0_pay2 (iblk m c 0 t) (iblk m c 2 t)) (by rw [hp]; rfl)
  have hk := upto_patch _ _ _ _ h.2.1 _ (off_eq t) (k0_pay3 (iblk m c 1 t) (iblk m c 3 t)) (by rw [hp]; rfl)
  have hv := upto_patch _ _ _ _ h.2.2 _ (off_eq t) (k0_pay4 (iblk m c 1 t) (iblk m c 3 t)) (by rw [hp]; rfl)
  rw [h16] at hq hk hv
  exact ⟨upto_full _ _ _ hq, upto_full _ _ _ hk, upto_full _ _ _ hv⟩

set_option maxHeartbeats 4000000 in
/-- The body at any point. The invariant hands it the three planes; the point's case is read off its position; the
    run applies; afterwards the planes are patched by the point's tile, which extends the invariant by one tile (or, at
    the last point of a batch, completes the planes, so that the block stored is the batch's). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0 t) fullShare ((dats m 0 c).after 0 t) from by
      unfold Dat.leavesExact; rw [liveAt0 t], after0]
  rw [show (dats m 0 c).leavesExact 1 t = owns (c : Thread nD τ) (ms1 t) fullShare ((dats m 0 c).after 1 t) from by
      unfold Dat.leavesExact; rw [liveAt1 t], after1]
  rw [show (dats m 0 c).leavesExact 2 t = owns (c : Thread nD τ) (ms2 t) fullShare ((dats m 0 c).after 2 t) from by
      unfold Dat.leavesExact; rw [liveAt2 t], after2]
  rw [show (dats m 0 c).leavesExact 3 t = owns (c : Thread nD τ) (ms3 t) fullShare ((dats m 0 c).after 3 t) from by
      unfold Dat.leavesExact; rw [liveAt3 t], after3]
  unfold Phi
  by_cases h15 : t.val % 16 = 15
  · have hc : lastOfBatch (grid0.coords t) := (lastOfBatch_iff t).mpr h15
    rw [show (dats m 0 c).leavesExact 4 t = owns (c : Thread nD τ) (ms4 t) fullShare ((dats m 0 c).after 4 t) from by
      unfold Dat.leavesExact; rw [liveAt4 t hc], after4]
    iintro ⟨⟨%q, %k, %v, %hF, HS0, HS1, HS2, Hg⟩, Ho, ⟨%d0, H0⟩, ⟨%d1, H1⟩, ⟨%d2, H2⟩, ⟨%d3, H3⟩, ⟨%d4, H4⟩⟩
    iapply ((runLast c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) hc (iblk m c 0 t) (iblk m c 1 t) (iblk m c 2 t) (iblk m c 3 t) ((dats m 0 c).before 4 t d4) q k v).2.2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · iexists _, _, _
      isplitr
      swap
      · isplitl [HS0]
        · unfold owns; iexists _; isplitr
          swap; · iexact HS0
          ipureintro; rfl
        isplitl [HS1]
        · unfold owns; iexists _; isplitr
          swap; · iexact HS1
          ipureintro; rfl
        isplitl [HS2]
        · unfold owns; iexists _; isplitr
          swap; · iexact HS2
          ipureintro; rfl
        iexact Hg
      ipureintro
      have h0 : (t.val + 1) % 16 = 0 := by omega
      unfold Filled
      rw [h0]
      exact ⟨upto_zero _ _ _, upto_zero _ _ _, upto_zero _ _ _⟩
    isplitl [Ho]; · iexact Ho
    isplitl [H0]; · iexact H0
    isplitl [H1]; · iexact H1
    isplitl [H2]; · iexact H2
    isplitl [H3]; · iexact H3
    unfold owns; iexists _; isplitr
    swap; · iexact H4
    ipureintro
    refine (runLast_out c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc).trans ?_
    rw [runLast_q c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc, runLast_k c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc, runLast_v c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc]
    obtain ⟨e1, e2, e3⟩ := filled_last m c t h15 q k v hF
    rw [e1, e2, e3]
    rfl
  · have hc : ¬lastOfBatch (grid0.coords t) := fun h => h15 ((lastOfBatch_iff t).mp h)
    rw [Dat.leavesExact_idle (dats m 0 c) 4 t (idleAt4 t hc) (noFlush4 t hc)]
    iintro ⟨⟨%q, %k, %v, %hF, HS0, HS1, HS2, Hg⟩, Ho, ⟨%d0, H0⟩, ⟨%d1, H1⟩, ⟨%d2, H2⟩, ⟨%d3, H3⟩, ⟨%d4, H4⟩⟩
    iapply ((runFill c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) hc (iblk m c 0 t) (iblk m c 1 t) (iblk m c 2 t) (iblk m c 3 t) ((dats m 0 c).before 4 t d4) q k v).2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · iexists _, _, _
      isplitr
      swap
      · isplitl [HS0]
        · unfold owns; iexists _; isplitr
          swap; · iexact HS0
          ipureintro; rfl
        isplitl [HS1]
        · unfold owns; iexists _; isplitr
          swap; · iexact HS1
          ipureintro; rfl
        isplitl [HS2]
        · unfold owns; iexists _; isplitr
          swap; · iexact HS2
          ipureintro; rfl
        iexact Hg
      ipureintro
      rw [runFill_q c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc, runFill_k c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc, runFill_v c (grid0.coords t) (ms0 t) (hs0 t) (ms1 t) (hs1 t) (ms2 t) (hs2 t) (ms3 t) (hs3 t) (ms4 t) (hs4 t) scQ (Memref.isWhole_whole _) scK (Memref.isWhole_whole _) scV (Memref.isWhole_whole _) (iblk m c 0 t) (iblk m c 1 t) (iblk m c 2 t) (iblk m c 3 t) ((dats m 0 c).before 4 t d4) q k v hc]
      exact filled_step m c t h15 q k v hF
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is asked of the planes. -/
theorem hin (c : Dev nD) : Pipeline.ΦA spec0 c ⊢ (dats m 0 c).Φ 0 := by
  rw [show (dats m 0 c).Φ 0 = Phi m c 0 from rfl, PhiA_eq]; unfold Phi
  iintro ⟨⟨⟨%q, HS0⟩, ⟨%k, HS1⟩, ⟨%v, HS2⟩⟩, Hg⟩
  iexists q, k, v
  isplitr; · ipureintro; exact ⟨upto_zero _ _ _, upto_zero _ _ _, upto_zero _ _ _⟩
  isplitl [HS0]; · iexact HS0
  isplitl [HS1]; · iexact HS1
  isplitl [HS2]; · iexact HS2
  iexact Hg

/-- After the last point the planes are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]; unfold Phi
  iintro ⟨%q, %k, %v, -, HS0, HS1, HS2, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of the program terminates, and every final state has each array of the pipeline at what
    the proof data give and every other unscoped buffer at its contents when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Final.lean ====
/-
  The result array after the run, as one function of the three planes of each batch.

  The output window's block at point `t` is the whole `[1, 64, 256, 256]` slab of batch `t / 16`; it is written back
  after the last point of each batch, so batch `b`'s slab is what point `16·b + 15` left in the output buffer: the
  attention of that batch's planes. The eight write-backs cover the array.
-/
import proofs.«122084_j62491774157251_2_alg».proof.Proof.Data

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The whole result: entry `(b, ch, h, w)` is entry `(ch, h, w)` of batch `b`'s block. -/
def result (c : Dev nD) : Buf (Elt F) ((c : Thread nD τ).loc main_v4) :=
  fun i => outBlock m c (i 0).val (ValueIdx.ix4 (0 : Fin 1) (i 1) (i 2) (i 3))

/-- The output window's block index at a point: the batch, and zero on the other axes. -/
theorem idx4 : ∀ t : Fin cfg0.N, win0_4.index t (0 : Fin 4) = t.val / 16 ∧ win0_4.index t (1 : Fin 4) = 0
    ∧ win0_4.index t (2 : Fin 4) = 0 ∧ win0_4.index t (3 : Fin 4) = 0 :=
  (by decide +kernel : ∀ t : Fin grid0.N, _)

/-- What a write-back writes is the point's block of `result`. -/
theorem flushed_eq (c : Dev nD) (t : Fin cfg0.N) (hf : (cfg0.win 4).flush t = true) :
    (dats m 0 c).flushed 4 t = ((cfg0.win 4).blk t).view.read (Elt F) (result m c) := by
  show (cfg0.win 4).cut (grid0.coords t) ((dats m 0 c).after 4 t) = _
  rw [after4]
  obtain ⟨e0, e1, e2, e3⟩ := idx4 t
  funext j
  show outBlock m c (t.val / 16) j = result m c (((cfg0.win 4).blk t).view.emb j)
  unfold result
  have hj0 : (j 0).val < 1 := (j 0).isLt
  have h0 : ((((cfg0.win 4).blk t).view.emb j) 0).val = t.val / 16 := by
    show win0_4.index t (0 : Fin 4) * 1 + 1 * (j 0).val = _
    omega
  rw [h0]
  refine congrArg _ (funext fun a => Fin.ext ?_)
  match a with
  | ⟨0, _⟩ => show (j 0).val = 0; omega
  | ⟨1, _⟩ => show (j 1).val = win0_4.index t (1 : Fin 4) * 64 + 1 * (j 1).val; omega
  | ⟨2, _⟩ => show (j 2).val = win0_4.index t (2 : Fin 4) * 256 + 1 * (j 2).val; omega
  | ⟨3, _⟩ => show (j 3).val = win0_4.index t (3 : Fin 4) * 256 + 1 * (j 3).val; omega

/-- An index of the array is in point `t`'s block iff each coordinate is in the block's range on its axis. -/
theorem mem_blk4 (t : Fin cfg0.N) (i : S8x64x256x256.Idx) :
    i ∈ ((cfg0.win 4).blk t).view.set ↔ ∀ a : Fin 4, win0_4.index t a * S1x64x256x256.size a ≤ (i a).val ∧ (i a).val < win0_4.index t a * S1x64x256x256.size a + S1x64x256x256.size a := by
  show i ∈ ((View.whole main_v4).slice (win0_4.rect t)).set ↔ _
  rw [View.set_slice_whole, Rect.mem_set_unit]
  exact Iff.rfl

/-- The array after the run. -/
theorem final4 (c : Dev nD) : (dats m 0 c).arrAt 4 cfg0.N = result m c :=
  (dats m 0 c).arrAt_eq_of_cover 4 (result m c) (flushed_eq m c) fun i => by
    have hi0 : (i 0).val < 8 := (i 0).isLt
    have hi1 : (i 1).val < 64 := (i 1).isLt
    have hi2 : (i 2).val < 256 := (i 2).isLt
    have hi3 : (i 3).val < 256 := (i 3).isLt
    have ht : (pt (16 * (i 0).val + 15)).val = 16 * (i 0).val + 15 := Nat.mod_eq_of_lt (by omega)
    refine ⟨pt (16 * (i 0).val + 15), (flush0_4 _).mpr (by rw [ht]; omega), ?_⟩
    rw [mem_blk4]
    obtain ⟨e0, e1, e2, e3⟩ := idx4 (pt (16 * (i 0).val + 15))
    intro a
    match a with
    | ⟨0, _⟩ =>
      show win0_4.index _ (0 : Fin 4) * 1 ≤ (i 0).val ∧ (i 0).val < win0_4.index _ (0 : Fin 4) * 1 + 1
      rw [e0, ht]; omega
    | ⟨1, _⟩ =>
      show win0_4.index _ (1 : Fin 4) * 64 ≤ (i 1).val ∧ (i 1).val < win0_4.index _ (1 : Fin 4) * 64 + 64
      rw [e1]; omega
    | ⟨2, _⟩ =>
      show win0_4.index _ (2 : Fin 4) * 256 ≤ (i 2).val ∧ (i 2).val < win0_4.index _ (2 : Fin 4) * 256 + 256
      rw [e2]; omega
    | ⟨3, _⟩ =>
      show win0_4.index _ (3 : Fin 4) * 256 ≤ (i 3).val ∧ (i 3).val < win0_4.index _ (3 : Fin 4) * 256 + 256
      rw [e3]; omega

/-- The run with the result named: the result array ends at `result`, the arguments unchanged. -/
theorem run : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩) (run_main m ρ)

end Cert.KernelIdeal.Hand

end
-- ==== Proof.Spec.lean ====
/-
  The function both programs compute, index by index, on the extended reals.

  For a batch `b` and a channel `d` the three projections mix the 64 input channels at every position `(h, w)`:
  `q = Σ_c (Wq[d,c] · 1/8) · x[b,c,h,w]`, `k = Σ_c Wkv[d,c] · x_s[b,c,h,w]`, `v = Σ_c Wkv[64+d,c] · x_s[b,c,h,w]`.
  Within one `(b, d)` the rows `h` attend over the rows `g`: the score is `s[h,g] = Σ_w q[h,w] · k[g,w]`, the weights are the
  softmax of a row of scores taken in the stable form `exp(s - max_g s) / Σ_g exp(s - max_g s)`, and the result is
  `Σ_g weight[h,g] · v[g,w]`. The maximum of a row is written as the fold of `max` from the bottom element, the form in
  which both a lane reduction and a host reduction read.
-/
import Idealize.ShloMosaic.PureOps.Ideal
import Idealize.ShloMosaic.PureOps.Ideal.Laws
import Idealize.ShloMosaic.Lib.ValueIdx

noncomputable section

namespace Cert.AxialAttn

open Idealize.ShloMosaic Idealize.ShloMosaic.ValueIdx

abbrev SX : Shape := ⟨4, ![8, 64, 256, 256]⟩
abbrev SWq : Shape := ⟨2, ![64, 64]⟩
abbrev SWkv : Shape := ⟨2, ![128, 64]⟩

/-- The scale `1/8` the query weights carry, as the binary word the program holds. -/
abbrev eighth : EReal := Ideal.ofBits .f32 0x3E000000#32

/-- The bottom element the row maximum starts from, as the binary word the programs hold. -/
abbrev negInf : EReal := Ideal.ofBits .f32 0xFF800000#32

/-- Row `64·half + d` of the stacked key/value weights (`half = 0`: keys, `half = 1`: values). -/
abbrev kvRow (half : Fin 2) (d : Fin 64) : Fin 128 := ⟨64 * half.val + d.val, by have := half.isLt; have := d.isLt; omega⟩

/-- The query projection, with the scale folded into the weights. -/
def qP (Wq : SWq.Idx → EReal) (x : SX.Idx → EReal) (b : Fin 8) (d : Fin 64) (h w : Fin 256) : EReal :=
  ∑ c : Fin 64, (Wq (ix2 d c) * eighth) * x (ix4 b c h w)

/-- The key (`half = 0`) and value (`half = 1`) projections. -/
def kvP (half : Fin 2) (Wkv : SWkv.Idx → EReal) (xs : SX.Idx → EReal) (b : Fin 8) (d : Fin 64) (h w : Fin 256) : EReal :=
  ∑ c : Fin 64, Wkv (ix2 (kvRow half d) c) * xs (ix4 b c h w)

/-- Attention of the rows of one `256 × 256` plane over the rows of another: scores, stable softmax along `g`, weighted sum. -/
def score (q k : Fin 256 → Fin 256 → EReal) (h g : Fin 256) : EReal := ∑ w : Fin 256, q h w * k g w

def rowMax (q k : Fin 256 → Fin 256 → EReal) (h : Fin 256) : EReal :=
  (Finset.univ : Finset (Fin 256)).fold max negInf (fun g => score q k h g)

def pexp (q k : Fin 256 → Fin 256 → EReal) (h g : Fin 256) : EReal := Ideal.exp (score q k h g - rowMax q k h)

def denom (q k : Fin 256 → Fin 256 → EReal) (h : Fin 256) : EReal := ∑ g : Fin 256, pexp q k h g

def attend (q k v : Fin 256 → Fin 256 → EReal) (h w : Fin 256) : EReal :=
  ∑ g : Fin 256, Ideal.div (pexp q k h g) (denom q k h) * v g w

/-- The whole result: attention within each `(b, d)` plane of the three projections. -/
def G (x xs : SX.Idx → EReal) (Wq : SWq.Idx → EReal) (Wkv : SWkv.Idx → EReal) : SX.Idx → EReal := fun i =>
  attend (qP Wq x (i 0) (i 1)) (kvP 0 Wkv xs (i 0) (i 1)) (kvP 1 Wkv xs (i 0) (i 1)) (i 2) (i 3)

end Cert.AxialAttn

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.PayProj.lean ====
/-
  The three channel projections the body stores, read at one index on the extended reals.

  The query tile is the product of the 64 × 64 query weights with the tile of the input laid out as 64 channels by 4096
  positions; the key and value tiles are the upper and lower 64 rows of ONE product of the stacked 128 × 64 key/value
  weights with the other input's tile. On the extended reals a change of format is the identity and a product into the
  zero accumulator is the plain sum over the 64 input channels.
-/
import proofs.«122084_j62491774157251_2_alg».proof.Proof.Gen.KernelIdeal.Skeleton
import proofs.«122084_j62491774157251_2_alg».proof.Proof.Spec
import proofs.«122084_j62491774157251_2_alg».proof.Proof.LibPlainDot
import Idealize.ShloMosaic.Lib.ValueLayout

noncomputable section

namespace Cert.KernelIdeal.Pay

open Cert.KernelIdeal Cert.KernelIdeal.Gen Idealize.ShloMosaic Idealize.ShloMosaic.ValueIdx

/-- The query product's dimension numbers are those of a plain 64 × 64 by 64 × 4096 product. -/
theorem plain_q : PlainDot.IsPlain dot_S64x64_S64x4096_S64x4096_1_0_0_1_n_n where
  rank := rfl
  size := rfl
  lhs0 := fun i q => by
    unfold DotDims.lhsIdx
    rw [dif_neg (show ¬(0 : Fin S64x64.rank) ∈ dot_S64x64_S64x4096_S64x4096_1_0_0_1_n_n.lhsBatch by decide), dif_pos (show (0 : Fin S64x64.rank) ∈ dot_S64x64_S64x4096_S64x4096_1_0_0_1_n_n.lhsNonContracting by decide)]
    rfl
  lhs1 := fun i q => dot_S64x64_S64x4096_S64x4096_1_0_0_1_n_n.lhsIdx_val_of_single rfl i q
  rhs0 := fun i q => dot_S64x64_S64x4096_S64x4096_1_0_0_1_n_n.rhsIdx_val_of_single rfl i q
  rhs1 := fun i q => by
    unfold DotDims.rhsIdx
    rw [dif_neg (show ¬(1 : Fin S64x4096.rank) ∈ dot_S64x64_S64x4096_S64x4096_1_0_0_1_n_n.rhsBatch by decide), dif_pos (show (1 : Fin S64x4096.rank) ∈ dot_S64x64_S64x4096_S64x4096_1_0_0_1_n_n.rhsNonContracting by decide)]
    rfl

/-- So are those of the stacked key/value product, 128 × 64 by 64 × 4096. -/
theorem plain_kv : PlainDot.IsPlain dot_S128x64_S64x4096_S128x4096_1_0_0_1_n_n where
  rank := rfl
  size := rfl
  lhs0 := fun i q => by
    unfold DotDims.lhsIdx
    rw [dif_neg (show ¬(0 : Fin S128x64.rank) ∈ dot_S128x64_S64x4096_S128x4096_1_0_0_1_n_n.lhsBatch by decide), dif_pos (show (0 : Fin S128x64.rank) ∈ dot_S128x64_S64x4096_S128x4096_1_0_0_1_n_n.lhsNonContracting by decide)]
    rfl
  lhs1 := fun i q => dot_S128x64_S64x4096_S128x4096_1_0_0_1_n_n.lhsIdx_val_of_single rfl i q
  rhs0 := fun i q => dot_S128x64_S64x4096_S128x4096_1_0_0_1_n_n.rhsIdx_val_of_single rfl i q
  rhs1 := fun i q => by
    unfold DotDims.rhsIdx
    rw [dif_neg (show ¬(1 : Fin S64x4096.rank) ∈ dot_S128x64_S64x4096_S128x4096_1_0_0_1_n_n.rhsBatch by decide), dif_pos (show (1 : Fin S64x4096.rank) ∈ dot_S128x64_S64x4096_S128x4096_1_0_0_1_n_n.rhsNonContracting by decide)]
    rfl

/-- The input tile laid out as channels by positions reads the tile at (0, channel, position). -/
theorem tile_apply (x : Vec Ideal S1x64x4096 .f32) (c : Fin 64) (n : Fin 4096) :
    (truncf .bf16 (shapeCast S64x4096 x shapeCasts_S1x64x4096_S64x4096) bitsLt_bf16_f32 : FVec Ideal S64x4096 .bf16) (ix2 c n)
      = x (ix3 (0 : Fin 1) c n) :=
  shapeCast_1ab_ab_apply x shapeCasts_S1x64x4096_S64x4096 c n

/-- The query tile at (channel d, position n): the sum over the input channels of weight times input. -/
theorem pay2_apply (x0 : Vec Ideal S1x64x4096 .f32) (x2 : Vec Ideal S64x64 .f32) (d : Fin 64) (n : Fin 4096) :
    k0_pay2 (F := Ideal) x0 x2 (ix2 d n) = ∑ c : Fin 64, x2 (ix2 d c) * x0 (ix3 (0 : Fin 1) c n) := by
  unfold k0_pay2
  rw [shapeCast_self, shapeCast_self]
  refine (PlainDot.matmul_zero_apply dot_S64x64_S64x4096_S64x4096_1_0_0_1_n_n plain_q none _ _ d n).trans ?_
  refine Finset.sum_congr rfl fun c _ => ?_
  rw [tile_apply]
  rfl

/-- The stacked key/value product at (row r, position n). -/
theorem pay1_apply (x1 : Vec Ideal S1x64x4096 .f32) (x3 : Vec Ideal S128x64 .f32) (r : Fin 128) (n : Fin 4096) :
    k0_pay1 (F := Ideal) x1 x3 (ix2 r n) = ∑ c : Fin 64, x3 (ix2 r c) * x1 (ix3 (0 : Fin 1) c n) := by
  unfold k0_pay1
  refine (PlainDot.matmul_zero_apply dot_S128x64_S64x4096_S128x4096_1_0_0_1_n_n plain_kv none _ _ r n).trans ?_
  refine Finset.sum_congr rfl fun c _ => ?_
  rw [tile_apply]
  rfl

/-- The key tile: rows 0 to 63 of the stacked product. -/
theorem pay3_apply (x1 : Vec Ideal S1x64x4096 .f32) (x3 : Vec Ideal S128x64 .f32) (d : Fin 64) (n : Fin 4096) :
    k0_pay3 (F := Ideal) x1 x3 (ix2 d n)
      = ∑ c : Fin 64, x3 (ix2 (Cert.AxialAttn.kvRow 0 d) c) * x1 (ix3 (0 : Fin 1) c n) := by
  unfold k0_pay3
  rw [shapeCast_self]
  refine (slice2_axis0_apply 0 (k0_pay1 (F := Ideal) x1 x3) slices_S128x4096_o0_0_S64x4096 d n (Cert.AxialAttn.kvRow 0 d) ?_).trans ?_
  · show 64 * 0 + d.val = 0 + d.val
    omega
  · exact pay1_apply x1 x3 _ n

/-- The value tile: rows 64 to 127 of the stacked product. -/
theorem pay4_apply (x1 : Vec Ideal S1x64x4096 .f32) (x3 : Vec Ideal S128x64 .f32) (d : Fin 64) (n : Fin 4096) :
    k0_pay4 (F := Ideal) x1 x3 (ix2 d n)
      = ∑ c : Fin 64, x3 (ix2 (Cert.AxialAttn.kvRow 1 d) c) * x1 (ix3 (0 : Fin 1) c n) := by
  unfold k0_pay4
  rw [shapeCast_self]
  refine (slice2_axis0_apply 64 (k0_pay1 (F := Ideal) x1 x3) slices_S128x4096_o64_0_S64x4096 d n (Cert.AxialAttn.kvRow 1 d) ?_).trans ?_
  · show 64 * 1 + d.val = 64 + d.val
    omega
  · exact pay1_apply x1 x3 _ n

end Cert.KernelIdeal.Pay

end
-- ==== Proof.LibRank3Layout.lean ====
/-
  A general lemma file: layout facts for rank-3 vectors read at an index. A vector with a unit axis spread along that axis
  reads its one entry there; a shorter vector recast with unit axes in front, behind or in the middle reads the entry with
  the same row-major position; a matrix [N, c] with N = a·b recast as [a, b, c] (and back) reads row p·b + q at (p, q);
  and a sum along the last axis, at the extended reals, is the sum over that axis's positions. General over the extents.
-/
import Idealize.ShloMosaic.Lib.Pipeline.Value
import Idealize.ShloMosaic.Lib.ValueIdx
import Idealize.ShloMosaic.PureOps.Ideal.Laws

namespace Idealize.ShloMosaic.Rank3Layout

open Idealize.ShloMosaic Idealize.ShloMosaic.ValueIdx

variable {α : Type}

/-- `[a, 1, c]` spread over `b` middle positions reads, at `(p, q, r)`, entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[1, b, c]` spread over `a` leading positions reads, at `(p, q, r)`, entry `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- `[1, 1, c]` spread over `a · b` leading positions reads, at `(p, q, r)`, entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- `[a, b, 1]` spread over `c` lanes reads, at `(p, q, r)`, entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector `[c]` recast as `[1, 1, c]` reads, at `(u, u', r)`, entry `r`. -/
theorem shapeCast_c_11c_apply {c : ℕ} (x : (⟨1, ![c]⟩ : Shape).Idx → α) (h : (⟨1, ![c]⟩ : Shape).ShapeCasts ⟨3, ![1, 1, c]⟩)
    (u u' : Fin 1) (r : Fin c) : shapeCast ⟨3, ![1, 1, c]⟩ x h (ix3 u u' r) = x (ix1 r) :=
  shapeCast_apply x h _ _ (by
    have hu : u.val = 0 := by omega
    have hu' : u'.val = 0 := by omega
    rw [Shape.rowMajor_val_three, Shape.rowMajor_val_one]
    show r.val = (u.val * 1 + u'.val) * c + r.val
    rw [hu, hu']; simp)

/-- A matrix `[a, b]` recast as `[a, b, 1]` reads, at `(p, q, u)`, entry `(p, q)`. -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu]; simp)

/-- `[a, b, c]` recast as the matrix `[N, c]` of its `N = a · b` rows reads, at row `p · b + q`, entry `(p, q, ·)`. -/
theorem shapeCast_abc_Nc_apply {a b c N : ℕ} (x : (⟨3, ![a, b, c]⟩ : Shape).Idx → α) (h : (⟨3, ![a, b, c]⟩ : Shape).ShapeCasts ⟨2, ![N, c]⟩)
    (p : Fin a) (q : Fin b) (r : Fin c) (n : Fin N) (hn : n.val = p.val * b + q.val) :
    shapeCast ⟨2, ![N, c]⟩ x h (ix2 n r) = x (ix3 p q r) :=
  shapeCast_apply x h _ _ (by
    rw [Shape.rowMajor_val_three, Shape.rowMajor_val_two]
    show (p.val * b + q.val) * c + r.val = n.val * c + r.val
    rw [hn])

/-- The matrix `[N, c]` recast as `[a, b, c]` with `N = a · b` reads, at `(p, q, ·)`, row `p · b + q`. -/
theorem shapeCast_Nc_abc_apply {a b c N : ℕ} (x : (⟨2, ![N, c]⟩ : Shape).Idx → α) (h : (⟨2, ![N, c]⟩ : Shape).ShapeCasts ⟨3, ![a, b, c]⟩)
    (p : Fin a) (q : Fin b) (r : Fin c) (n : Fin N) (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A sum along the lanes of a matrix, at the extended reals, read at row `p`: the sum of the row's entries. -/
theorem laneSum2_apply {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun d => Fin.ext ?_)
  rw [Shape.Reduces.lift_val]
  match d with
  | ⟨0, _⟩ => rfl
  | ⟨1, _⟩ => rfl

/-- A sum along the last axis of a rank-3 vector, at the extended reals, read at `(p, q)`: the sum of that fibre's entries. -/
theorem laneSum3_apply {a b c : ℕ} (src : FVec Ideal ⟨3, ![a, b, c]⟩ .f32) (h : (⟨3, ![a, b, c]⟩ : Shape).Reduces [(2 : Fin 3)] ⟨2, ![a, b]⟩)
    (hφ : FKind.Formats .f32) (hacc : (0x00000000#32 : BitVec 32) = FKind.add.neutral .f32 hφ) (p : Fin a) (q : Fin b) :
    multiReduction .add [(2 : Fin 3)] ⟨2, ![a, b]⟩ src 0x00000000#32 h hφ hacc (ix2 p q) = ∑ k : Fin c, src (ix3 p q k) := by
  refine (Ideal.multiReduction_add_single src 0x00000000#32 h hφ hacc (ix2 p q)).trans ?_
  refine Finset.sum_congr rfl fun k _ => congrArg src (funext fun d => Fin.ext ?_)
  rw [Shape.Reduces.lift_val]
  match d with
  | ⟨0, _⟩ => rfl
  | ⟨1, _⟩ => rfl
  | ⟨2, _⟩ => rfl

end Idealize.ShloMosaic.Rank3Layout
-- ==== Proof.PayAttn.lean ====
/-
  The attention of one group of eight channels, read at one index on the extended reals.

  The three loaded rows — one row of 65536 entries per channel, for the queries, the keys and the values — are laid out
  as 256 × 256 planes, position (h, w) at 256·h + w. Per channel the scores are the products of the query rows with the key
  rows summed over w; a row of scores is shifted by its maximum, exponentiated, and divided by the sum of the exponentials;
  the result is the weights times the value plane, summed over the key rows. On the extended reals every one of these
  steps is the textbook operation, and a change of format is the identity.
-/
import proofs.«122084_j62491774157251_2_alg».proof.Proof.Gen.KernelIdeal.Skeleton
import proofs.«122084_j62491774157251_2_alg».proof.Proof.Spec
import proofs.«122084_j62491774157251_2_alg».proof.Proof.LibRank3Layout
import Idealize.ShloMosaic.Lib.ValueLayout

noncomputable section

namespace Cert.KernelIdeal.Pay

open Cert.KernelIdeal Cert.KernelIdeal.Gen Idealize.ShloMosaic Idealize.ShloMosaic.ValueIdx
open Cert.AxialAttn (score rowMax pexp denom attend negInf)

/-- Channel r of a loaded row block as a 256 × 256 plane: position (p, q) is entry 256·p + q of the row. -/
abbrev plane (x : Vec Ideal S8x65536 .bf16) (r : Fin 8) : Fin 256 → Fin 256 → EReal :=
  fun p q => x (ix2 r ⟨256 * p.val + q.val, by have := p.isLt; have := q.isLt; omega⟩)

/-! ## The layout steps -/

/-- The rows recast as planes read, at (r, p, q), entry 256·p + q of row r. -/
theorem cast_apply {α : Type} (x : S8x65536.Idx → α) (hc : S8x65536.ShapeCasts S8x256x256) (r : Fin 8) (p q : Fin 256)
    (n : Fin 65536) (hn : n.val = 256 * p.val + q.val) : shapeCast S8x256x256 x hc (ix3 r p q) = x (ix2 r n) :=
  shapeCast_apply x hc _ _ (by
    rw [Shape.rowMajor_val_two, Shape.rowMajor_val_three]
    show r.val * 65536 + n.val = (r.val * 256 + p.val) * 256 + q.val
    omega)

/-- The same with the row entry written out: the plane of the row block. -/
theorem cast_plane (x : Vec Ideal S8x65536 .bf16) (hc : S8x65536.ShapeCasts S8x256x256) (r : Fin 8) (p q : Fin 256) :
    shapeCast S8x256x256 x hc (ix3 r p q) = plane x r p q :=
  cast_apply x hc r p q ⟨256 * p.val + q.val, by have := p.isLt; have := q.isLt; omega⟩ rfl

/-- A per-row quantity kept as a unit column and spread along the row reads, everywhere in row (r, p), that quantity. -/
theorem keep_spread_apply {α : Type} (y : S8x256.Idx → α) (h1 : S8x256.ShapeCasts S8x256x1) (h2 : S8x256x1.Broadcasts S8x256x256)
    (r : Fin 8) (p q : Fin 256) : broadcastTo S8x256x256 (shapeCast S8x256x1 y h1) h2 (ix3 r p q) = y (ix2 r p) :=
  (Rank3Layout.broadcastTo_ab1_abc_apply _ h2 r p q).trans (Rank3Layout.shapeCast_ab_ab1_apply y h1 r p 0)

/-! ## The two products with a batch axis -/

/-! The coordinates the score product reads its operands at: result index (r, h, g), contraction position k. -/
theorem sc_lhs0 (i : S8x256x256.Idx) (q : dot_S8x256x256_S8x256x256_S8x256x256_2_2_1_1_0_0.contr.Idx) :
    (dot_S8x256x256_S8x256x256_S8x256x256_2_2_1_1_0_0.lhsIdx i q 0).val = (i 0).val := by
  unfold DotDims.lhsIdx
  rw [dif_pos (show (0 : Fin S8x256x256.rank) ∈ dot_S8x256x256_S8x256x256_S8x256x256_2_2_1_1_0_0.lhsBatch by decide)]
  rfl
theorem sc_lhs1 (i : S8x256x256.Idx) (q : dot_S8x256x256_S8x256x256_S8x256x256_2_2_1_1_0_0.contr.Idx) :
    (dot_S8x256x256_S8x256x256_S8x256x256_2_2_1_1_0_0.lhsIdx i q 1).val = (i 1).val := by
  unfold DotDims.lhsIdx
  rw [dif_neg (show ¬(1 : Fin S8x256x256.rank) ∈ dot_S8x256x256_S8x256x256_S8x256x256_2_2_1_1_0_0.lhsBatch by decide), dif_pos (show (1 : Fin S8x256x256.rank) ∈ dot_S8x256x256_S8x256x256_S8x256x256_2_2_1_1_0_0.lhsNonContracting by decide)]
  rfl
theorem sc_lhs2 (i : S8x256x256.Idx) (q : dot_S8x256x256_S8x256x256_S8x256x256_2_2_1_1_0_0.contr.Idx) :
    (dot_S8x256x256_S8x256x256_S8x256x256_2_2_1_1_0_0.lhsIdx i q 2).val = (q ⟨0, by decide⟩).val :=
  dot_S8x256x256_S8x256x256_S8x256x256_2_2_1_1_0_0.lhsIdx_val_of_single rfl i q
theorem sc_rhs0 (i : S8x256x256.Idx) (q : dot_S8x256x256_S8x256x256_S8x256x256_2_2_1_1_0_0.contr.Idx) :
    (dot_S8x256x256_S8x256x256_S8x256x256_2_2_1_1_0_0.rhsIdx i q 0).val = (i 0).val := by
  unfold DotDims.rhsIdx
  rw [dif_pos (show (0 : Fin S8x256x256.rank) ∈ dot_S8x256x256_S8x256x256_S8x256x256_2_2_1_1_0_0.rhsBatch by decide)]
  rfl
theorem sc_rhs1 (i : S8x256x256.Idx) (q : dot_S8x256x256_S8x256x256_S8x256x256_2_2_1_1_0_0.contr.Idx) :
    (dot_S8x256x256_S8x256x256_S8x256x256_2_2_1_1_0_0.rhsIdx i q 1).val = (i 2).val := by
  unfold DotDims.rhsIdx
  rw [dif_neg (show ¬(1 : Fin S8x256x256.rank) ∈ dot_S8x256x256_S8x256x256_S8x256x256_2_2_1_1_0_0.rhsBatch by decide), dif_pos (show (1 : Fin S8x256x256.rank) ∈ dot_S8x256x256_S8x256x256_S8x256x256_2_2_1_1_0_0.rhsNonContracting by decide)]
  rfl
theorem sc_rhs2 (i : S8x256x256.Idx) (q : dot_S8x256x256_S8x256x256_S8x256x256_2_2_1_1_0_0.contr.Idx) :
    (dot_S8x256x256_S8x256x256_S8x256x256_2_2_1_1_0_0.rhsIdx i q 2).val = (q ⟨0, by decide⟩).val :=
  dot_S8x256x256_S8x256x256_S8x256x256_2_2_1_1_0_0.rhsIdx_val_of_single rfl i q

/-- Scores: per channel, the query plane times the transposed key plane — both operands contracted along their last axis. -/
theorem scores_apply {φ₁ φ₂ : FTy} (a : FVec Ideal S8x256x256 φ₁) (b : FVec Ideal S8x256x256 φ₂) (r : Fin 8) (h g : Fin 256) :
    matmul dot_S8x256x256_S8x256x256_S8x256x256_2_2_1_1_0_0 none a b (constant (F := Ideal) S8x256x256 .f32 0x00000000#32) (ix3 r h g)
      = ∑ w : Fin 256, a (ix3 r h w) * b (ix3 r g w) := by
  refine (Ideal.matmul_constant_zero_apply dot_S8x256x256_S8x256x256_S8x256x256_2_2_1_1_0_0 none a b (ix3 r h g)).trans ?_
  rw [← Equiv.sum_comp (contrEquiv1 dot_S8x256x256_S8x256x256_S8x256x256_2_2_1_1_0_0 256 rfl rfl).symm]
  refine Finset.sum_congr rfl fun k _ => ?_
  have hk := contrEquiv1_symm_val dot_S8x256x256_S8x256x256_S8x256x256_2_2_1_1_0_0 256 rfl rfl k
  have el : dot_S8x256x256_S8x256x256_S8x256x256_2_2_1_1_0_0.lhsIdx (ix3 r h g) ((contrEquiv1 dot_S8x256x256_S8x256x256_S8x256x256_2_2_1_1_0_0 256 rfl rfl).symm k) = ix3 r h k :=
    funext fun ax => Fin.ext (by
      match ax with
      | ⟨0, _⟩ => exact sc_lhs0 _ _
      | ⟨1, _⟩ => exact sc_lhs1 _ _
      | ⟨2, _⟩ => exact (sc_lhs2 _ _).trans hk)
  have er : dot_S8x256x256_S8x256x256_S8x256x256_2_2_1_1_0_0.rhsIdx (ix3 r h g) ((contrEquiv1 dot_S8x256x256_S8x256x256_S8x256x256_2_2_1_1_0_0 256 rfl rfl).symm k) = ix3 r g k :=
    funext fun ax => Fin.ext (by
      match ax with
      | ⟨0, _⟩ => exact sc_rhs0 _ _
      | ⟨1, _⟩ => exact sc_rhs1 _ _
      | ⟨2, _⟩ => exact (sc_rhs2 _ _).trans hk)
  rw [el, er]

/-! The coordinates the weighted sum reads its operands at: result index (r, h, w), contraction position k. -/
theorem ws_lhs0 (i : S8x256x256.Idx) (q : dot_S8x256x256_S8x256x256_S8x256x256_2_1_1_2_0_0.contr.Idx) :
    (dot_S8x256x256_S8x256x256_S8x256x256_2_1_1_2_0_0.lhsIdx i q 0).val = (i 0).val := by
  unfold DotDims.lhsIdx
  rw [dif_pos (show (0 : Fin S8x256x256.rank) ∈ dot_S8x256x256_S8x256x256_S8x256x256_2_1_1_2_0_0.lhsBatch by decide)]
  rfl
theorem ws_lhs1 (i : S8x256x256.Idx) (q : dot_S8x256x256_S8x256x256_S8x256x256_2_1_1_2_0_0.contr.Idx) :
    (dot_S8x256x256_S8x256x256_S8x256x256_2_1_1_2_0_0.lhsIdx i q 1).val = (i 1).val := by
  unfold DotDims.lhsIdx
  rw [dif_neg (show ¬(1 : Fin S8x256x256.rank) ∈ dot_S8x256x256_S8x256x256_S8x256x256_2_1_1_2_0_0.lhsBatch by decide), dif_pos (show (1 : Fin S8x256x256.rank) ∈ dot_S8x256x256_S8x256x256_S8x256x256_2_1_1_2_0_0.lhsNonContracting by decide)]
  rfl
theorem ws_lhs2 (i : S8x256x256.Idx) (q : dot_S8x256x256_S8x256x256_S8x256x256_2_1_1_2_0_0.contr.Idx) :
    (dot_S8x256x256_S8x256x256_S8x256x256_2_1_1_2_0_0.lhsIdx i q 2).val = (q ⟨0, by decide⟩).val :=
  dot_S8x256x256_S8x256x256_S8x256x256_2_1_1_2_0_0.lhsIdx_val_of_single rfl i q
theorem ws_rhs0 (i : S8x256x256.Idx) (q : dot_S8x256x256_S8x256x256_S8x256x256_2_1_1_2_0_0.contr.Idx) :
    (dot_S8x256x256_S8x256x256_S8x256x256_2_1_1_2_0_0.rhsIdx i q 0).val = (i 0).val := by
  unfold DotDims.rhsIdx
  rw [dif_pos (show (0 : Fin S8x256x256.rank) ∈ dot_S8x256x256_S8x256x256_S8x256x256_2_1_1_2_0_0.rhsBatch by decide)]
  rfl
theorem ws_rhs1 (i : S8x256x256.Idx) (q : dot_S8x256x256_S8x256x256_S8x256x256_2_1_1_2_0_0.contr.Idx) :
    (dot_S8x256x256_S8x256x256_S8x256x256_2_1_1_2_0_0.rhsIdx i q 1).val = (q ⟨0, by decide⟩).val :=
  dot_S8x256x256_S8x256x256_S8x256x256_2_1_1_2_0_0.rhsIdx_val_of_single rfl i q
theorem ws_rhs2 (i : S8x256x256.Idx) (q : dot_S8x256x256_S8x256x256_S8x256x256_2_1_1_2_0_0.contr.Idx) :
    (dot_S8x256x256_S8x256x256_S8x256x256_2_1_1_2_0_0.rhsIdx i q 2).val = (i 2).val := by
  unfold DotDims.rhsIdx
  rw [dif_neg (show ¬(2 : Fin S8x256x256.rank) ∈ dot_S8x256x256_S8x256x256_S8x256x256_2_1_1_2_0_0.rhsBatch by decide), dif_pos (show (2 : Fin S8x256x256.rank) ∈ dot_S8x256x256_S8x256x256_S8x256x256_2_1_1_2_0_0.rhsNonContracting by decide)]
  rfl

/-- The weighted sum: per channel, the weights times the value plane — the weights' last axis against the values' rows. -/
theorem weighted_apply {φ₁ φ₂ : FTy} (a : FVec Ideal S8x256x256 φ₁) (b : FVec Ideal S8x256x256 φ₂) (r : Fin 8) (h w : Fin 256) :
    matmul dot_S8x256x256_S8x256x256_S8x256x256_2_1_1_2_0_0 none a b (constant (F := Ideal) S8x256x256 .f32 0x00000000#32) (ix3 r h w)
      = ∑ g : Fin 256, a (ix3 r h g) * b (ix3 r g w) := by
  refine (Ideal.matmul_constant_zero_apply dot_S8x256x256_S8x256x256_S8x256x256_2_1_1_2_0_0 none a b (ix3 r h w)).trans ?_
  rw [← Equiv.sum_comp (contrEquiv1 dot_S8x256x256_S8x256x256_S8x256x256_2_1_1_2_0_0 256 rfl rfl).symm]
  refine Finset.sum_congr rfl fun k _ => ?_
  have hk := contrEquiv1_symm_val dot_S8x256x256_S8x256x256_S8x256x256_2_1_1_2_0_0 256 rfl rfl k
  have el : dot_S8x256x256_S8x256x256_S8x256x256_2_1_1_2_0_0.lhsIdx (ix3 r h w) ((contrEquiv1 dot_S8x256x256_S8x256x256_S8x256x256_2_1_1_2_0_0 256 rfl rfl).symm k) = ix3 r h k :=
    funext fun ax => Fin.ext (by
      match ax with
      | ⟨0, _⟩ => exact ws_lhs0 _ _
      | ⟨1, _⟩ => exact ws_lhs1 _ _
      | ⟨2, _⟩ => exact (ws_lhs2 _ _).trans hk)
  have er : dot_S8x256x256_S8x256x256_S8x256x256_2_1_1_2_0_0.rhsIdx (ix3 r h w) ((contrEquiv1 dot_S8x256x256_S8x256x256_S8x256x256_2_1_1_2_0_0 256 rfl rfl).symm k) = ix3 r k w :=
    funext fun ax => Fin.ext (by
      match ax with
      | ⟨0, _⟩ => exact ws_rhs0 _ _
      | ⟨1, _⟩ => exact (ws_rhs1 _ _).trans hk
      | ⟨2, _⟩ => exact ws_rhs2 _ _)
  rw [el, er]

/-! ## The row maximum -/

/-- The maximum along the last axis, from the bottom element, read at (r, p): the fold of max over that row. -/
theorem rowMax3_apply (src : FVec Ideal S8x256x256 .f32) (hr : S8x256x256.Reduces [2] S8x256)
    (hφ : FKind.Formats .f32) (hacc : (0xFF800000#32 : BitVec 32) = FKind.maximumf.neutral .f32 hφ) (r : Fin 8) (p : Fin 256) :
    multiReduction .maximumf [2] S8x256 src 0xFF800000#32 hr hφ hacc (ix2 r p)
      = (Finset.univ : Finset (Fin 256)).fold max negInf (fun g => src (ix3 r p g)) := by
  refine (Ideal.multiReduction_maximumf_single src 0xFF800000#32 hr hφ hacc (ix2 r p)).trans ?_
  refine congrArg (fun f => (Finset.univ : Finset (Fin 256)).fold max negInf f) (funext fun g => congrArg src (funext fun d => Fin.ext ?_))
  rw [Shape.Reduces.lift_val]
  match d with
  | ⟨0, _⟩ => rfl
  | ⟨1, _⟩ => rfl
  | ⟨2, _⟩ => rfl

/-! ## The pieces of the attention -/

/-- The value plane, widened. -/
theorem pay8_apply (c : Vec Ideal S8x65536 .bf16) (r : Fin 8) (g w : Fin 256) :
    k0_pay8 (F := Ideal) c (ix3 r g w) = plane c r g w := by
  unfold k0_pay8
  exact cast_plane c _ r g w

/-- The scores of the planes of two row blocks. -/
def scoresOf (a b : Vec Ideal S8x65536 .bf16) : FVec Ideal S8x256x256 .f32 :=
  matmul dot_S8x256x256_S8x256x256_S8x256x256_2_2_1_1_0_0 none
    (shapeCast S8x256x256 a shapeCasts_S8x65536_S8x256x256 : FVec Ideal S8x256x256 .bf16)
    (shapeCast S8x256x256 b shapeCasts_S8x65536_S8x256x256 : FVec Ideal S8x256x256 .bf16)
    (constant (F := Ideal) S8x256x256 .f32 0x00000000#32)

theorem scoresOf_apply (a b : Vec Ideal S8x65536 .bf16) (r : Fin 8) (h g : Fin 256) :
    scoresOf a b (ix3 r h g) = score (plane a r) (plane b r) h g := by
  unfold scoresOf score
  refine (scores_apply _ _ r h g).trans ?_
  refine Finset.sum_congr rfl fun w _ => ?_
  rw [cast_plane a _ r h w, cast_plane b _ r g w]

/-- The exponentials of the scores shifted by their row maximum. -/
theorem pay9_apply (a b : Vec Ideal S8x65536 .bf16) (r : Fin 8) (h g : Fin 256) :
    k0_pay9 (F := Ideal) a b (ix3 r h g) = pexp (plane a r) (plane b r) h g := by
  unfold k0_pay9 pexp
  show Ideal.exp (scoresOf a b (ix3 r h g)
      - broadcastTo S8x256x256 (shapeCast S8x256x1
          (multiReduction (F := Ideal) .maximumf [2] S8x256 (scoresOf a b) 0xFF800000#32 reduces_S8x256x256_S8x256 (.inl rfl) rfl)
          shapeCasts_S8x256_S8x256x1) broadcasts_S8x256x1_S8x256x256 (ix3 r h g)) = _
  refine congrArg₂ (fun s m => Ideal.exp (s - m)) (scoresOf_apply a b r h g) ?_
  refine (keep_spread_apply _ _ _ r h g).trans ?_
  refine (rowMax3_apply _ _ _ _ r h).trans ?_
  unfold rowMax
  exact congrArg (fun f => (Finset.univ : Finset (Fin 256)).fold max negInf f) (funext fun g' => scoresOf_apply a b r h g')

/-- The sums of the exponentials, kept as a unit column. -/
theorem pay10_apply (a b : Vec Ideal S8x65536 .bf16) (r : Fin 8) (h : Fin 256) :
    k0_pay10 (F := Ideal) a b (ix3 r h (0 : Fin 1)) = denom (plane a r) (plane b r) h := by
  unfold k0_pay10 denom
  refine (Rank3Layout.shapeCast_ab_ab1_apply _ _ r h 0).trans ?_
  refine (Rank3Layout.laneSum3_apply _ _ _ _ r h).trans ?_
  exact Finset.sum_congr rfl fun g _ => pay9_apply a b r h g

/-- The division by the sums and the product with the values. -/
theorem pay11_apply (v62 v68 : FVec Ideal S8x256x256 .f32) (v70 : FVec Ideal S8x256x1 .f32) (r : Fin 8) (h w : Fin 256) :
    k0_pay11 (F := Ideal) v62 v68 v70 (ix4 (0 : Fin 1) r h w)
      = ∑ g : Fin 256, Ideal.div (v68 (ix3 r h g)) (v70 (ix3 r h (0 : Fin 1))) * v62 (ix3 r g w) := by
  unfold k0_pay11
  refine (shapeCast_abc_1abc_apply _ _ 0 r h w).trans ?_
  refine (weighted_apply _ _ r h w).trans ?_
  refine Finset.sum_congr rfl fun g _ => ?_
  refine congrArg (fun t => Ideal.div (v68 (ix3 r h g)) t * v62 (ix3 r g w)) ?_
  exact Rank3Layout.broadcastTo_ab1_abc_apply v70 _ r h g

/-- The attention of one group of eight channels at (channel r, row h, column w). -/
theorem pay7_apply (vq vk vv : Vec Ideal S8x65536 .bf16) (r : Fin 8) (h w : Fin 256) :
    k0_pay7 (F := Ideal) vq vk vv (ix4 (0 : Fin 1) r h w)
      = Cert.AxialAttn.attend (fun h w => vq (ix2 r ⟨256 * h.val + w.val, by have := h.isLt; have := w.isLt; omega⟩)) (fun g w => vk (ix2 r ⟨256 * g.val + w.val, by have := g.isLt; have := w.isLt; omega⟩)) (fun g w => vv (ix2 r ⟨256 * g.val + w.val, by have := g.isLt; have := w.isLt; omega⟩)) h w := by
  show k0_pay11 (F := Ideal) (k0_pay8 vv) (k0_pay9 vq vk) (k0_pay10 vq vk) (ix4 (0 : Fin 1) r h w)
      = attend (plane vq r) (plane vk r) (plane vv r) h w
  rw [pay11_apply]
  unfold attend
  refine Finset.sum_congr rfl fun g _ => ?_
  rw [pay9_apply, pay10_apply, pay8_apply]

end Cert.KernelIdeal.Pay

end
-- ==== Proof.Blocks.lean ====
/-
  What the input windows hold at a grid point, read at an index.

  The grid has 128 points in row-major order over [8, 16]: point `t` is batch `t / 16` and row-band `t mod 16`. The two
  activation arrays `[8, 64, 256, 256]` reach the region flattened to `[8, 64, 65536]` (a plane's entry `(h, w)` at position
  `256 · h + w`), and each of their windows takes, at point `t`, the `[1, 64, 4096]` block at block index
  `(t / 16, 0, t mod 16)`: for every channel, positions `4096 · (t mod 16) + j`, that is the sixteen rows
  `16 · (t mod 16) … 16 · (t mod 16) + 15` of the plane. The query weights reach the region multiplied entrywise by the
  constant `1/8`, and their window, like the key/value weights' window, is the whole matrix at every point.
-/
import proofs.«122084_j62491774157251_2_alg».proof.Proof.Gen.KernelIdeal.Frame
import proofs.«122084_j62491774157251_2_alg».proof.Proof.Spec
import Idealize.ShloMosaic.Lib.Pipeline.Value
import Idealize.ShloMosaic.Lib.ValueIdx
import Idealize.ShloMosaic.Lib.IdealHost

set_option maxRecDepth 16384

noncomputable section

namespace Cert.KernelIdeal.Blocks

open Cert.KernelIdeal Cert.KernelIdeal.Gen Idealize.ShloMosaic Idealize.ShloMosaic.ValueIdx
open Idealize.ShloMosaic.TcCoe

variable (m : (ℓ : Loc nD τ sig) → Buf (Elt Ideal) ℓ) (c : Dev nD)

/-! ## The printed index maps over the grid -/

/-- Window 0's block index at point `t` is `(t / 16, 0, t mod 16)` (decided over the 128 points). -/
theorem idx0 : ∀ t : Fin cfg0.N, win0_0.index t (0 : Fin 3) = t.val / 16 ∧ win0_0.index t (1 : Fin 3) = 0 ∧ win0_0.index t (2 : Fin 3) = t.val % 16 :=
  (by decide +kernel : ∀ t : Fin grid0.N, _)

/-- Window 1's block index at point `t` is `(t / 16, 0, t mod 16)`. -/
theorem idx1 : ∀ t : Fin cfg0.N, win0_1.index t (0 : Fin 3) = t.val / 16 ∧ win0_1.index t (1 : Fin 3) = 0 ∧ win0_1.index t (2 : Fin 3) = t.val % 16 :=
  (by decide +kernel : ∀ t : Fin grid0.N, _)

/-- Window 2's block index is `(0, 0)` at every point. -/
theorem idx2 : ∀ t : Fin cfg0.N, win0_2.index t (0 : Fin 2) = 0 ∧ win0_2.index t (1 : Fin 2) = 0 :=
  (by decide +kernel : ∀ t : Fin grid0.N, _)

/-- Window 3's block index is `(0, 0)` at every point. -/
theorem idx3 : ∀ t : Fin cfg0.N, win0_3.index t (0 : Fin 2) = 0 ∧ win0_3.index t (1 : Fin 2) = 0 :=
  (by decide +kernel : ∀ t : Fin grid0.N, _)

/-- A grid point's number is below 128. -/
theorem t_lt (t : Fin cfg0.N) : t.val < 128 := by
  have h := t.isLt
  have e : cfg0.N = 128 := N_0
  omega

/-! ## The arrays the host operations wrote -/

/-- The first flattened activation array is the first argument recast from `[8, 64, 256, 256]` to `[8, 64, 65536]`. -/
theorem V_v2 : (V m c main_v2 : S8x64x65536.Idx → EReal) = shapeCast S8x64x65536 (m ((c : Thread nD τ).loc main_arg0) : S8x64x256x256.Idx → EReal) shapeCasts_S8x64x256x256_S8x64x65536 := by
  dsimp only [Gen.V, Gen.hostOps0]; after_results; rfl

/-- The second flattened activation array is the second argument recast likewise. -/
theorem V_v3 : (V m c main_v3 : S8x64x65536.Idx → EReal) = shapeCast S8x64x65536 (m ((c : Thread nD τ).loc main_arg1) : S8x64x256x256.Idx → EReal) shapeCasts_S8x64x256x256_S8x64x65536 := by
  dsimp only [Gen.V, Gen.hostOps0]; after_results; rfl

/-- The scaled query weights are the third argument times the constant `1/8` spread over the matrix. -/
theorem V_v1 : (V m c main_v1 : S64x64.Idx → EReal) = mulf (m ((c : Thread nD τ).loc main_arg2) : FVec Ideal S64x64 .f32) (broadcastInDim S64x64 ![] bcast_S_S64x64 (constant (F := Ideal) S_ .f32 0x3E000000#32)) := by
  dsimp only [Gen.V, Gen.hostOps0]; after_results

/-- `[a, b, c, d]` recast as `[a, b, N]` with `N = c · d` reads, at `(p, q, r · d + s)`, entry `(p, q, r, s)`. -/
theorem shapeCast_abcd_abN_apply {α : Type} {a b c d N : ℕ} (x : (⟨4, ![a, b, c, d]⟩ : Shape).Idx → α)
    (h : (⟨4, ![a, b, c, d]⟩ : Shape).ShapeCasts ⟨3, ![a, b, N]⟩) (hN : N = c * d)
    (p : Fin a) (q : Fin b) (r : Fin c) (s : Fin d) (n : Fin N) (hn : n.val = r.val * d + s.val) :
    shapeCast ⟨3, ![a, b, N]⟩ x h (ix3 p q n) = x (ix4 p q r s) :=
  shapeCast_apply x h _ _ (by
    rw [Shape.rowMajor_val_four, Shape.rowMajor_val_three]
    show ((p.val * b + q.val) * c + r.val) * d + s.val = (p.val * b + q.val) * N + n.val
    rw [hn, hN]; ring)

/-! ## The blocks read at an index -/

/-- Window 0's block at point `t`, at channel `cc` and position `j`: the first argument at batch `t / 16`, channel `cc`,
    row `(4096 · (t mod 16) + j) / 256`, column `(4096 · (t mod 16) + j) mod 256`. -/
theorem iblk0_apply (t : Fin cfg0.N) (cc : Fin 64) (j : Fin 4096) :
    (iblk m c 0 t : Vec Ideal S1x64x4096 .f32) (ix3 (0 : Fin 1) cc j)
      = m ((c : Thread nD τ).loc main_arg0) (ix4 (⟨t.val / 16, by have := t_lt t; omega⟩ : Fin 8) cc
          (⟨(4096 * (t.val % 16) + j.val) / 256, by have := j.isLt; omega⟩ : Fin 256)
          (⟨(4096 * (t.val % 16) + j.val) % 256, by omega⟩ : Fin 256)) := by
  have ht := t_lt t
  have hj := j.isLt
  obtain ⟨e0, e1, e2⟩ := idx0 t
  have hemb : ((cfg0.win 0).blk t).view.emb (ix3 (0 : Fin 1) cc j)
      = (ix3 (⟨t.val / 16, by omega⟩ : Fin 8) cc (⟨4096 * (t.val % 16) + j.val, by omega⟩ : Fin 65536) : S8x64x65536.Idx) := by
    funext a; apply Fin.ext
    match a with
    | ⟨0, _⟩ => show win0_0.index t (0 : Fin 3) * 1 + 1 * (0 : Fin 1).val = t.val / 16; omega
    | ⟨1, _⟩ => show win0_0.index t (1 : Fin 3) * 64 + 1 * cc.val = cc.val; omega
    | ⟨2, _⟩ => show win0_0.index t (2 : Fin 3) * 4096 + 1 * j.val = 4096 * (t.val % 16) + j.val; omega
  show (V m c main_v2 : S8x64x65536.Idx → EReal) (((cfg0.win 0).blk t).view.emb (ix3 (0 : Fin 1) cc j)) = _
  rw [hemb, V_v2]
  exact shapeCast_abcd_abN_apply _ _ (by norm_num) _ _ _ _ _ (by show 4096 * (t.val % 16) + j.val = (4096 * (t.val % 16) + j.val) / 256 * 256 + (4096 * (t.val % 16) + j.val) % 256; omega)

/-- Window 1's block at point `t`, at channel `cc` and position `j`: the second argument at batch `t / 16`, channel `cc`,
    row `(4096 · (t mod 16) + j) / 256`, column `(4096 · (t mod 16) + j) mod 256`. -/
theorem iblk1_apply (t : Fin cfg0.N) (cc : Fin 64) (j : Fin 4096) :
    (iblk m c 1 t : Vec Ideal S1x64x4096 .f32) (ix3 (0 : Fin 1) cc j)
      = m ((c : Thread nD τ).loc main_arg1) (ix4 (⟨t.val / 16, by have := t_lt t; omega⟩ : Fin 8) cc
          (⟨(4096 * (t.val % 16) + j.val) / 256, by have := j.isLt; omega⟩ : Fin 256)
          (⟨(4096 * (t.val % 16) + j.val) % 256, by omega⟩ : Fin 256)) := by
  have ht := t_lt t
  have hj := j.isLt
  obtain ⟨e0, e1, e2⟩ := idx1 t
  have hemb : ((cfg0.win 1).blk t).view.emb (ix3 (0 : Fin 1) cc j)
      = (ix3 (⟨t.val / 16, by omega⟩ : Fin 8) cc (⟨4096 * (t.val % 16) + j.val, by omega⟩ : Fin 65536) : S8x64x65536.Idx) := by
    funext a; apply Fin.ext
    match a with
    | ⟨0, _⟩ => show win0_1.index t (0 : Fin 3) * 1 + 1 * (0 : Fin 1).val = t.val / 16; omega
    | ⟨1, _⟩ => show win0_1.index t (1 : Fin 3) * 64 + 1 * cc.val = cc.val; omega
    | ⟨2, _⟩ => show win0_1.index t (2 : Fin 3) * 4096 + 1 * j.val = 4096 * (t.val % 16) + j.val; omega
  show (V m c main_v3 : S8x64x65536.Idx → EReal) (((cfg0.win 1).blk t).view.emb (ix3 (0 : Fin 1) cc j)) = _
  rw [hemb, V_v3]
  exact shapeCast_abcd_abN_apply _ _ (by norm_num) _ _ _ _ _ (by show 4096 * (t.val % 16) + j.val = (4096 * (t.val % 16) + j.val) / 256 * 256 + (4096 * (t.val % 16) + j.val) % 256; omega)

/-- Window 2's block at every point is the query weights times `1/8`, entry by entry. -/
theorem iblk2_apply (t : Fin cfg0.N) (d cc : Fin 64) :
    (iblk m c 2 t : Vec Ideal S64x64 .f32) (ix2 d cc) = HMul.hMul (α := EReal) (β := EReal) (γ := EReal) (m ((c : Thread nD τ).loc main_arg2) (ix2 d cc)) Cert.AxialAttn.eighth := by
  obtain ⟨e0, e1⟩ := idx2 t
  have hemb : ((cfg0.win 2).blk t).view.emb (ix2 d cc) = (ix2 d cc : S64x64.Idx) := by
    funext a; apply Fin.ext
    match a with
    | ⟨0, _⟩ => show win0_2.index t (0 : Fin 2) * 64 + 1 * d.val = d.val; omega
    | ⟨1, _⟩ => show win0_2.index t (1 : Fin 2) * 64 + 1 * cc.val = cc.val; omega
  show (V m c main_v1 : S64x64.Idx → EReal) (((cfg0.win 2).blk t).view.emb (ix2 d cc)) = _
  rw [hemb, V_v1, mulf_apply, broadcastInDim_scalar_apply, constant_apply]

/-- Window 3's block at every point is the key/value weights. -/
theorem iblk3_apply (t : Fin cfg0.N) (r : Fin 128) (cc : Fin 64) :
    (iblk m c 3 t : Vec Ideal S128x64 .f32) (ix2 r cc) = m ((c : Thread nD τ).loc main_arg3) (ix2 r cc) := by
  obtain ⟨e0, e1⟩ := idx3 t
  have hemb : ((cfg0.win 3).blk t).view.emb (ix2 r cc) = (ix2 r cc : S128x64.Idx) := by
    funext a; apply Fin.ext
    match a with
    | ⟨0, _⟩ => show win0_3.index t (0 : Fin 2) * 128 + 1 * r.val = r.val; omega
    | ⟨1, _⟩ => show win0_3.index t (1 : Fin 2) * 64 + 1 * cc.val = cc.val; omega
  show (V m c main_arg3 : S128x64.Idx → EReal) (((cfg0.win 3).blk t).view.emb (ix2 r cc)) = _
  rw [hemb, V_main_arg3]

/-- The same with the weights named as a function into the extended reals. -/
theorem iblk2_apply' (t : Fin cfg0.N) (d cc : Fin 64) (Wq : S64x64.Idx → EReal) (hW : Wq = m ((c : Thread nD τ).loc main_arg2)) :
    (iblk m c 2 t : Vec Ideal S64x64 .f32) (ix2 d cc) = Wq (ix2 d cc) * Cert.AxialAttn.eighth := by
  subst hW; exact iblk2_apply m c t d cc

/-- Window 0's block by rows: the block at point `t` holds, for each channel, the sixteen rows `16 · (t mod 16) + r` of the
    plane, row `r` of the block starting at column `256 · r`. -/
theorem iblk0_apply_rows (t : Fin cfg0.N) (cc : Fin 64) (r : Fin 16) (w : Fin 256) :
    (iblk m c 0 t : Vec Ideal S1x64x4096 .f32) (ix3 (0 : Fin 1) cc (⟨256 * r.val + w.val, by have := r.isLt; have := w.isLt; omega⟩ : Fin 4096))
      = m ((c : Thread nD τ).loc main_arg0) (ix4 (⟨t.val / 16, by have := t_lt t; omega⟩ : Fin 8) cc
          (⟨16 * (t.val % 16) + r.val, by have := r.isLt; omega⟩ : Fin 256) w) := by
  have hr := r.isLt
  have hw := w.isLt
  rw [iblk0_apply]
  congr 1
  funext a; apply Fin.ext
  match a with
  | ⟨0, _⟩ => rfl
  | ⟨1, _⟩ => rfl
  | ⟨2, _⟩ => show (4096 * (t.val % 16) + (256 * r.val + w.val)) / 256 = 16 * (t.val % 16) + r.val; omega
  | ⟨3, _⟩ => show (4096 * (t.val % 16) + (256 * r.val + w.val)) % 256 = w.val; omega

/-- Window 1's block by rows, as window 0's. -/
theorem iblk1_apply_rows (t : Fin cfg0.N) (cc : Fin 64) (r : Fin 16) (w : Fin 256) :
    (iblk m c 1 t : Vec Ideal S1x64x4096 .f32) (ix3 (0 : Fin 1) cc (⟨256 * r.val + w.val, by have := r.isLt; have := w.isLt; omega⟩ : Fin 4096))
      = m ((c : Thread nD τ).loc main_arg1) (ix4 (⟨t.val / 16, by have := t_lt t; omega⟩ : Fin 8) cc
          (⟨16 * (t.val % 16) + r.val, by have := r.isLt; omega⟩ : Fin 256) w) := by
  have hr := r.isLt
  have hw := w.isLt
  rw [iblk1_apply]
  congr 1
  funext a; apply Fin.ext
  match a with
  | ⟨0, _⟩ => rfl
  | ⟨1, _⟩ => rfl
  | ⟨2, _⟩ => show (4096 * (t.val % 16) + (256 * r.val + w.val)) / 256 = 16 * (t.val % 16) + r.val; omega
  | ⟨3, _⟩ => show (4096 * (t.val % 16) + (256 * r.val + w.val)) % 256 = w.val; omega

end Cert.KernelIdeal.Blocks

end
-- ==== Proof.KernelValue.lean ====
/-
  At the extended reals the result array of the kernel is the attention function of the specification.

  The plane of batch `b` at row `d` and column `256·h + w` is the tile of point `16·b + (256·h + w) / 4096` at its local
  column; that tile is the product of the scaled query weights (or the stacked key/value weights) with the block of the
  flattened input the point's window holds, and the flattened input at column `256·h + w` is the input at `(h, w)`. So the
  three planes are the three projections of the specification, and a group of eight rows of them, run through the
  group's attention, is the attention of the specification at those channels.
-/
import proofs.«122084_j62491774157251_2_alg».proof.Proof.Final
import proofs.«122084_j62491774157251_2_alg».proof.Proof.PayProj
import proofs.«122084_j62491774157251_2_alg».proof.Proof.PayAttn
import proofs.«122084_j62491774157251_2_alg».proof.Proof.Blocks
import proofs.«122084_j62491774157251_2_alg».proof.Proof.Spec

set_option maxRecDepth 16384

noncomputable section

namespace Cert.KernelIdeal.Hand

open Cert.KernelIdeal Cert.KernelIdeal.Gen Cert.KernelIdeal.Pay Cert.KernelIdeal.Blocks Cert.AxialAttn
open Idealize.ShloMosaic Idealize.ShloMosaic.TcCoe Idealize.ShloMosaic.ValueIdx
open Idealize.SL Idealize.SL.Sem

variable (m : (ℓ : Loc nD τ sig) → Buf (Elt Ideal) ℓ)

/-- Column `256·h + w` of a plane. -/
abbrev col (h w : Fin 256) : Fin 65536 := ⟨256 * h.val + w.val, by have := h.isLt; have := w.isLt; omega⟩

/-- The query plane is the query projection. -/
theorem planeQ_apply (c : Dev nD) (b : Fin 8) (d : Fin 64) (h w : Fin 256) :
    plane (qTile (F := Ideal) m c) b.val (ix2 d (col h w))
      = qP (m ((c : Thread nD τ).loc main_arg2)) (m ((c : Thread nD τ).loc main_arg0)) b d h w := by
  have hb := b.isLt; have hh := h.isLt; have hw := w.isLt
  show qTile (F := Ideal) m c (pt (16 * b.val + (256 * h.val + w.val) / 4096)) (ix2 d ⟨(256 * h.val + w.val) % 4096, Nat.mod_lt _ (by decide)⟩) = _
  unfold qTile
  rw [pay2_apply]
  unfold qP
  refine Finset.sum_congr rfl fun cc _ => ?_
  rw [iblk2_apply, iblk0_apply]
  have hp : (pt (16 * b.val + (256 * h.val + w.val) / 4096)).val = 16 * b.val + (256 * h.val + w.val) / 4096 :=
    Nat.mod_eq_of_lt (by omega)
  refine congrArg _ (congrArg _ (funext fun a => Fin.ext ?_))
  match a with
  | ⟨0, _⟩ => show (pt _).val / 16 = b.val; rw [hp]; omega
  | ⟨1, _⟩ => rfl
  | ⟨2, _⟩ => show (4096 * ((pt _).val % 16) + (256 * h.val + w.val) % 4096) / 256 = h.val; rw [hp]; omega
  | ⟨3, _⟩ => show (4096 * ((pt _).val % 16) + (256 * h.val + w.val) % 4096) % 256 = w.val; rw [hp]; omega

/-- The key and value planes are the key and value projections. -/
theorem planeK_apply (c : Dev nD) (b : Fin 8) (d : Fin 64) (h w : Fin 256) :
    plane (kTile (F := Ideal) m c) b.val (ix2 d (col h w))
      = kvP 0 (m ((c : Thread nD τ).loc main_arg3)) (m ((c : Thread nD τ).loc main_arg1)) b d h w := by
  have hb := b.isLt; have hh := h.isLt; have hw := w.isLt
  show kTile (F := Ideal) m c (pt (16 * b.val + (256 * h.val + w.val) / 4096)) (ix2 d ⟨(256 * h.val + w.val) % 4096, Nat.mod_lt _ (by decide)⟩) = _
  unfold kTile
  rw [pay3_apply]
  unfold kvP
  refine Finset.sum_congr rfl fun cc _ => ?_
  rw [iblk3_apply, iblk1_apply]
  have hp : (pt (16 * b.val + (256 * h.val + w.val) / 4096)).val = 16 * b.val + (256 * h.val + w.val) / 4096 :=
    Nat.mod_eq_of_lt (by omega)
  refine congrArg _ (congrArg _ (funext fun a => Fin.ext ?_))
  match a with
  | ⟨0, _⟩ => show (pt _).val / 16 = b.val; rw [hp]; omega
  | ⟨1, _⟩ => rfl
  | ⟨2, _⟩ => show (4096 * ((pt _).val % 16) + (256 * h.val + w.val) % 4096) / 256 = h.val; rw [hp]; omega
  | ⟨3, _⟩ => show (4096 * ((pt _).val % 16) + (256 * h.val + w.val) % 4096) % 256 = w.val; rw [hp]; omega

theorem planeV_apply (c : Dev nD) (b : Fin 8) (d : Fin 64) (h w : Fin 256) :
    plane (vTile (F := Ideal) m c) b.val (ix2 d (col h w))
      = kvP 1 (m ((c : Thread nD τ).loc main_arg3)) (m ((c : Thread nD τ).loc main_arg1)) b d h w := by
  have hb := b.isLt; have hh := h.isLt; have hw := w.isLt
  show vTile (F := Ideal) m c (pt (16 * b.val + (256 * h.val + w.val) / 4096)) (ix2 d ⟨(256 * h.val + w.val) % 4096, Nat.mod_lt _ (by decide)⟩) = _
  unfold vTile
  rw [pay4_apply]
  unfold kvP
  refine Finset.sum_congr rfl fun cc _ => ?_
  rw [iblk3_apply, iblk1_apply]
  have hp : (pt (16 * b.val + (256 * h.val + w.val) / 4096)).val = 16 * b.val + (256 * h.val + w.val) / 4096 :=
    Nat.mod_eq_of_lt (by omega)
  refine congrArg _ (congrArg _ (funext fun a => Fin.ext ?_))
  match a with
  | ⟨0, _⟩ => show (pt _).val / 16 = b.val; rw [hp]; omega
  | ⟨1, _⟩ => rfl
  | ⟨2, _⟩ => show (4096 * ((pt _).val % 16) + (256 * h.val + w.val) % 4096) / 256 = h.val; rw [hp]; omega
  | ⟨3, _⟩ => show (4096 * ((pt _).val % 16) + (256 * h.val + w.val) % 4096) % 256 = w.val; rw [hp]; omega

/-- Row `ch % 8` of group `ch / 8` of a plane is row `ch`. -/
theorem grp_row (X : Vec Ideal S64x65536 .bf16) (ch : Fin 64) (n : Fin 65536) :
    grp X (ch.val / 8) (ix2 ⟨ch.val % 8, Nat.mod_lt _ (by decide)⟩ n) = X (ix2 ch n) := by
  unfold grp
  refine congrArg X (funext fun a => Fin.ext ?_)
  have := ch.isLt
  match a with
  | ⟨0, _⟩ => show (8 * (ch.val / 8) + ch.val % 8) % 64 = ch.val; omega
  | ⟨1, _⟩ => rfl

/-- The kernel's result array is the specification's function of the four argument arrays. -/
theorem result_eq (c : Dev nD) :
    result (F := Ideal) m c = G (m ((c : Thread nD τ).loc main_arg0)) (m ((c : Thread nD τ).loc main_arg1))
      (m ((c : Thread nD τ).loc main_arg2)) (m ((c : Thread nD τ).loc main_arg3)) := by
  funext i
  obtain ⟨b, ch, h, w, rfl⟩ : ∃ (b : Fin 8) (ch : Fin 64) (h w : Fin 256), i = ix4 b ch h w := ⟨i 0, i 1, i 2, i 3, eq_ix4 i⟩
  show k0_pay7 (F := Ideal) (grp (plane (qTile m c) b.val) (ch.val / 8)) (grp (plane (kTile m c) b.val) (ch.val / 8))
      (grp (plane (vTile m c) b.val) (ch.val / 8)) (ix4 (0 : Fin 1) ⟨ch.val % 8, Nat.mod_lt _ (by decide)⟩ h w)
    = attend (qP (m ((c : Thread nD τ).loc main_arg2)) (m ((c : Thread nD τ).loc main_arg0)) b ch)
        (kvP 0 (m ((c : Thread nD τ).loc main_arg3)) (m ((c : Thread nD τ).loc main_arg1)) b ch)
        (kvP 1 (m ((c : Thread nD τ).loc main_arg3)) (m ((c : Thread nD τ).loc main_arg1)) b ch) h w
  rw [pay7_apply]
  refine congrFun (congrFun (congr (congr (congrArg attend ?_) ?_) ?_) h) w
  · funext h' w'
    exact (grp_row _ ch (col h' w')).trans (planeQ_apply m c b ch h' w')
  · funext h' w'
    exact (grp_row _ ch (col h' w')).trans (planeK_apply m c b ch h' w')
  · funext h' w'
    exact (grp_row _ ch (col h' w')).trans (planeV_apply m c b ch h' w')

end Cert.KernelIdeal.Hand

end
-- ==== Proof.RefLaw.lean ====
/-
  The arithmetic the reference's reading needs, apart from any index bookkeeping: the binary words the reference holds
  denote 64, 1/2, 1/8, 0 and the bottom element; 64 to the power 1/2 is 8; and a finite sum of products of real numbers,
  divided by 8, is the same sum with the factor 1/8 attached to the first factor of every product.
-/
import Idealize.ShloMosaic.PureOps.Ideal
import Idealize.ShloMosaic.PureOps.Ideal.Laws

noncomputable section

namespace Cert.AxialAttn.Ref

open Idealize.ShloMosaic

/-- The word `0x42800000` denotes 64. -/
theorem word_sixtyfour : Ideal.ofBits .f32 0x42800000#32 = ((64 : ℝ) : EReal) := by
  simp [Ideal.ofBits, Ideal.ieee, -EReal.coe_mul]; norm_num

/-- The word `0x3F000000` denotes 1/2. -/
theorem word_half : Ideal.ofBits .f32 0x3F000000#32 = ((1 / 2 : ℝ) : EReal) := by
  simp [Ideal.ofBits, Ideal.ieee, -EReal.coe_mul]; norm_num

/-- The word `0x3E000000` denotes 1/8. -/
theorem word_eighth : Ideal.ofBits .f32 0x3E000000#32 = ((1 / 8 : ℝ) : EReal) := by
  simp [Ideal.ofBits, Ideal.ieee, -EReal.coe_mul]; norm_num

/-- The word `0x00000000` denotes 0. -/
theorem word_zero : Ideal.ofBits .f32 0x00000000#32 = (0 : EReal) := by
  simp [Ideal.ofBits, Ideal.ieee]

/-- The word `0xFF800000` denotes the bottom element. -/
theorem word_bot : Ideal.ofBits .f32 0xFF800000#32 = (⊥ : EReal) := by
  simp [Ideal.ofBits, Ideal.ieee]

/-- The square root of 64, as a real power, is 8. -/
theorem rpow_sixtyfour_half : Real.rpow 64 (1 / 2) = 8 := by
  rw [show (64 : ℝ) = 8 ^ (2 : ℝ) by norm_num, Real.rpow_eq_pow, ← Real.rpow_mul (by norm_num)]; norm_num

/-- The reference's temperature, 64 to the power 1/2 on the extended reals, is 8. -/
theorem temperature :
    Ideal.pow (Ideal.ofBits .f32 0x42800000#32) (Ideal.ofBits .f32 0x3F000000#32) = ((8 : ℝ) : EReal) := by
  rw [word_sixtyfour, word_half, Ideal.pow_coe_coe, rpow_sixtyfour_half]

/-- The inclusion of the reals in the extended reals commutes with a finite sum. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A sum of products of real entries, divided by 8, is the sum with 1/8 attached to the first factors. On the extended
    reals multiplication does not distribute over sums in general; for real entries it does. -/
theorem sum_div_eight {ι : Type} [Fintype ι] (f g : ι → EReal)
    (hf : ∀ k, ∃ r : ℝ, f k = (r : EReal)) (hg : ∀ k, ∃ r : ℝ, g k = (r : EReal)) :
    Ideal.div (∑ k, f k * g k) ((8 : ℝ) : EReal) = ∑ k, (f k * ((1 / 8 : ℝ) : EReal)) * g k := by
  choose fr hfr using hf
  choose gr hgr using hg
  rw [Ideal.div_coe (by norm_num : (8 : ℝ) ≠ 0)]
  simp only [hfr, hgr, ← EReal.coe_mul, ← coe_sum]
  rw [Finset.sum_mul]
  congr 1
  exact Finset.sum_congr rfl fun k _ => by ring

end Cert.AxialAttn.Ref

end
-- ==== Proof.RefValue.lean ====
/-
  The reference's result, read index by index, is the attention function of the specification.
-/
import proofs.«122084_j62491774157251_2_alg».proof.Proof.Gen.ReferenceIdeal.Read
import proofs.«122084_j62491774157251_2_alg».proof.Proof.Spec
import proofs.«122084_j62491774157251_2_alg».proof.Proof.RefLaw

noncomputable section

namespace Cert.AxialAttn.Ref

open Cert.ReferenceIdeal Cert.ReferenceIdeal.Gen Cert.ReferenceIdeal.Read Idealize.ShloMosaic Idealize.ShloMosaic.ValueIdx Cert.AxialAttn

/-! ### The query projection -/

/-- The temperature the reference divides by is 8 at every index. -/
theorem temp_at (i : S8x64x256x256.Idx) : val_main_v13 (F := Ideal) i = ((8 : ℝ) : EReal) := by
  rw [val_main_v13_apply, val_main_v0_apply, val_main_cst_apply, val_main_cst_0_apply]
  exact temperature

/-- The reference's scaled query at `(b, d, h, w)`: the channel mix divided by 8 is the specification's mix with weights
    scaled by 1/8, the entries being real. -/
theorem q_at (x0 : (⟨S8x64x256x256, .f32⟩ : BufTy).Contents (Elt Ideal)) (x2 : (⟨S64x64, .f32⟩ : BufTy).Contents (Elt Ideal))
    (h0 : ∀ i, ∃ r : ℝ, x0 i = (r : EReal)) (h2 : ∀ i, ∃ r : ℝ, x2 i = (r : EReal))
    (b : Fin 8) (d : Fin 64) (h w : Fin 256) :
    val_main_v14 (F := Ideal) x0 x2 (ix4 b d h w) = qP x2 x0 b d h w := by
  rw [val_main_v14_apply, temp_at, val_main_v3_apply, val_main_v2_apply]
  simp only [val_main_v1_apply]
  have e1 : ∀ k : Fin 64, lidx_main_v2 (idx_main_v3 (ix4 b d h w)) k = ix2 d k := fun k =>
    funext fun a => by match a with | ⟨0, _⟩ => rfl | ⟨1, _⟩ => rfl
  have e2 : ∀ k : Fin 64, idx_main_v1 (ridx_main_v2 (idx_main_v3 (ix4 b d h w)) k) = ix4 b k h w := fun k =>
    funext fun a => by match a with | ⟨0, _⟩ => rfl | ⟨1, _⟩ => rfl | ⟨2, _⟩ => rfl | ⟨3, _⟩ => rfl
  simp only [e1, e2]
  rw [Ideal.hostDivf_def, sum_div_eight _ _ (fun k => h2 _) (fun k => h0 _)]
  unfold qP
  rw [show eighth = ((1 / 8 : ℝ) : EReal) from word_eighth]

/-! ### The key and value projections -/

/-- The last transpose reads the entry `(b, d, g, w)` at `(b, g, w, d)`. -/
theorem v9_idx (b : Fin 8) (d : Fin 64) (g w : Fin 256) : idx_main_v9 (ix4 b d g w) = ix4 b g w d := by
  funext a; match a with | ⟨0, _⟩ => rfl | ⟨1, _⟩ => rfl | ⟨2, _⟩ => rfl | ⟨3, _⟩ => rfl

theorem v12_idx (b : Fin 8) (d : Fin 64) (g w : Fin 256) : idx_main_v12 (ix4 b d g w) = ix4 b g w d := by
  funext a; match a with | ⟨0, _⟩ => rfl | ⟨1, _⟩ => rfl | ⟨2, _⟩ => rfl | ⟨3, _⟩ => rfl

/-- Dropping the unit axis: the flat position of `(b, g, w, d)` is that of `(b, g, w, 0, d)`. -/
theorem v8_idx (b : Fin 8) (g w : Fin 256) (d : Fin 64) :
    idx_main_v8 (ix4 b g w d) = ix5 b g w (0 : Fin 1) d := by
  have hb := b.isLt; have hd := d.isLt; have hg := g.isLt; have hw := w.isLt
  funext a
  apply Fin.ext
  match a with
  | ⟨0, _⟩ => show (((b.val * 256 + g.val) * 256 + w.val) * 64 + d.val) / 4194304 = b.val; omega
  | ⟨1, _⟩ => show (((b.val * 256 + g.val) * 256 + w.val) * 64 + d.val) / 16384 % 256 = g.val; omega
  | ⟨2, _⟩ => show (((b.val * 256 + g.val) * 256 + w.val) * 64 + d.val) / 64 % 256 = w.val; omega
  | ⟨3, _⟩ => rfl
  | ⟨4, _⟩ => show (((b.val * 256 + g.val) * 256 + w.val) * 64 + d.val) % 64 = d.val; omega

theorem v11_idx (b : Fin 8) (g w : Fin 256) (d : Fin 64) :
    idx_main_v11 (ix4 b g w d) = ix5 b g w (0 : Fin 1) d := v8_idx b g w d

/-- The slice of the first half reads `(b, g, w, 0, d)` at the same place. -/
theorem v7_idx (b : Fin 8) (g w : Fin 256) (d : Fin 64) :
    idx_main_v7 (ix5 b g w (0 : Fin 1) d) = ix5 b g w (0 : Fin 2) d := by
  funext a; match a with | ⟨0, _⟩ => rfl | ⟨1, _⟩ => rfl | ⟨2, _⟩ => rfl | ⟨3, _⟩ => rfl | ⟨4, _⟩ => rfl

/-- The slice of the second half reads `(b, g, w, 0, d)` at `(b, g, w, 1, d)`. -/
theorem v10_idx (b : Fin 8) (g w : Fin 256) (d : Fin 64) :
    idx_main_v10 (ix5 b g w (0 : Fin 1) d) = ix5 b g w (1 : Fin 2) d := by
  funext a; match a with | ⟨0, _⟩ => rfl | ⟨1, _⟩ => rfl | ⟨2, _⟩ => rfl | ⟨3, _⟩ => rfl | ⟨4, _⟩ => rfl

/-- Splitting the axis of 128 rows into 2 × 64: `(b, g, w, half, d)` is read at row `64·half + d`. -/
theorem v6_idx (b : Fin 8) (g w : Fin 256) (half : Fin 2) (d : Fin 64) :
    idx_main_v6 (ix5 b g w half d) = ix4 b g w (kvRow half d) := by
  have hb := b.isLt; have hd := d.isLt; have hg := g.isLt; have hw := w.isLt; have hh := half.isLt
  funext a
  apply Fin.ext
  match a with
  | ⟨0, _⟩ => show ((((b.val * 256 + g.val) * 256 + w.val) * 2 + half.val) * 64 + d.val) / 8388608 = b.val; omega
  | ⟨1, _⟩ => show ((((b.val * 256 + g.val) * 256 + w.val) * 2 + half.val) * 64 + d.val) / 32768 % 256 = g.val; omega
  | ⟨2, _⟩ => show ((((b.val * 256 + g.val) * 256 + w.val) * 2 + half.val) * 64 + d.val) / 128 % 256 = w.val; omega
  | ⟨3, _⟩ => show ((((b.val * 256 + g.val) * 256 + w.val) * 2 + half.val) * 64 + d.val) % 128 = 64 * half.val + d.val; omega

/-- The stacked projection at `(b, g, w, r)`: row `r` of the stacked weights against the channels of `x_s`. -/
theorem v5_at (x1 : (⟨S8x64x256x256, .f32⟩ : BufTy).Contents (Elt Ideal)) (x3 : (⟨S128x64, .f32⟩ : BufTy).Contents (Elt Ideal))
    (b : Fin 8) (g w : Fin 256) (r : Fin 128) :
    val_main_v5 (F := Ideal) x1 x3 (ix4 b g w r) = ∑ c : Fin 64, x3 (ix2 r c) * x1 (ix4 b c g w) := by
  rw [val_main_v5_apply]
  simp only [val_main_v4_apply]
  have e1 : ∀ k : Fin 64, idx_main_v4 (lidx_main_v5 (ix4 b g w r) k) = ix4 b k g w := fun k =>
    funext fun a => by match a with | ⟨0, _⟩ => rfl | ⟨1, _⟩ => rfl | ⟨2, _⟩ => rfl | ⟨3, _⟩ => rfl
  have e2 : ∀ k : Fin 64, ridx_main_v5 (ix4 b g w r) k = ix2 r k := fun k =>
    funext fun a => by match a with | ⟨0, _⟩ => rfl | ⟨1, _⟩ => rfl
  simp only [e1, e2]
  exact Finset.sum_congr rfl fun c _ => mul_comm _ _

/-- The reference's key at `(b, d, g, w)` is the specification's. -/
theorem k_at (x1 : (⟨S8x64x256x256, .f32⟩ : BufTy).Contents (Elt Ideal)) (x3 : (⟨S128x64, .f32⟩ : BufTy).Contents (Elt Ideal))
    (b : Fin 8) (d : Fin 64) (g w : Fin 256) :
    val_main_v9 (F := Ideal) x1 x3 (ix4 b d g w) = kvP 0 x3 x1 b d g w := by
  rw [val_main_v9_apply, v9_idx, val_main_v8_apply, v8_idx, val_main_v7_apply, v7_idx, val_main_v6_apply, v6_idx, v5_at]
  rfl

/-- The reference's value at `(b, d, g, w)` is the specification's. -/
theorem v_at (x1 : (⟨S8x64x256x256, .f32⟩ : BufTy).Contents (Elt Ideal)) (x3 : (⟨S128x64, .f32⟩ : BufTy).Contents (Elt Ideal))
    (b : Fin 8) (d : Fin 64) (g w : Fin 256) :
    val_main_v12 (F := Ideal) x1 x3 (ix4 b d g w) = kvP 1 x3 x1 b d g w := by
  rw [val_main_v12_apply, v12_idx, val_main_v11_apply, v11_idx, val_main_v10_apply, v10_idx, val_main_v6_apply, v6_idx, v5_at]
  rfl

/-! ### Scores, row maximum, exponentials, denominator -/

/-- The reference's score at `(b, d, h, g)`: the query row `h` against the key row `g`. -/
theorem score_at (x0 x1 : (⟨S8x64x256x256, .f32⟩ : BufTy).Contents (Elt Ideal)) (x2 : (⟨S64x64, .f32⟩ : BufTy).Contents (Elt Ideal)) (x3 : (⟨S128x64, .f32⟩ : BufTy).Contents (Elt Ideal))
    (h0 : ∀ i, ∃ r : ℝ, x0 i = (r : EReal)) (h2 : ∀ i, ∃ r : ℝ, x2 i = (r : EReal))
    (b : Fin 8) (d : Fin 64) (h g : Fin 256) :
    val_main_v15 (F := Ideal) x0 x1 x2 x3 (ix4 b d h g)
      = score (qP x2 x0 b d) (kvP 0 x3 x1 b d) h g := by
  rw [val_main_v15_apply]
  have e1 : ∀ k : Fin 256, lidx_main_v15 (ix4 b d h g) k = ix4 b d h k := fun k =>
    funext fun a => by match a with | ⟨0, _⟩ => rfl | ⟨1, _⟩ => rfl | ⟨2, _⟩ => rfl | ⟨3, _⟩ => rfl
  have e2 : ∀ k : Fin 256, ridx_main_v15 (ix4 b d h g) k = ix4 b d g k := fun k =>
    funext fun a => by match a with | ⟨0, _⟩ => rfl | ⟨1, _⟩ => rfl | ⟨2, _⟩ => rfl | ⟨3, _⟩ => rfl
  simp only [e1, e2, q_at x0 x2 h0 h2, k_at]
  rfl

/-- Dropping the last axis of the score array leaves the `(b, d, h)` array. -/
theorem reduces3 : S8x64x256x256.Reduces [3] S8x64x256 := by decide

/-- The index over `(b, d, h)` with `g` inserted on the dropped axis is `(b, d, h, g)`. -/
theorem lift_idx (b : Fin 8) (d : Fin 64) (h g : Fin 256) : reduces3.lift (ix3 b d h) g = ix4 b d h g :=
  funext fun a => Fin.ext (by
    match a with | ⟨0, _⟩ => rfl | ⟨1, _⟩ => rfl | ⟨2, _⟩ => rfl | ⟨3, _⟩ => rfl)

/-- The reference's row maximum at `(b, d, h)`: the fold of `max` over the scores of row `h`, and taking the maximum with
    the bottom element once more changes nothing. -/
theorem max_at (x0 x1 : (⟨S8x64x256x256, .f32⟩ : BufTy).Contents (Elt Ideal)) (x2 : (⟨S64x64, .f32⟩ : BufTy).Contents (Elt Ideal)) (x3 : (⟨S128x64, .f32⟩ : BufTy).Contents (Elt Ideal))
    (h0 : ∀ i, ∃ r : ℝ, x0 i = (r : EReal)) (h2 : ∀ i, ∃ r : ℝ, x2 i = (r : EReal))
    (b : Fin 8) (d : Fin 64) (h : Fin 256) :
    val_main_v18 (F := Ideal) x0 x1 x2 x3 (ix3 b d h)
      = rowMax (qP x2 x0 b d) (kvP 0 x3 x1 b d) h := by
  rw [val_main_v18_apply, val_main_v17_apply, val_main_cst_2_apply]
  unfold val_main_v16
  rw [Host.reduce_eq_fold_single (FloatOps.maximumf (F := Ideal) (φ := .f32)) _ _ reducesTo_S8x64x256x256_S8x64x256_d3
    reduces3 h_S_ (ix3 b d h), val_main_cst_1_apply]
  have e : (val_main_v15 (F := Ideal) x0 x1 x2 x3 ∘ reduces3.lift (ix3 b d h))
      = fun g : Fin 256 => score (qP x2 x0 b d) (kvP 0 x3 x1 b d) h g := funext fun g =>
    (congrArg (val_main_v15 (F := Ideal) x0 x1 x2 x3) (lift_idx b d h g)).trans (score_at x0 x1 x2 x3 h0 h2 b d h g)
  rw [e]
  unfold rowMax
  simp only [Ideal.ofBits_def, Ideal.maximumf_def]
  rw [show negInf = (⊥ : EReal) from word_bot, word_bot]
  exact max_eq_right bot_le

/-- The reference's exponential at `(b, d, h, g)`: the score minus the row maximum, broadcast back along `g`. -/
theorem exp_at (x0 x1 : (⟨S8x64x256x256, .f32⟩ : BufTy).Contents (Elt Ideal)) (x2 : (⟨S64x64, .f32⟩ : BufTy).Contents (Elt Ideal)) (x3 : (⟨S128x64, .f32⟩ : BufTy).Contents (Elt Ideal))
    (h0 : ∀ i, ∃ r : ℝ, x0 i = (r : EReal)) (h2 : ∀ i, ∃ r : ℝ, x2 i = (r : EReal))
    (b : Fin 8) (d : Fin 64) (h g : Fin 256) :
    val_main_v22 (F := Ideal) x0 x1 x2 x3 (ix4 b d h g)
      = pexp (qP x2 x0 b d) (kvP 0 x3 x1 b d) h g := by
  rw [val_main_v22_apply, val_main_v21_apply, val_main_v20_apply, val_main_v19_apply]
  have e : idx_main_v19 (idx_main_v20 (ix4 b d h g)) = ix3 b d h :=
    funext fun a => by match a with | ⟨0, _⟩ => rfl | ⟨1, _⟩ => rfl | ⟨2, _⟩ => rfl
  rw [e, max_at x0 x1 x2 x3 h0 h2, score_at x0 x1 x2 x3 h0 h2]
  rfl

/-- The reference's denominator at `(b, d, h, g)`: zero plus the sum of the row's exponentials, broadcast along `g`. -/
theorem denom_at (x0 x1 : (⟨S8x64x256x256, .f32⟩ : BufTy).Contents (Elt Ideal)) (x2 : (⟨S64x64, .f32⟩ : BufTy).Contents (Elt Ideal)) (x3 : (⟨S128x64, .f32⟩ : BufTy).Contents (Elt Ideal))
    (h0 : ∀ i, ∃ r : ℝ, x0 i = (r : EReal)) (h2 : ∀ i, ∃ r : ℝ, x2 i = (r : EReal))
    (b : Fin 8) (d : Fin 64) (h g : Fin 256) :
    val_main_v25 (F := Ideal) x0 x1 x2 x3 (ix4 b d h g)
      = denom (qP x2 x0 b d) (kvP 0 x3 x1 b d) h := by
  rw [val_main_v25_apply, val_main_v24_apply]
  have e : idx_main_v24 (idx_main_v25 (ix4 b d h g)) = ix3 b d h :=
    funext fun a => by match a with | ⟨0, _⟩ => rfl | ⟨1, _⟩ => rfl | ⟨2, _⟩ => rfl
  rw [e, val_main_v23_apply, val_main_cst_3_apply, Ideal.ofBits_def, word_zero, zero_add]
  have e2 : ∀ k : Fin 256, idx_main_v23 (ix3 b d h) k = ix4 b d h k := fun k =>
    funext fun a => by match a with | ⟨0, _⟩ => rfl | ⟨1, _⟩ => rfl | ⟨2, _⟩ => rfl | ⟨3, _⟩ => rfl
  simp only [e2, exp_at x0 x1 x2 x3 h0 h2]
  rfl

/-! ### The result -/

/-- The reference's result at `(b, d, h, w)` is the specification's attention. -/
theorem result_at (x0 x1 : (⟨S8x64x256x256, .f32⟩ : BufTy).Contents (Elt Ideal)) (x2 : (⟨S64x64, .f32⟩ : BufTy).Contents (Elt Ideal)) (x3 : (⟨S128x64, .f32⟩ : BufTy).Contents (Elt Ideal))
    (h0 : ∀ i, ∃ r : ℝ, x0 i = (r : EReal)) (h2 : ∀ i, ∃ r : ℝ, x2 i = (r : EReal))
    (b : Fin 8) (d : Fin 64) (h w : Fin 256) :
    val_main_v27 (F := Ideal) x0 x1 x2 x3 (ix4 b d h w)
      = attend (qP x2 x0 b d) (kvP 0 x3 x1 b d) (kvP 1 x3 x1 b d) h w := by
  rw [val_main_v27_apply]
  have e1 : ∀ k : Fin 256, lidx_main_v27 (ix4 b d h w) k = ix4 b d h k := fun k =>
    funext fun a => by match a with | ⟨0, _⟩ => rfl | ⟨1, _⟩ => rfl | ⟨2, _⟩ => rfl | ⟨3, _⟩ => rfl
  have e2 : ∀ k : Fin 256, ridx_main_v27 (ix4 b d h w) k = ix4 b d k w := fun k =>
    funext fun a => by match a with | ⟨0, _⟩ => rfl | ⟨1, _⟩ => rfl | ⟨2, _⟩ => rfl | ⟨3, _⟩ => rfl
  simp only [e1, e2, val_main_v26_apply, exp_at x0 x1 x2 x3 h0 h2, denom_at x0 x1 x2 x3 h0 h2, v_at, Ideal.hostDivf_def]
  rfl

/-- The reference's result array is the specification's function of the four arguments, the entries of `x` and of the
    query weights being real (the key/value side needs no such hypothesis). -/
theorem result_eq (x0 x1 : (⟨S8x64x256x256, .f32⟩ : BufTy).Contents (Elt Ideal)) (x2 : (⟨S64x64, .f32⟩ : BufTy).Contents (Elt Ideal)) (x3 : (⟨S128x64, .f32⟩ : BufTy).Contents (Elt Ideal))
    (h0 : ∀ i, ∃ r : ℝ, x0 i = (r : EReal)) (h2 : ∀ i, ∃ r : ℝ, x2 i = (r : EReal)) :
    Cert.ReferenceIdeal.Read.val_main_v27 (F := Ideal) x0 x1 x2 x3 = Cert.AxialAttn.G x0 x1 x2 x3 := by
  funext i
  have hi : i = ix4 (i 0 : Fin 8) (i 1 : Fin 64) (i 2 : Fin 256) (i 3 : Fin 256) :=
    funext fun a => by match a with | ⟨0, _⟩ => rfl | ⟨1, _⟩ => rfl | ⟨2, _⟩ => rfl | ⟨3, _⟩ => rfl
  show _ = attend (qP x2 x0 (i 0) (i 1)) (kvP 0 x3 x1 (i 0) (i 1)) (kvP 1 x3 x1 (i 0) (i 1)) (i 2) (i 3)
  exact (congrArg (val_main_v27 (F := Ideal) x0 x1 x2 x3) hi).trans (result_at x0 x1 x2 x3 h0 h2 (i 0) (i 1) (i 2) (i 3))

end Cert.AxialAttn.Ref

end
-- ==== Proof.LibFiniteAll.lean ====
/-
  `jnp.all(|x| < inf)` read back at the extended reals: when the reduction by `and` of the comparisons of every entry's
  absolute value with the +infinity constant comes out true, every entry of the array is a real number (neither infinity:
  the absolute value of either infinity is +infinity, which is not below itself). Nothing here depends on a program.
-/
import Idealize.ShloMosaic.Lib.ReduceAll
import Idealize.ShloMosaic.Lib.ValueIdx
import Idealize.ShloMosaic.PureOps.Ideal.Laws

noncomputable section

namespace FiniteAll

open Idealize.ShloMosaic

/-- The f32 word with all exponent bits set and no fraction is +infinity. -/
theorem inf_f32 : Ideal.ofBits .f32 0x7F800000#32 = ⊤ := by simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton (⟨0, ![]⟩ : Shape).Idx := ⟨fun a b => funext fun d => d.elim0⟩

/-- If the `and` over all entries of `|x| < +inf` is true, every entry of `x` is a real number. -/
theorem all_real {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
          (constantI ⟨0, ![]⟩ 1 1#1) h hu j = 1#1) (i : s.Idx) : ∃ r : ℝ, x i = (r : EReal) := by
  have hi := Host.reduce_andi_all _ _ h hu j e i
  have hi' : Ideal.cmp .olt (max (x i) (-(x i))) (Ideal.ofBits .f32 0x7F800000#32) = 1#1 := hi
  rw [inf_f32] at hi'
  unfold Ideal.cmp at hi'
  refine real_of_abs_lt_top (x i) ?_
  by_contra hc
  simp [hc] at hi'

end FiniteAll

end
-- ==== Proof.Finite.lean ====
/-
  From the precondition to real entries. The precondition is the conjunction, over the four input arrays, of "every
  entry's absolute value is below +infinity"; on the extended reals an entry whose absolute value is below +infinity is a
  real number. So when the precondition's one bit is set, every entry of every input is a real number.
-/
import proofs.«122084_j62491774157251_2_alg».proof.Pre_finite_inputs
import proofs.«122084_j62491774157251_2_alg».proof.Proof.LibFiniteAll
import Idealize.ShloMosaic.Lib.Affine

noncomputable section

namespace Cert.Finite

open Idealize.ShloMosaic Cert.Pre_finite_inputs

variable [Cert.Pre_finite_inputs.Facts]
open Cert.Pre_finite_inputs.Facts

/-- If the precondition holds of four arrays on the extended reals, every entry of each of them is a real number. -/
theorem inputs_real (a0 a1 : FVec Ideal S8x64x256x256 .f32) (a2 : FVec Ideal S64x64 .f32) (a3 : FVec Ideal S128x64 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨FiniteAll.all_real a0 _ _ _ _ h0', FiniteAll.all_real a1 _ _ _ _ h1, FiniteAll.all_real a2 _ _ _ _ h2,
    FiniteAll.all_real a3 _ _ _ _ h3⟩

end Cert.Finite

end
-- ==== Proof.lean ====
/-
  The five claims of the certificate.

  The kernel fills three scratch planes tile by tile — the query, key and value projections of one batch — and at the last
  tile of the batch computes, for every channel, the attention of the rows of the query plane over the rows of the key
  plane (scores, a stable softmax along the attended rows, a weighted sum of the value plane's rows). The reference
  computes the same projections with host contractions and transposes, divides the query by the square root of the channel
  count (exactly 8) where the kernel multiplied the query weights by 1/8 beforehand, and runs the same softmax and sum.
  On the extended reals the two agree as soon as the query weights and the input are real numbers, which the
  precondition gives: moving the factor 1/8 into the sum over channels is the one step that needs finiteness.

  Both frames of the kernel (at the word level and at the extended reals) come from one proof of the body, generic in the
  interpretation of floats: the region invariant tracks what the scratch planes hold on the tiles already walked.
  The reference's frame is its run with the result dropped. Nothing was rewritten between the kernel and its idealization.
-/
import proofs.«122084_j62491774157251_2_alg».proof.Defs
import proofs.«122084_j62491774157251_2_alg».proof.Proof.Gen.Kernel
import proofs.«122084_j62491774157251_2_alg».proof.Proof.Gen.KernelIdeal
import proofs.«122084_j62491774157251_2_alg».proof.Proof.Gen.ReferenceIdeal
import proofs.«122084_j62491774157251_2_alg».proof.Proof.Gen.Pre_finite_inputs
import proofs.«122084_j62491774157251_2_alg».proof.Proof.Gen.ReferenceIdeal.Run
import proofs.«122084_j62491774157251_2_alg».proof.Proof.Gen.ReferenceIdeal.Read
import proofs.«122084_j62491774157251_2_alg».proof.Proof.KData
import proofs.«122084_j62491774157251_2_alg».proof.Proof.Data
import proofs.«122084_j62491774157251_2_alg».proof.Proof.Final
import proofs.«122084_j62491774157251_2_alg».proof.Proof.KernelValue
import proofs.«122084_j62491774157251_2_alg».proof.Proof.RefValue
import proofs.«122084_j62491774157251_2_alg».proof.Proof.Finite

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Hand.frame m ρ

/-- So does its reading at the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Both programs end at the attention function of the specification, of arguments that agree. -/
theorem algebraic : Cert.algebraic_KernelIdeal_ReferenceIdeal := by
  intro m ρ m' ρ' hpre hagree
  refine ⟨fun c => Cert.AxialAttn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.result_eq m c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, (hagree c).1, (hagree c).2.1, (hagree c).2.2.1, (hagree c).2.2.2]
    obtain ⟨f0, f1, f2, f3⟩ := Cert.Finite.inputs_real _ _ _ _ (hpre c)
    exact Cert.AxialAttn.Ref.result_eq _ _ _ _ f0 f2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
